-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000x32 : Shape := ⟨2, ![1600000, 32]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x32 : Shape := ⟨2, ![128, 32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_

variable [Facts]

def fn_part2 {F : FTy → Type} [FloatOps F] (main_arg11 : FVec F S128 .f32) (main_arg12 : FVec F S128x128 .f32) (main_arg13 : FVec F S128 .f32) (main_v33 : IVec S_ 1) : IVec S_ 1 :=
  let main_v34 : FVec F S128 .f32 := Host.absf main_arg11
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg12
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg13
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg8 : FVec F S128x32 .f32) (main_arg9 : FVec F S128 .f32) (main_arg10 : FVec F S128x128 .f32) (main_arg11 : FVec F S128 .f32) (main_arg12 : FVec F S128x128 .f32) (main_arg13 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x32 .f32 := Host.absf main_arg8
  let main_cst_6 : FVec F S_ .f32 := constant S_ .f32 0x7F800000#32
  let main_v20 : FVec F S128x32 .f32 := broadcastInDim S128x32 ![] bcast_S_S128x32 main_cst_6
  let main_v21 : IVec S128x32 1 := cmpf .olt main_v19 main_v20
  let main_c_7 : IVec S_ 1 := constantI S_ 1 1#1
  let main_v22 : IVec S_ 1 := (fun x v => Host.reduce IntOp.andi x v reducesTo_S128x32_S_d0_1 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg10
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg11 main_arg12 main_arg13 main_v33

def fn {F : FTy → Type} [FloatOps F] (main_arg0 : FVec F S100000x128 .f32) (main_arg1 : FVec F S1600000x32 .f32) (main_arg2 : IVec S1600000 32) (main_arg3 : IVec S1600000 32) (main_arg4 : IVec S1600000 32) (main_arg5 : IVec S100000 32) (main_arg6 : FVec F S128x128 .f32) (main_arg7 : FVec F S128 .f32) (main_arg8 : FVec F S128x32 .f32) (main_arg9 : FVec F S128 .f32) (main_arg10 : FVec F S128x128 .f32) (main_arg11 : FVec F S128 .f32) (main_arg12 : FVec F S128x128 .f32) (main_arg13 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x32 .f32 := Host.absf main_arg1
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S128x128 .f32 := Host.absf main_arg6
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg7
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg8 main_arg9 main_arg10 main_arg11 main_arg12 main_arg13 main_v13 main_v16
-- ==== Kernel.lean ====
abbrev S100000x128 : Shape := ⟨2, ![100000, 128]⟩
abbrev S1600000x32 : Shape := ⟨2, ![1600000, 32]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x32 : Shape := ⟨2, ![128, 32]⟩
abbrev S32x128 : Shape := ⟨2, ![32, 128]⟩
abbrev S1x128 : Shape := ⟨2, ![1, 128]⟩
abbrev S1600000x128 : Shape := ⟨2, ![1600000, 128]⟩
abbrev S16000x32 : Shape := ⟨2, ![16000, 32]⟩
abbrev S16000x128 : Shape := ⟨2, ![16000, 128]⟩
abbrev S_ : Shape := ⟨0, ![]⟩
abbrev S1600000x1 : Shape := ⟨2, ![1600000, 1]⟩
abbrev S5000x128 : Shape := ⟨2, ![5000, 128]⟩
abbrev S64x128 : Shape := ⟨2, ![64, 128]⟩
abbrev S100000x1 : Shape := ⟨2, ![100000, 1]⟩

abbrev nBuf : Space → Nat
  | .hbm => 83
  | .vmem => 46
  | .smem => 0
  | _ => 0

abbrev bufTy : (tb : Table) → Fin (tcTables nBuf tb) → BufTy
  | .hbm, ⟨0, _⟩ => ⟨S100000x128, .f32⟩
  | .hbm, ⟨1, _⟩ => ⟨S1600000x32, .f32⟩
  | .hbm, ⟨2, _⟩ => ⟨S1600000, .i32⟩
  | .hbm, ⟨3, _⟩ => ⟨S1600000, .i32⟩
  | .hbm, ⟨4, _⟩ => ⟨S1600000, .i32⟩
  | .hbm, ⟨5, _⟩ => ⟨S100000, .i32⟩
  | .hbm, ⟨6, _⟩ => ⟨S128x128, .f32⟩
  | .hbm, ⟨7, _⟩ => ⟨S128, .f32⟩
  | .hbm, ⟨8, _⟩ => ⟨S128x32, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S32x128, .f32⟩
  | .hbm, ⟨16, _⟩ => ⟨S128x128, .f32⟩
  | .hbm, ⟨17, _⟩ => ⟨S128x128, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S100000x128, .f32⟩
  | .hbm, ⟨28, _⟩ => ⟨S100000x128, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000x128, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x128, .f32⟩
  | .hbm, ⟨66, _⟩ => ⟨S_, .f32⟩
  | .hbm, ⟨67, _⟩ => ⟨S100000x128, .f32⟩
  | .hbm, ⟨68, _⟩ => ⟨S1600000x1, .i32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S64x128, .f32⟩
  | .hbm, ⟨74, _⟩ => ⟨S100000x1, .i32⟩
  | .hbm, ⟨75, _⟩ => ⟨S64x128, .f32⟩
  | .hbm, ⟨76, _⟩ => ⟨S_, .f32⟩
  | .hbm, ⟨77, _⟩ => ⟨S64x128, .f32⟩
  | .hbm, ⟨78, _⟩ => ⟨S64x128, .i1⟩
  | .hbm, ⟨79, _⟩ => ⟨S_, .f32⟩
  | .hbm, ⟨80, _⟩ => ⟨S64x128, .f32⟩
  | .hbm, ⟨81, _⟩ => ⟨S64x128, .f32⟩
  | .hbm, ⟨82, _⟩ => ⟨S64x128, .f32⟩
  | .local _ .vmem, ⟨0, _⟩ => ⟨S16000x32, .f32⟩
  | .local _ .vmem, ⟨1, _⟩ => ⟨S16000x32, .f32⟩
  | .local _ .vmem, ⟨2, _⟩ => ⟨S32x128, .f32⟩
  | .local _ .vmem, ⟨3, _⟩ => ⟨S1x128, .f32⟩
  | .local _ .vmem, ⟨4, _⟩ => ⟨S16000x128, .f32⟩
  | .local _ .vmem, ⟨5, _⟩ => ⟨S16000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S128x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S128x128, .f32⟩
  | .local _ .vmem, ⟨43, _⟩ => ⟨S1x128, .f32⟩
  | .local _ .vmem, ⟨44, _⟩ => ⟨S5000x128, .f32⟩
  | .local _ .vmem, ⟨45, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12_0 : Ref sig .tc := ⟨.hbm, 27, rfl⟩
abbrev main_v12_1 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_1 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_2 : Ref sig .tc := ⟨.hbm, 43, rfl⟩
abbrev main_v24 : Ref sig .tc := ⟨.hbm, 44, rfl⟩
abbrev main_v25 : Ref sig .tc := ⟨.hbm, 45, rfl⟩
abbrev main_c_3 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_4 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_5 : Ref sig .tc := ⟨.hbm, 57, rfl⟩
abbrev main_v35 : Ref sig .tc := ⟨.hbm, 58, rfl⟩
abbrev main_v36 : Ref sig .tc := ⟨.hbm, 59, rfl⟩
abbrev main_c_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_7 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_8 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_9 : Ref sig .tc := ⟨.hbm, 76, rfl⟩
abbrev main_v50 : Ref sig .tc := ⟨.hbm, 77, rfl⟩
abbrev main_v51 : Ref sig .tc := ⟨.hbm, 78, rfl⟩
abbrev main_cst_10 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg4_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg3_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem4_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem3_1 : DmaSem sig := 45

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  transposes_S128x128_S128x128_1_0 : S128x128.Transposes [1, 0] S128x128
  transposes_S128x32_S32x128_1_0 : S128x32.Transposes [1, 0] S32x128
  shapeCasts_S128_S1x128 : S128.ShapeCasts S1x128
  inb_S16000x32_S16000x32_0_0 : ∀ a, (![0, 0] : Fin 2 → Nat) a + S16000x32.size a ≤ S16000x32.size a
  h_S16000x32 : 0 < S16000x32.numel
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16000x128 : S1x128.Broadcasts S16000x128
  inb_S16000x128_S16000x128_0_0 : ∀ a, (![0, 0] : Fin 2 → Nat) a + S16000x128.size a ≤ S16000x128.size a
  h_S16000x128 : 0 < S16000x128.numel
  bcast_S_S100000x128 : S_.BroadcastsInDim S100000x128 (![] : Fin 0 → Fin S100000x128.rank)
  bcast_S1600000_S1600000x1_0 : S1600000.BroadcastsInDim S1600000x1 (![0] : Fin 1 → Fin S1600000x1.rank)
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  shapeCasts_S5000x128_S5000x128 : S5000x128.ShapeCasts S5000x128
  bcast_S_S1600000 : S_.BroadcastsInDim S1600000 (![] : Fin 0 → Fin S1600000.rank)
  bcast_S_S64x128 : S_.BroadcastsInDim S64x128 (![] : Fin 0 → Fin S64x128.rank)
  bcast_S100000_S100000x1_0 : S100000.BroadcastsInDim S100000x1 (![0] : Fin 1 → Fin S100000x1.rank)
  dot_S16000x32_S32x128_S16000x128_1_0_0_1_n_n_wf : DotDims.WF S16000x32 S32x128 S16000x128 [1] [0] [0] [1] [] []
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S64x128_S100000x1_S100000x128_1_0_0_1_wf : ScatterDims.WF S64x128 S100000x1 S100000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x32.size a ≤ S1600000x32.size a
  hwx0_0 : ∀ i : grid0.Coords, EltTy.bits .f32 = 32 ∨ (Rect.block (s := S1600000x32) S16000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16000x128.size a ≤ S1600000x128.size a
  hwx0_3 : ∀ i : grid0.Coords, EltTy.bits .f32 = 32 ∨ (Rect.block (s := S1600000x128) S16000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S100000x128.size a
  hwx4_4 : ∀ i : grid4.Coords, EltTy.bits .f32 = 32 ∨ (Rect.block (s := S100000x128) S5000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)

variable [Facts₀]

def dot_S16000x32_S32x128_S16000x128_1_0_0_1_n_n : DotDims S16000x32 S32x128 S16000x128 where
  lhsContracting := [1]
  rhsContracting := [0]
  lhsNonContracting := [0]
  rhsNonContracting := [1]
  lhsBatch := []
  rhsBatch := []
  wf := dot_S16000x32_S32x128_S16000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf

abbrev win0_0 : Pipeline.Window sig grid0 :=
  Pipeline.Window.ofSpec (Memref.whole main_arg1) S16000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S16000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v12_1) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v22) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12_0) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v23) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v33) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12_0) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v2) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v6) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v34) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v44) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v12_0) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v2) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v6) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v45) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v45) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v3) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v7) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v46) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S1600000x32 : Shape := ⟨2, ![1600000, 32]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x32 : Shape := ⟨2, ![128, 32]⟩
abbrev S1x128 : Shape := ⟨2, ![1, 128]⟩
abbrev S32x128 : Shape := ⟨2, ![32, 128]⟩
abbrev S1600000x128 : Shape := ⟨2, ![1600000, 128]⟩
abbrev S_ : Shape := ⟨0, ![]⟩
abbrev S1600000x1 : Shape := ⟨2, ![1600000, 1]⟩
abbrev S64x128 : Shape := ⟨2, ![64, 128]⟩
abbrev S100000x1 : Shape := ⟨2, ![100000, 1]⟩

abbrev nBuf : Space → Nat
  | .hbm => 137
  | .vmem => 0
  | .smem => 0
  | _ => 0

abbrev hbmTy0_0 (i : Nat) : BufTy := match i % 128 with
  | 0 => ⟨S100000x128, .f32⟩
  | 1 => ⟨S1600000x32, .f32⟩
  | 2 => ⟨S1600000, .i32⟩
  | 3 => ⟨S1600000, .i32⟩
  | 4 => ⟨S1600000, .i32⟩
  | 5 => ⟨S100000, .i32⟩
  | 6 => ⟨S128x128, .f32⟩
  | 7 => ⟨S128, .f32⟩
  | 8 => ⟨S128x32, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S100000x128, .f32⟩
  | 16 => ⟨S1x128, .f32⟩
  | 17 => ⟨S100000x128, .f32⟩
  | 18 => ⟨S100000x128, .f32⟩
  | 19 => ⟨S32x128, .f32⟩
  | 20 => ⟨S1600000x128, .f32⟩
  | 21 => ⟨S1x128, .f32⟩
  | 22 => ⟨S1600000x128, .f32⟩
  | 23 => ⟨S1600000x128, .f32⟩
  | 24 => ⟨S_, .f32⟩
  | 25 => ⟨S100000x128, .f32⟩
  | 26 => ⟨S1600000x1, .i32⟩
  | 27 => ⟨S100000x128, .f32⟩
  | 28 => ⟨S100000x128, .f32⟩
  | 29 => ⟨S_, .f32⟩
  | 30 => ⟨S100000x128, .f32⟩
  | 31 => ⟨S100000x128, .i1⟩
  | 32 => ⟨S_, .f32⟩
  | 33 => ⟨S100000x128, .f32⟩
  | 34 => ⟨S100000x128, .f32⟩
  | 35 => ⟨S100000x128, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000x128, .f32⟩
  | 45 => ⟨S_, .f32⟩
  | 46 => ⟨S100000x128, .f32⟩
  | 47 => ⟨S1600000x1, .i32⟩
  | 48 => ⟨S100000x128, .f32⟩
  | 49 => ⟨S128x128, .f32⟩
  | 50 => ⟨S100000x128, .f32⟩
  | 51 => ⟨S1x128, .f32⟩
  | 52 => ⟨S100000x128, .f32⟩
  | 53 => ⟨S100000x128, .f32⟩
  | 54 => ⟨S100000x128, .f32⟩
  | 55 => ⟨S_, .f32⟩
  | 56 => ⟨S100000x128, .f32⟩
  | 57 => ⟨S100000x128, .i1⟩
  | 58 => ⟨S_, .f32⟩
  | 59 => ⟨S100000x128, .f32⟩
  | 60 => ⟨S100000x128, .f32⟩
  | 61 => ⟨S100000x128, .f32⟩
  | 62 => ⟨S_, .i32⟩
  | 63 => ⟨S1600000, .i32⟩
  | 64 => ⟨S1600000, .i1⟩
  | 65 => ⟨S_, .i32⟩
  | 66 => ⟨S1600000, .i32⟩
  | 67 => ⟨S1600000, .i32⟩
  | 68 => ⟨S1600000, .i32⟩
  | 69 => ⟨S1600000x1, .i32⟩
  | 70 => ⟨S1600000x128, .f32⟩
  | 71 => ⟨S_, .f32⟩
  | 72 => ⟨S100000x128, .f32⟩
  | 73 => ⟨S1600000x1, .i32⟩
  | 74 => ⟨S100000x128, .f32⟩
  | 75 => ⟨S128x128, .f32⟩
  | 76 => ⟨S100000x128, .f32⟩
  | 77 => ⟨S1x128, .f32⟩
  | 78 => ⟨S100000x128, .f32⟩
  | 79 => ⟨S100000x128, .f32⟩
  | 80 => ⟨S100000x128, .f32⟩
  | 81 => ⟨S_, .f32⟩
  | 82 => ⟨S100000x128, .f32⟩
  | 83 => ⟨S100000x128, .i1⟩
  | 84 => ⟨S_, .f32⟩
  | 85 => ⟨S100000x128, .f32⟩
  | 86 => ⟨S100000x128, .f32⟩
  | 87 => ⟨S100000x128, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000x128, .f32⟩
  | 97 => ⟨S_, .f32⟩
  | 98 => ⟨S100000x128, .f32⟩
  | 99 => ⟨S1600000x1, .i32⟩
  | 100 => ⟨S100000x128, .f32⟩
  | 101 => ⟨S128x128, .f32⟩
  | 102 => ⟨S100000x128, .f32⟩
  | 103 => ⟨S1x128, .f32⟩
  | 104 => ⟨S100000x128, .f32⟩
  | 105 => ⟨S100000x128, .f32⟩
  | 106 => ⟨S100000x128, .f32⟩
  | 107 => ⟨S_, .f32⟩
  | 108 => ⟨S100000x128, .f32⟩
  | 109 => ⟨S100000x128, .i1⟩
  | 110 => ⟨S_, .f32⟩
  | 111 => ⟨S100000x128, .f32⟩
  | 112 => ⟨S100000x128, .f32⟩
  | 113 => ⟨S100000x128, .f32⟩
  | 114 => ⟨S128x128, .f32⟩
  | 115 => ⟨S100000x128, .f32⟩
  | 116 => ⟨S1x128, .f32⟩
  | 117 => ⟨S100000x128, .f32⟩
  | 118 => ⟨S100000x128, .f32⟩
  | 119 => ⟨S_, .f32⟩
  | 120 => ⟨S100000x128, .f32⟩
  | 121 => ⟨S100000x128, .i1⟩
  | 122 => ⟨S_, .f32⟩
  | 123 => ⟨S100000x128, .f32⟩
  | 124 => ⟨S100000x128, .f32⟩
  | 125 => ⟨S100000x128, .f32⟩
  | 126 => ⟨S_, .f32⟩
  | 127 => ⟨S64x128, .f32⟩
  | _ => ⟨S100000x128, .f32⟩

abbrev hbmTy0_1 (i : Nat) : BufTy := match i % 128 with
  | 0 => ⟨S100000x1, .i32⟩
  | 1 => ⟨S64x128, .f32⟩
  | 2 => ⟨S_, .f32⟩
  | 3 => ⟨S64x128, .f32⟩
  | 4 => ⟨S64x128, .i1⟩
  | 5 => ⟨S_, .f32⟩
  | 6 => ⟨S64x128, .f32⟩
  | 7 => ⟨S64x128, .f32⟩
  | 8 => ⟨S64x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_4 : Ref sig .tc := ⟨.hbm, 55, rfl⟩
abbrev main_v35 : Ref sig .tc := ⟨.hbm, 56, rfl⟩
abbrev main_v36 : Ref sig .tc := ⟨.hbm, 57, rfl⟩
abbrev main_cst_5 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_6 : Ref sig .tc := ⟨.hbm, 62, rfl⟩
abbrev main_v40 : Ref sig .tc := ⟨.hbm, 63, rfl⟩
abbrev main_v41 : Ref sig .tc := ⟨.hbm, 64, rfl⟩
abbrev main_c_7 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_8 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_9 : Ref sig .tc := ⟨.hbm, 81, rfl⟩
abbrev main_v56 : Ref sig .tc := ⟨.hbm, 82, rfl⟩
abbrev main_v57 : Ref sig .tc := ⟨.hbm, 83, rfl⟩
abbrev main_cst_10 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_11 : Ref sig .tc := ⟨.hbm, 88, rfl⟩
abbrev main_v61 : Ref sig .tc := ⟨.hbm, 89, rfl⟩
abbrev main_v62 : Ref sig .tc := ⟨.hbm, 90, rfl⟩
abbrev main_c_12 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_13 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_cst_15 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_16 : Ref sig .tc := ⟨.hbm, 119, rfl⟩
abbrev main_v87 : Ref sig .tc := ⟨.hbm, 120, rfl⟩
abbrev main_v88 : Ref sig .tc := ⟨.hbm, 121, rfl⟩
abbrev main_cst_17 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_18 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_19 : Ref sig .tc := ⟨.hbm, 130, rfl⟩
abbrev main_v95 : Ref sig .tc := ⟨.hbm, 131, rfl⟩
abbrev main_v96 : Ref sig .tc := ⟨.hbm, 132, rfl⟩
abbrev main_cst_20 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S128x32_S32x128_1_0 : S128x32.Transposes [1, 0] S32x128
  bcast_S1x128_S1600000x128_0_1 : S1x128.BroadcastsInDim S1600000x128 (![0, 1] : Fin 2 → Fin S1600000x128.rank)
  bcast_S_S100000x128 : S_.BroadcastsInDim S100000x128 (![] : Fin 0 → Fin S100000x128.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S64x128 : S_.BroadcastsInDim S64x128 (![] : Fin 0 → Fin S64x128.rank)
  bcast_S100000_S100000x1_0 : S100000.BroadcastsInDim S100000x1 (![0] : Fin 1 → Fin S100000x1.rank)
  dot_S100000x128_S128x128_S100000x128_1_0_0_1_n_n_wf : DotDims.WF S100000x128 S128x128 S100000x128 [1] [0] [0] [1] [] []
  dot_S1600000x32_S32x128_S1600000x128_1_0_0_1_n_n_wf : DotDims.WF S1600000x32 S32x128 S1600000x128 [1] [0] [0] [1] [] []
  scatter_S100000x128_S1600000x1_S1600000x128_1_0_0_1_wf : ScatterDims.WF S100000x128 S1600000x1 S1600000x128 [1] [0] [0] 1
  gather_S100000x128_S1600000x1_S1600000x128_1_0_n_n_0_1_1128_wf : GatherDims.WF S100000x128 S1600000x1 S1600000x128 [1] [0] [] [0] [] 1 ![1, 128]
  scatter_S64x128_S100000x1_S100000x128_1_0_0_1_wf : ScatterDims.WF S64x128 S100000x1 S100000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S1600000x32_S32x128_S1600000x128_1_0_0_1_n_n : DotDims S1600000x32 S32x128 S1600000x128 where
  lhsContracting := [1]
  rhsContracting := [0]
  lhsNonContracting := [0]
  rhsNonContracting := [1]
  lhsBatch := []
  rhsBatch := []
  wf := dot_S1600000x32_S32x128_S1600000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf

class Facts : Prop extends Facts₀ where

variable [Facts]
-- ==== Proof.KernelRun.lean ====
/-
  The idealized kernel's run with its result named.

  The program is six launches among stretches of host operations.  Every execution terminates without a fault, the
  argument arrays end as launched, and the result array ends at the contents the fold of the program's segments
  leaves in its buffer: host stretches applied in order, each launch's output arrays at what its write-backs leave.
  The other modules read that fold, segment by segment, as the reference's stages.
-/
import proofs.«127585_j36051955483067_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last boundary's contents
    and the arguments as launched. -/
theorem run_result : θ_run defs (onTc (τ := τ) (main (F := F))) ⟨m, fun _ => 0, ρ⟩ (fun r => ∀ c : Dev nD,
      r.2.mem ((c.tc : Thread nD τ).loc main_v54) = W13 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v54 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c)⟩)

end Cert.KernelIdeal.Result

end
-- ==== Proof.Stages.lean ====
/-
  The network's stages, as functions of whole arrays.

  A message-passing network over a graph of 100000 nodes and 1600000 edges, with latent width 128.  Edge features are
  mapped by a linear layer and summed into the nodes each edge points at; the node features are mapped by a second
  linear layer and the two are added: the input message.  Three rounds follow: the current message (the input message
  passed through the selection "x if x is positive, a fixed multiple of x otherwise") is gathered along the edges'
  sources and summed into their destinations, mapped by a linear layer, the input message is added, and the selection
  is applied.  A last linear layer with the selection, a sum over the nodes of each of 64 graphs, and the selection
  once more give the result.  Each stage is stated here once, on whole arrays, over the host's operations; the weight
  matrix of a linear layer is the one actually multiplied (the stored matrix transposed) and its bias a vector.
-/
import proofs.«127585_j36051955483067_1_alg».proof.Proof.Gen.ReferenceIdeal
import Idealize.ShloMosaic.PureOps.Ideal

noncomputable section

namespace Cert.Stages

open Cert.ReferenceIdeal Cert.ReferenceIdeal.Gen Idealize.ShloMosaic

/-- A float array of a shape, at the ideal instance. -/
abbrev FA (S : Shape) : Type := (⟨S, .f32⟩ : BufTy).Contents (Elt Ideal)
/-- An index array of a shape. -/
abbrev IA (S : Shape) : Type := (⟨S, .i32⟩ : BufTy).Contents (Elt Ideal)

/-- Where an array is positive. -/
def leakyCond {S : Shape} (h0 : S_.BroadcastsInDim S (![] : Fin 0 → Fin S.rank)) (v : FA S) :
    (⟨S, .i1⟩ : BufTy).Contents (Elt Ideal) :=
  cmpf .ogt v (broadcastInDim S ![] h0 (constant (F := Ideal) S_ .f32 0x00000000#32))

/-- An array scaled by 0.01 (as its nearest 32-bit float). -/
def leakyScaled {S : Shape} (h0 : S_.BroadcastsInDim S (![] : Fin 0 → Fin S.rank)) (v : FA S) : FA S :=
  mulf (broadcastInDim S ![] h0 (constant (F := Ideal) S_ .f32 0x3C23D70A#32)) v

/-- The selection, entry by entry: x where x is positive, 0.01 (as its nearest 32-bit float) times x elsewhere. -/
def leaky {S : Shape} (h0 : S_.BroadcastsInDim S (![] : Fin 0 → Fin S.rank)) (v : FA S) : FA S :=
  select (leakyCond h0 v) v (leakyScaled h0 v)

/-- The selection on a node-shaped array. -/
def leakyNodes (v : FA S100000x128) : FA S100000x128 := leaky bcast_S_S100000x128 v

/-- The edge layer: edge features times the weights, the bias added to every row. -/
def edgeLin (Wt : FA S32x128) (b : FA S128) (E : FA S1600000x32) : FA S1600000x128 :=
  addf (Host.dotGeneral (F := Ideal) (φ₁ := .f32) (φ₂ := .f32) dot_S1600000x32_S32x128_S1600000x128_1_0_0_1_n_n none E Wt)
    (broadcastInDim S1600000x128 ![0, 1] bcast_S1x128_S1600000x128_0_1 (broadcastInDim S1x128 ![1] bcast_S128_S1x128_1 b))

/-- Rows of U summed into the nodes the index array names. -/
def sumIntoNodes (idx : IA S1600000) (U : FA S1600000x128) : FA S100000x128 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 idx) U

/-- A node layer: rows times the weights, the bias added to every row, a second array of the same shape added. -/
def nodeLin (Wt : FA S128x128) (b : FA S128) (X R : FA S100000x128) : FA S100000x128 :=
  addf (addf (Host.dotGeneral (F := Ideal) (φ₁ := .f32) (φ₂ := .f32) dot_S100000x128_S128x128_S100000x128_1_0_0_1_n_n none X Wt)
    (broadcastInDim S100000x128 ![0, 1] bcast_S1x128_S100000x128_0_1 (broadcastInDim S1x128 ![1] bcast_S128_S1x128_1 b))) R

/-- Source indices with the negative ones counted from the end. -/
def wrapIdx (src : IA S1600000) : IA S1600000 :=
  select (cmpi .slt src (broadcastInDim S1600000 ![] bcast_S_S1600000 (constantI S_ 32 0#32)))
    (addi src (broadcastInDim S1600000 ![] bcast_S_S1600000 (constantI S_ 32 100000#32))) src

/-- One round's pooling: the rows of cur at the edges' sources, summed into the edges' destinations. -/
def pool (src dst : IA S1600000) (cur : FA S100000x128) : FA S100000x128 :=
  sumIntoNodes dst (Host.gather gather_S100000x128_S1600000x1_S1600000x128_1_0_n_n_0_1_1128 cur
    (broadcastInDim S1600000x1 ![0] bcast_S1600000_S1600000x1_0 (wrapIdx src)))

/-- One round's dense step. -/
def conv (Wt : FA S128x128) (b : FA S128) (IM P : FA S100000x128) : FA S100000x128 :=
  leakyNodes (nodeLin Wt b P IM)

/-- The output layer. -/
def outLayer (Wt : FA S128x128) (b : FA S128) (cur : FA S100000x128) : FA S100000x128 :=
  leakyNodes
    (addf (Host.dotGeneral (F := Ideal) (φ₁ := .f32) (φ₂ := .f32) dot_S100000x128_S128x128_S100000x128_1_0_0_1_n_n none cur Wt)
      (broadcastInDim S100000x128 ![0, 1] bcast_S1x128_S100000x128_0_1 (broadcastInDim S1x128 ![1] bcast_S128_S1x128_1 b)))

/-- The rows of o summed per graph. -/
def sumPerGraph (gid : IA S100000) (o : FA S100000x128) : FA S64x128 :=
  Host.scatterAdd (F := Ideal) scatter_S64x128_S100000x1_S100000x128_1_0_0_1
    (broadcastInDim S64x128 ![] bcast_S_S64x128 (constant (F := Ideal) S_ .f32 0x00000000#32))
    (broadcastInDim S100000x1 ![0] bcast_S100000_S100000x1_0 gid) o

/-- Where a graph-shaped array is positive, and the array scaled: the two arrays the last selection chooses between. -/
def cond64 (v : FA S64x128) : (⟨S64x128, .i1⟩ : BufTy).Contents (Elt Ideal) := leakyCond bcast_S_S64x128 v
def scaled64 (v : FA S64x128) : FA S64x128 := leakyScaled bcast_S_S64x128 v

/-- The rows of o summed per graph, and the selection. -/
def readout (gid : IA S100000) (o : FA S100000x128) : FA S64x128 :=
  leaky bcast_S_S64x128 (sumPerGraph gid o)

/-- The output layer before its selection. -/
def outLin (Wt : FA S128x128) (b : FA S128) (cur : FA S100000x128) : FA S100000x128 :=
  addf (Host.dotGeneral (F := Ideal) (φ₁ := .f32) (φ₂ := .f32) dot_S100000x128_S128x128_S100000x128_1_0_0_1_n_n none cur Wt)
    (broadcastInDim S100000x128 ![0, 1] bcast_S1x128_S100000x128_0_1 (broadcastInDim S1x128 ![1] bcast_S128_S1x128_1 b))

/-- A stored weight matrix as it is multiplied. -/
def tr128 (W : FA S128x128) : FA S128x128 := transpose S128x128 [1, 0] W transposes_S128x128_S128x128_1_0
/-- The edge layer's stored weight matrix as it is multiplied. -/
def tr32 (W : FA S128x32) : FA S32x128 := transpose S32x128 [1, 0] W transposes_S128x32_S32x128_1_0

/-- The input message. -/
def inputMsg (a0 : FA S100000x128) (a1 : FA S1600000x32) (a4 : IA S1600000) (a6 : FA S128x128) (a7 : FA S128)
    (a8 : FA S128x32) (a9 : FA S128) : FA S100000x128 :=
  nodeLin (tr128 a6) a7 a0 (sumIntoNodes a4 (edgeLin (tr32 a8) a9 a1))

/-- One round from the current message. -/
def msgRound (a2 a3 : IA S1600000) (a10 : FA S128x128) (a11 : FA S128) (IM cur : FA S100000x128) : FA S100000x128 :=
  conv (tr128 a10) a11 IM (pool a2 a3 cur)

/-- The whole network. -/
def network (a0 : FA S100000x128) (a1 : FA S1600000x32) (a2 a3 a4 : IA S1600000) (a5 : IA S100000) (a6 : FA S128x128)
    (a7 : FA S128) (a8 : FA S128x32) (a9 : FA S128) (a10 : FA S128x128) (a11 : FA S128) (a12 : FA S128x128) (a13 : FA S128) :
    FA S64x128 :=
  readout a5 (outLayer (tr128 a12) a13
    (msgRound a2 a3 a10 a11 (inputMsg a0 a1 a4 a6 a7 a8 a9)
      (msgRound a2 a3 a10 a11 (inputMsg a0 a1 a4 a6 a7 a8 a9)
        (msgRound a2 a3 a10 a11 (inputMsg a0 a1 a4 a6 a7 a8 a9)
          (leakyNodes (inputMsg a0 a1 a4 a6 a7 a8 a9))))))

end Cert.Stages

end
-- ==== Proof.LibMatRows.lean ====
/-
  A plain matrix product read at one entry.

  For operands of shapes [M, K] and [K, N] contracted over the left's columns and the right's rows, entry (p, c)
  of the product is the sum over k of left (p, k) times right (k, c).  At the ideal instance this holds both for a
  kernel's product accumulated into a zero array and for a host product, whatever precision or schedule is named:
  neither rounding nor summation order is left.  Everything is generic in the extents M, K, N.
-/
import Idealize.ShloMosaic.PureOps.Ideal
import Idealize.ShloMosaic.PureOps.Ideal.Laws
import Idealize.ShloMosaic.Lib.ValueIdx

noncomputable section

open scoped BigOperators

namespace Idealize.ShloMosaic.MatRows

open Idealize.ShloMosaic Idealize.ShloMosaic.ValueIdx

variable {M K N : Nat}

/-- The contraction index set of a plain product is its one coordinate, ranging over the shared extent. -/
abbrev contrFin (M K N : Nat) : (DotDims.plain M K N).contr.Idx ≃ Fin K :=
  contrEquiv1 (DotDims.plain M K N) K rfl rfl

/-- At result entry (p, c) and contraction position k the left operand is read at (p, k). -/
theorem plain_lhsIdx (p : Fin M) (c : Fin N) (k : Fin K) :
    (DotDims.plain M K N).lhsIdx (ix2 p c) ((contrFin M K N).symm k) = ix2 p k := by
  funext a
  refine Fin.ext ?_
  match a with
  | ⟨0, _⟩ => rfl
  | ⟨1, _⟩ =>
    exact ((DotDims.plain M K N).lhsIdx_val_of_single (cl := (1 : Fin 2)) rfl (ix2 p c) _).trans
      (contrEquiv1_symm_val (DotDims.plain M K N) K rfl rfl k)

/-- At result entry (p, c) and contraction position k the right operand is read at (k, c). -/
theorem plain_rhsIdx (p : Fin M) (c : Fin N) (k : Fin K) :
    (DotDims.plain M K N).rhsIdx (ix2 p c) ((contrFin M K N).symm k) = ix2 k c := by
  funext a
  refine Fin.ext ?_
  match a with
  | ⟨0, _⟩ =>
    exact ((DotDims.plain M K N).rhsIdx_val_of_single (cr := (0 : Fin 2)) rfl (ix2 p c) _).trans
      (contrEquiv1_symm_val (DotDims.plain M K N) K rfl rfl k)
  | ⟨1, _⟩ => rfl

/-- The contraction sum of a plain product, re-indexed by the shared extent. -/
theorem plain_sum (l : (⟨2, ![M, K]⟩ : Shape).Idx → EReal) (r : (⟨2, ![K, N]⟩ : Shape).Idx → EReal) (p : Fin M) (c : Fin N) :
    ∑ k : (DotDims.plain M K N).contr.Idx,
        l ((DotDims.plain M K N).lhsIdx (ix2 p c) k) * r ((DotDims.plain M K N).rhsIdx (ix2 p c) k)
      = ∑ k : Fin K, l (ix2 p k) * r (ix2 k c) := by
  rw [← Equiv.sum_comp (contrFin M K N).symm]
  exact Finset.sum_congr rfl fun k _ => by rw [plain_lhsIdx, plain_rhsIdx]

/-- A kernel's product into the zero array, at entry (p, c). -/
theorem matmul_plain_apply {φ₁ φ₂ : FTy} (prec : Option ContractPrecision)
    (l : FVec Ideal ⟨2, ![M, K]⟩ φ₁) (r : FVec Ideal ⟨2, ![K, N]⟩ φ₂) (p : Fin M) (c : Fin N) :
    matmul (DotDims.plain M K N) prec l r (constant (F := Ideal) ⟨2, ![M, N]⟩ .f32 0x00000000#32) (ix2 p c)
      = ∑ k : Fin K, l (ix2 p k) * r (ix2 k c) :=
  (Ideal.matmul_constant_zero_apply (DotDims.plain M K N) prec l r (ix2 p c)).trans (plain_sum l r p c)

/-- A host product, at entry (p, c). -/
theorem dotGeneral_plain_apply {φ₁ φ₂ : FTy} (prec : Option ContractPrecision)
    (l : FVec Ideal ⟨2, ![M, K]⟩ φ₁) (r : FVec Ideal ⟨2, ![K, N]⟩ φ₂) (p : Fin M) (c : Fin N) :
    (Host.dotGeneral (F := Ideal) (DotDims.plain M K N) prec l r : FVec Ideal ⟨2, ![M, N]⟩ .f32) (ix2 p c)
      = ∑ k : Fin K, l (ix2 p k) * r (ix2 k c) :=
  (Ideal.dotGeneral_apply (DotDims.plain M K N) prec _ l r (ix2 p c)).trans (plain_sum l r p c)

end Idealize.ShloMosaic.MatRows

end
-- ==== Proof.LibHostLayout.lean ====
/-
  Host layout operations read at one entry.

  A host program moves arrays between shapes without computing anything: it broadcasts a scalar, a vector or a
  one-column / one-row matrix to a larger shape, reshapes a vector into a one-row matrix, cuts a band of rows out of
  a matrix, and lays matrices side by side along the columns. Each such operation, read at ONE index of its result,
  is its operand read at one index; the lemmas below name that index for rank 1 and rank 2 shapes of arbitrary
  extents, with the indices written by their coordinates. On an operand axis of extent one a broadcast reads
  coordinate 0, which is also the only coordinate there is, so the statements hold at extent one too. Nothing here
  enumerates an index type: every proof is coordinate arithmetic.
-/
import Idealize.ShloMosaic.PureOps.Ideal
import Idealize.ShloMosaic.Lib.ValueIdx
import Idealize.ShloMosaic.Lib.Pipeline.Value

namespace Cert.HostLayout

open Idealize.ShloMosaic Idealize.ShloMosaic.ValueIdx

variable {α : Type}

/-- A coordinate below an extent is itself, and is 0 when the extent is one. -/
theorem val_eq_ite {n : Nat} (k : Fin n) : k.val = if n = 1 then 0 else k.val := by
  have := k.isLt
  split <;> omega

/-! ## Broadcasts -/

/-- A scalar broadcast to any shape reads the scalar everywhere. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply ![] h x j ix0 (fun a => a.elim0)

/-- A vector of N entries made a column [N, 1]: entry (n, 0) is entry n. -/
theorem bcast_col_apply {N : Nat} (h : (⟨1, ![N]⟩ : Shape).BroadcastsInDim ⟨2, ![N, 1]⟩ (![0] : Fin 1 → Fin 2))
    (x : (⟨1, ![N]⟩ : Shape).Idx → α) (n : Fin N) (z : Fin 1) :
    broadcastInDim ⟨2, ![N, 1]⟩ ![0] h x (ix2 n z) = x (ix1 n) := by
  refine broadcastInDim_apply ![0] h x (ix2 n z) (ix1 n) ?_
  intro a
  match a with
  | ⟨0, _⟩ => exact val_eq_ite n

/-- A column [N, 1] repeated along C columns: entry (n, q) is the column's entry (n, 0). -/
theorem bcast_rows_apply {N C : Nat} (h : (⟨2, ![N, 1]⟩ : Shape).BroadcastsInDim ⟨2, ![N, C]⟩ (![0, 1] : Fin 2 → Fin 2))
    (x : (⟨2, ![N, 1]⟩ : Shape).Idx → α) (n : Fin N) (q : Fin C) :
    broadcastInDim ⟨2, ![N, C]⟩ ![0, 1] h x (ix2 n q) = x (ix2 n (0 : Fin 1)) := by
  refine broadcastInDim_apply ![0, 1] h x (ix2 n q) (ix2 n (0 : Fin 1)) ?_
  intro a
  match a with
  | ⟨0, _⟩ => exact val_eq_ite n
  | ⟨1, _⟩ => exact (if_pos rfl).symm

/-- A vector of C entries made a row [1, C]: entry (0, q) is entry q. -/
theorem bcast_rowvec_apply {C : Nat} (h : (⟨1, ![C]⟩ : Shape).BroadcastsInDim ⟨2, ![1, C]⟩ (![1] : Fin 1 → Fin 2))
    (x : (⟨1, ![C]⟩ : Shape).Idx → α) (z : Fin 1) (q : Fin C) :
    broadcastInDim ⟨2, ![1, C]⟩ ![1] h x (ix2 z q) = x (ix1 q) := by
  refine broadcastInDim_apply ![1] h x (ix2 z q) (ix1 q) ?_
  intro a
  match a with
  | ⟨0, _⟩ => exact val_eq_ite q

/-- A row [1, C] repeated down R rows: entry (r, q) is the row's entry (0, q). -/
theorem bcast_cols_apply {R C : Nat} (h : (⟨2, ![1, C]⟩ : Shape).BroadcastsInDim ⟨2, ![R, C]⟩ (![0, 1] : Fin 2 → Fin 2))
    (x : (⟨2, ![1, C]⟩ : Shape).Idx → α) (r : Fin R) (q : Fin C) :
    broadcastInDim ⟨2, ![R, C]⟩ ![0, 1] h x (ix2 r q) = x (ix2 (0 : Fin 1) q) := by
  refine broadcastInDim_apply ![0, 1] h x (ix2 r q) (ix2 (0 : Fin 1) q) ?_
  intro a
  match a with
  | ⟨0, _⟩ => exact (if_pos rfl).symm
  | ⟨1, _⟩ => exact val_eq_ite q

/-! ## A reshape and a slice -/

/-- A vector of C entries reshaped to a row [1, C]: the row-major positions of (0, q) and of q agree. -/
theorem reshape_rowvec_apply {C : Nat} (h : (⟨1, ![C]⟩ : Shape).ShapeCasts ⟨2, ![1, C]⟩)
    (x : (⟨1, ![C]⟩ : Shape).Idx → α) (z : Fin 1) (q : Fin C) :
    shapeCast ⟨2, ![1, C]⟩ x h (ix2 z q) = x (ix1 q) := by
  refine shapeCast_apply x h (ix2 z q) (ix1 q) ?_
  rw [Shape.rowMajor_val_one, Shape.rowMajor_val_two]
  obtain rfl : z = 0 := Subsingleton.elim _ _
  show q.val = 0 * C + q.val
  omega

/-- A band of K1 rows of a [K, C] matrix starting at row `off`: entry (k, q) of the band is entry (off + k, q). -/
theorem slice_rows_apply {K K1 C : Nat} (off : Nat) (h : (⟨2, ![K, C]⟩ : Shape).Slices ![off, 0] ⟨2, ![K1, C]⟩)
    (x : (⟨2, ![K, C]⟩ : Shape).Idx → α) (k : Fin K1) (q : Fin C) (hk : off + k.val < K) :
    extractStridedSlice ⟨2, ![K1, C]⟩ ![off, 0] x h (ix2 k q) = x (ix2 ⟨off + k.val, hk⟩ q) := by
  refine extractStridedSlice_apply ![off, 0] x h (ix2 k q) (ix2 ⟨off + k.val, hk⟩ q) ?_
  intro a
  match a with
  | ⟨0, _⟩ => rfl
  | ⟨1, _⟩ => exact (Nat.zero_add _).symm

/-! ## Matrices laid side by side along the columns -/

/-- Three matrices of R rows side by side: a column of the first block reads the first matrix. -/
theorem concat3_apply_fst {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K1) :
    concatenate ⟨2, ![R, K1 + K2 + K3]⟩ 1 [⟨_, x1⟩, ⟨_, x2⟩, ⟨_, x3⟩] h (ix2 r (Fin.castAdd K3 (Fin.castAdd K2 k)))
      = x1 (ix2 r k) := by
  refine concatenate_apply_piece (t := ⟨2, ![R, K1 + K2 + K3]⟩) (1 : Fin 2) [⟨_, x1⟩, ⟨_, x2⟩, ⟨_, x3⟩] h _
    0 (by show 0 < 3; omega) _ x1 rfl rfl 0 rfl (ix2 r k) ?_ ?_
  · intro b hb
    match b, hb with
    | ⟨0, _⟩, _ => rfl
    | ⟨1, _⟩, hb => exact absurd rfl hb
  · show 0 + k.val = k.val
    omega

/-- Three matrices of R rows side by side: a column of the second block reads the second matrix. -/
theorem concat3_apply_snd {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K2) :
    concatenate ⟨2, ![R, K1 + K2 + K3]⟩ 1 [⟨_, x1⟩, ⟨_, x2⟩, ⟨_, x3⟩] h (ix2 r (Fin.castAdd K3 (Fin.natAdd K1 k)))
      = x2 (ix2 r k) := by
  refine concatenate_apply_piece (t := ⟨2, ![R, K1 + K2 + K3]⟩) (1 : Fin 2) [⟨_, x1⟩, ⟨_, x2⟩, ⟨_, x3⟩] h _
    1 (by show 1 < 3; omega) _ x2 rfl rfl K1 rfl (ix2 r k) ?_ ?_
  · intro b hb
    match b, hb with
    | ⟨0, _⟩, _ => rfl
    | ⟨1, _⟩, hb => exact absurd rfl hb
  · show K1 + k.val = K1 + k.val
    rfl

/-- Three matrices of R rows side by side: a column of the third block reads the third matrix. -/
theorem concat3_apply_trd {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K3) :
    concatenate ⟨2, ![R, K1 + K2 + K3]⟩ 1 [⟨_, x1⟩, ⟨_, x2⟩, ⟨_, x3⟩] h (ix2 r (Fin.natAdd (K1 + K2) k))
      = x3 (ix2 r k) := by
  refine concatenate_apply_piece (t := ⟨2, ![R, K1 + K2 + K3]⟩) (1 : Fin 2) [⟨_, x1⟩, ⟨_, x2⟩, ⟨_, x3⟩] h _
    2 (by show 2 < 3; omega) _ x3 rfl rfl (K1 + K2) rfl (ix2 r k) ?_ ?_
  · intro b hb
    match b, hb with
    | ⟨0, _⟩, _ => rfl
    | ⟨1, _⟩, hb => exact absurd rfl hb
  · show K1 + K2 + k.val = K1 + K2 + k.val
    rfl

/-- A property of every entry of each of two matrices of R rows holds of every entry of the two laid side by side:
    an entry whose column is below the first extent is an entry of the first, any other an entry of the second. -/
theorem concat2_forall {R K1 K2 : Nat} (P : α → Prop)
    (h : Shape.Concatenates [(⟨2, ![R, K1]⟩ : Shape), ⟨2, ![R, K2]⟩] ⟨2, ![R, K1 + K2]⟩ (1 : Fin 2))
    (x1 : (⟨2, ![R, K1]⟩ : Shape).Idx → α) (x2 : (⟨2, ![R, K2]⟩ : Shape).Idx → α)
    (h1 : ∀ i, P (x1 i)) (h2 : ∀ i, P (x2 i)) (j : (⟨2, ![R, K1 + K2]⟩ : Shape).Idx) :
    P (concatenate ⟨2, ![R, K1 + K2]⟩ 1 [⟨_, x1⟩, ⟨_, x2⟩] h j) := by
  obtain ⟨r, q, rfl⟩ : ∃ (r : Fin R) (q : Fin (K1 + K2)), j = ix2 r q := ⟨j 0, j 1, eq_ix2 j⟩
  by_cases hq : q.val < K1
  · have e := concatenate_pair_apply_left (t := ⟨2, ![R, K1 + K2]⟩) (1 : Fin 2) x1 x2 h (ix2 r q) rfl (ix2 r ⟨q.val, hq⟩)
      (by
        intro b
        match b with
        | ⟨0, _⟩ => rfl
        | ⟨1, _⟩ => rfl)
    rw [e]
    exact h1 _
  · have hq' : q.val - K1 < K2 := by have := q.isLt; omega
    have e := concatenate_pair_apply_right (t := ⟨2, ![R, K1 + K2]⟩) (1 : Fin 2) x1 x2 h (ix2 r q) rfl rfl
      (ix2 r ⟨q.val - K1, hq'⟩)
      (by
        intro b hb
        match b, hb with
        | ⟨0, _⟩, _ => rfl
        | ⟨1, _⟩, hb => exact absurd rfl hb)
      (by show q.val - K1 + K1 = q.val; omega)
    rw [e]
    exact h2 _

end Cert.HostLayout
-- ==== Proof.LibLinearRows.lean ====
/-
  A linear layer on rows, with its bias, an optional residual and the leaky selection, read at one entry.

  Each dense stage of a message-passing network multiplies a matrix of rows by a weight matrix, adds a bias to every
  row, perhaps adds a second matrix of the same shape, and perhaps passes every entry through the selection
  "the entry if it is positive, a fixed multiple of it otherwise".  Entry (p, c) of the outcome depends on row p of
  the left operand, column c of the weights, entry c of the bias and entry (p, c) of the residual only, so one formula
  describes a block of rows and the whole array alike.  The formula is stated once over arbitrary extents and shown to be
  what two spellings compute at the ideal instance: a product accumulated into a zero array of operands passed through
  a change of float format, the bias a one-row matrix repeated down the rows, the two constants of the selection
  splatted; and a general product, the bias a vector made a row and then repeated down the rows, the two constants
  scalars broadcast to the shape.
-/
import proofs.«127585_j36051955483067_1_alg».proof.Proof.LibMatRows
import proofs.«127585_j36051955483067_1_alg».proof.Proof.LibHostLayout
import Idealize.ShloMosaic.Lib.ValueLayout
import Idealize.ShloMosaic.Lib.Pipeline.Value

noncomputable section

open scoped BigOperators

namespace Idealize.ShloMosaic.LinearRows

open Idealize.ShloMosaic Idealize.ShloMosaic.ValueIdx Idealize.ShloMosaic.MatRows

variable {M K N : Nat}

/-- The selection at one number: v where v is above the number the word z denotes, the number the word s denotes times v
    elsewhere, in the instance's own comparison, product and choice. -/
def leakyAt (z s : BitVec 32) (v : EReal) : EReal :=
  Scalar.select (FloatOps.cmpf (F := Ideal) (φ := .f32) .ogt v (FloatOps.ofBits (F := Ideal) .f32 z)) v
    (FloatOps.mulf (F := Ideal) (φ := .f32) (FloatOps.ofBits (F := Ideal) .f32 s) v)

/-- Entry (p, c) of the product of X by W with entry c of the bias added. -/
def linAt (X : (⟨2, ![M, K]⟩ : Shape).Idx → EReal) (W : (⟨2, ![K, N]⟩ : Shape).Idx → EReal) (b : Fin N → EReal)
    (p : Fin M) (c : Fin N) : EReal :=
  (∑ k : Fin K, X (ix2 p k) * W (ix2 k c)) + b c

/-! ## The kernel's spelling -/

/-- The selection over splatted constants, at an index. -/
theorem kernel_leaky_apply {S : Shape} (z s : BitVec 32) (v : FVec Ideal S .f32) (i : S.Idx) :
    select (cmpf .ogt v (broadcast S (Scalar.ofBits (F := Ideal) .f32 z))) v
        (mulf (broadcast S (Scalar.ofBits (F := Ideal) .f32 s)) v) i
      = leakyAt z s (v i) := rfl

/-- A product into the zero array of operands passed through a change of format, a one-row bias repeated down the rows
    added. -/
theorem kernel_lin_apply (ht1 ht2 : FTy.bf16.bits < FTy.f32.bits)
    (hb : (⟨2, ![1, N]⟩ : Shape).Broadcasts ⟨2, ![M, N]⟩)
    (x0 : FVec Ideal ⟨2, ![M, K]⟩ .f32) (x1 : FVec Ideal ⟨2, ![K, N]⟩ .f32) (x2 : FVec Ideal ⟨2, ![1, N]⟩ .f32)
    (p : Fin M) (c : Fin N) :
    addf (matmul (DotDims.plain M K N) none (truncf .bf16 x0 ht1) (truncf .bf16 x1 ht2)
          (constant (F := Ideal) ⟨2, ![M, N]⟩ .f32 0x00000000#32))
        (broadcastTo ⟨2, ![M, N]⟩ x2 hb) (ix2 p c)
      = linAt x0 x1 (fun q => x2 (ix2 (0 : Fin 1) q)) p c := by
  show matmul (DotDims.plain M K N) none _ _ _ (ix2 p c) + broadcastTo ⟨2, ![M, N]⟩ x2 hb (ix2 p c) = _
  rw [broadcastTo_1b_ab_apply]
  exact congrArg (· + x2 (ix2 (0 : Fin 1) c)) (matmul_plain_apply none _ _ p c)

/-! ## The host's spelling -/

/-- The selection over broadcast scalars, at an index. -/
theorem host_leaky_apply {S : Shape} (h : (⟨0, ![]⟩ : Shape).BroadcastsInDim S (![] : Fin 0 → Fin S.rank))
    (z s : BitVec 32) (v : FVec Ideal S .f32) (i : S.Idx) :
    select (cmpf .ogt v (broadcastInDim S ![] h (constant (F := Ideal) ⟨0, ![]⟩ .f32 z))) v
        (mulf (broadcastInDim S ![] h (constant (F := Ideal) ⟨0, ![]⟩ .f32 s)) v) i
      = leakyAt z s (v i) := by
  show Scalar.select (FloatOps.cmpf (F := Ideal) (φ := .f32) .ogt (v i) (broadcastInDim S ![] h (constant (F := Ideal) ⟨0, ![]⟩ .f32 z) i)) (v i)
      (FloatOps.mulf (F := Ideal) (φ := .f32) (broadcastInDim S ![] h (constant (F := Ideal) ⟨0, ![]⟩ .f32 s) i) (v i)) = _
  rw [Cert.HostLayout.bcast_scalar_apply, Cert.HostLayout.bcast_scalar_apply]
  rfl

/-- A general product, a bias vector made a row and repeated down the rows added. -/
theorem host_lin_apply (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (X : FVec Ideal ⟨2, ![M, K]⟩ .f32) (W : FVec Ideal ⟨2, ![K, N]⟩ .f32) (b : FVec Ideal ⟨1, ![N]⟩ .f32)
    (p : Fin M) (c : Fin N) :
    addf (Host.dotGeneral (F := Ideal) (DotDims.plain M K N) none X W : FVec Ideal ⟨2, ![M, N]⟩ .f32)
        (broadcastInDim ⟨2, ![M, N]⟩ ![0, 1] h2 (broadcastInDim ⟨2, ![1, N]⟩ ![1] h1 b)) (ix2 p c)
      = linAt X W (fun q => b (ix1 q)) p c := by
  show (Host.dotGeneral (F := Ideal) (DotDims.plain M K N) none X W : FVec Ideal ⟨2, ![M, N]⟩ .f32) (ix2 p c)
      + broadcastInDim ⟨2, ![M, N]⟩ ![0, 1] h2 (broadcastInDim ⟨2, ![1, N]⟩ ![1] h1 b) (ix2 p c) = _
  rw [Cert.HostLayout.bcast_cols_apply, Cert.HostLayout.bcast_rowvec_apply]
  exact congrArg (· + b (ix1 c)) (dotGeneral_plain_apply none X W p c)

/-- The formula depends on the operands through the entries it names only. -/
theorem linAt_congr {M' : Nat} {X : (⟨2, ![M, K]⟩ : Shape).Idx → EReal} {X' : (⟨2, ![M', K]⟩ : Shape).Idx → EReal}
    {W W' : (⟨2, ![K, N]⟩ : Shape).Idx → EReal} {b b' : Fin N → EReal} {p : Fin M} {p' : Fin M'} {c : Fin N}
    (hX : ∀ k : Fin K, X (ix2 p k) = X' (ix2 p' k)) (hW : ∀ k : Fin K, W (ix2 k c) = W' (ix2 k c)) (hb : b c = b' c) :
    linAt X W b p c = linAt X' W' b' p' c := by
  unfold linAt
  rw [hb]
  exact congrArg (· + b' c) (Finset.sum_congr rfl fun k _ => by rw [hX k, hW k])

end Idealize.ShloMosaic.LinearRows

end
-- ==== Proof.StagesAt.lean ====
/-
  The dense stages read at one entry.

  Entry (p, c) of a dense stage is the linear form of row p of the stage's left operand, with the stage's residual
  at (p, c) added where there is one and the selection applied where there is one.  These are the host's spellings;
  the launches' bodies are matched against the same entry formulas.
-/
import proofs.«127585_j36051955483067_1_alg».proof.Proof.Stages
import proofs.«127585_j36051955483067_1_alg».proof.Proof.LibLinearRows

noncomputable section

namespace Cert.Stages

open Cert.ReferenceIdeal Cert.ReferenceIdeal.Gen Idealize.ShloMosaic Idealize.ShloMosaic.ValueIdx Idealize.ShloMosaic.LinearRows

/-- The zero word and the word of 0.01 as a 32-bit float: the selection's two constants. -/
abbrev z0 : BitVec 32 := 0x00000000#32
abbrev s01 : BitVec 32 := 0x3C23D70A#32

theorem leaky_apply {S : Shape} (h0 : S_.BroadcastsInDim S (![] : Fin 0 → Fin S.rank)) (v : FA S) (i : S.Idx) :
    leaky h0 v i = leakyAt z0 s01 (v i) :=
  host_leaky_apply h0 z0 s01 v i

theorem leakyNodes_apply (v : FA S100000x128) (i : S100000x128.Idx) : leakyNodes v i = leakyAt z0 s01 (v i) :=
  leaky_apply bcast_S_S100000x128 v i

theorem edgeLin_apply (Wt : FA S32x128) (b : FA S128) (E : FA S1600000x32) (p : Fin 1600000) (c : Fin 128) :
    edgeLin Wt b E (ix2 p c) = linAt E Wt (fun q => b (ix1 q)) p c :=
  host_lin_apply (M := 1600000) (K := 32) (N := 128) bcast_S128_S1x128_1 bcast_S1x128_S1600000x128_0_1 E Wt b p c

theorem nodeLin_apply (Wt : FA S128x128) (b : FA S128) (X R : FA S100000x128) (p : Fin 100000) (c : Fin 128) :
    nodeLin Wt b X R (ix2 p c) = linAt X Wt (fun q => b (ix1 q)) p c + R (ix2 p c) :=
  congrArg (· + R (ix2 p c))
    (host_lin_apply (M := 100000) (K := 128) (N := 128) bcast_S128_S1x128_1 bcast_S1x128_S100000x128_0_1 X Wt b p c)

theorem conv_apply (Wt : FA S128x128) (b : FA S128) (IM P : FA S100000x128) (p : Fin 100000) (c : Fin 128) :
    conv Wt b IM P (ix2 p c) = leakyAt z0 s01 (linAt P Wt (fun q => b (ix1 q)) p c + IM (ix2 p c)) :=
  (leakyNodes_apply _ (ix2 p c)).trans (congrArg (leakyAt z0 s01) (nodeLin_apply Wt b P IM p c))

theorem outLayer_apply (Wt : FA S128x128) (b : FA S128) (cur : FA S100000x128) (p : Fin 100000) (c : Fin 128) :
    outLayer Wt b cur (ix2 p c) = leakyAt z0 s01 (linAt cur Wt (fun q => b (ix1 q)) p c) :=
  (leakyNodes_apply _ (ix2 p c)).trans (congrArg (leakyAt z0 s01)
    (host_lin_apply (M := 100000) (K := 128) (N := 128) bcast_S128_S1x128_1 bcast_S1x128_S100000x128_0_1 cur Wt b p c))

end Cert.Stages

end
-- ==== Proof.Region0.lean ====
/-
  Launch 0 (the edge layer) as a function of whole arrays.

  The launch walks the 1600000 edges in 100 blocks of 16000.  At a block it multiplies the block's rows of edge
  features by the whole weight matrix and adds the bias row, and writes the outcome to the same rows of its output.
  Entry (q, c) of a block's outcome depends on row q of the block only, and the blocks tile the rows, so the output
  array ends holding the edge layer of the whole arrays.
-/
import proofs.«127585_j36051955483067_1_alg».proof.Proof.Gen.KernelIdeal.Frame
import proofs.«127585_j36051955483067_1_alg».proof.Proof.StagesAt

set_option maxRecDepth 16384

noncomputable section

namespace Cert.KernelIdeal.Edge0

open Cert.KernelIdeal Cert.KernelIdeal.Gen
open Idealize.ShloMosaic Idealize.ShloMosaic.TcCoe Idealize.ShloMosaic.ValueIdx Idealize.ShloMosaic.LinearRows
open Idealize.SL.Sem
open Idealize.ShloMosaic.Pipeline (Dat Cfg Window)

/-- The body's outcome at entry (q, c) of a block: the linear form of row q. -/
theorem pay_apply (x0 : Vec Ideal S16000x32 .f32) (x1 : Vec Ideal S32x128 .f32) (x2 : Vec Ideal S1x128 .f32)
    (q : Fin 16000) (c : Fin 128) :
    k0_pay1 (F := Ideal) x0 x1 x2 (ix2 q c) = linAt x0 x1 (fun k => x2 (ix2 (0 : Fin 1) k)) q c := by
  unfold k0_pay1
  simp only [shapeCast_self]
  exact kernel_lin_apply (M := 16000) (K := 32) (N := 128) bitsLt_bf16_f32 bitsLt_bf16_f32 broadcasts_S1x128_S16000x128 x0 x1 x2 q c

theorem hz : (![0, 0] : Fin 2 → Nat) = fun _ => 0 := funext fun a => by fin_cases a <;> rfl

/-- The block indices over the grid: the row-blocked windows move with the point, the weights and the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b)) (c : Dev nD)

/-- What a point writes back through output window 3 is its block of the stage of the whole arrays. -/
theorem flushed_eq (Wt : Cert.Stages.FA Cert.ReferenceIdeal.S32x128) (b : Cert.Stages.FA Cert.ReferenceIdeal.S128)
    (X : Cert.Stages.FA Cert.ReferenceIdeal.S1600000x32)
    (hX : V c (Pipeline.arrRef spec0 0) = X)
    (hW : V c (Pipeline.arrRef spec0 1) = Wt)
    (hb : ∀ k : Fin 128, V c (Pipeline.arrRef spec0 2) (ix2 (0 : Fin 1) k) = b (ix1 k)) (t : Fin cfg0.N) :
    (dat0 V c).flushed 3 t = ((cfg0.win 3).blk t).view.read (Elt Ideal) (Cert.Stages.edgeLin Wt b X) := by
  show (cfg0.win 3).cut (grid0.coords t) ((dat0 V c).after 3 t) = _
  rw [after0_3]
  unfold out0_3
  rw [View.canon_unit_zero hz]
  simp only [View.ld_unit_zero (S := S16000x32) hz, View.ld_unit_zero (S := S32x128) hz, View.ld_unit_zero (S := S1x128) hz, View.ld_unit_zero (S := S16000x128) hz]
  funext j
  obtain ⟨q, k, rfl⟩ : ∃ (q : Fin 16000) (k : Fin 128), j = ix2 q k := ⟨j 0, j 1, eq_ix2 j⟩
  obtain ⟨e0a, e0b, e1a, e1b, e2a, e2b, e3a, e3b⟩ := idx_facts t
  have ht : t.val < 100 := lt_of_lt_of_eq t.isLt N_0
  have hrow : t.val * 16000 + q.val < 1600000 := by have := q.isLt; omega
  have hi : ((cfg0.win 3).blk t).view.emb (ix2 q k) = ix2 (⟨t.val * 16000 + q.val, hrow⟩ : Fin 1600000) k := by
    funext a; apply Fin.ext
    match a with
    | ⟨0, _⟩ => show win0_3.index t (0 : Fin 2) * 16000 + 1 * q.val = t.val * 16000 + q.val; omega
    | ⟨1, _⟩ => show win0_3.index t (1 : Fin 2) * 128 + 1 * k.val = k.val; omega
  show k0_pay1 (iblk0 V c 0 t) (iblk0 V c 1 t) (iblk0 V c 2 t) (ix2 q k)
    = (Cert.Stages.edgeLin Wt b X) (((cfg0.win 3).blk t).view.emb (ix2 q k))
  rw [hi]
  refine (pay_apply (iblk0 V c 0 t) (iblk0 V c 1 t) (iblk0 V c 2 t) q k).trans ?_
  refine Eq.trans ?_ (Cert.Stages.edgeLin_apply Wt b X (⟨t.val * 16000 + q.val, hrow⟩ : Fin 1600000) k).symm
  have h0 : ∀ k' : Fin 32, iblk0 V c 0 t (ix2 q k') = X (ix2 (⟨t.val * 16000 + q.val, hrow⟩ : Fin 1600000) k') := by
    intro k'
    rw [← hX]
    show V c (Pipeline.arrRef spec0 0) (((cfg0.win 0).blk t).view.emb (ix2 q k')) = _
    refine congrArg _ (funext fun a => Fin.ext ?_)
    match a with
    | ⟨0, _⟩ => show win0_0.index t (0 : Fin 2) * 16000 + 1 * q.val = t.val * 16000 + q.val; omega
    | ⟨1, _⟩ => show win0_0.index t (1 : Fin 2) * 32 + 1 * k'.val = k'.val; omega
  have h2 : ∀ k' : Fin 32, iblk0 V c 1 t (ix2 k' k) = Wt (ix2 k' k) := by
    intro k'
    rw [← hW]
    show V c (Pipeline.arrRef spec0 1) (((cfg0.win 1).blk t).view.emb (ix2 k' k)) = _
    refine congrArg _ (funext fun a => Fin.ext ?_)
    match a with
    | ⟨0, _⟩ => show win0_1.index t (0 : Fin 2) * 32 + 1 * k'.val = k'.val; omega
    | ⟨1, _⟩ => show win0_1.index t (1 : Fin 2) * 128 + 1 * k.val = k.val; omega
  have h3 : iblk0 V c 2 t (ix2 (0 : Fin 1) k) = b (ix1 k) := by
    rw [← hb k]
    show V c (Pipeline.arrRef spec0 2) (((cfg0.win 2).blk t).view.emb (ix2 (0 : Fin 1) k)) = _
    refine congrArg _ (funext fun a => Fin.ext ?_)
    match a with
    | ⟨0, _⟩ => show win0_2.index t (0 : Fin 2) * 1 + 1 * 0 = 0; omega
    | ⟨1, _⟩ => show win0_2.index t (1 : Fin 2) * 128 + 1 * k.val = k.val; omega
  exact linAt_congr h0 h2 h3

/-- An index of output array 3 is in a point's block iff each coordinate is in the block's range on its axis. -/
theorem mem_blk (t : Fin cfg0.N) (i : S1600000x128.Idx) :
    i ∈ ((cfg0.win 3).blk t).view.set ↔ ∀ a : Fin 2, win0_3.index t a * S16000x128.size a ≤ (i a).val ∧ (i a).val < win0_3.index t a * S16000x128.size a + S16000x128.size a := by
  show i ∈ ((View.whole (Pipeline.arrRef spec0 3)).slice (win0_3.rect t)).set ↔ _
  rw [View.set_slice_whole, Rect.mem_set_unit]
  exact Iff.rfl

/-- Every index of output array 3 is in the block of the point its row falls to. -/
theorem cover (i : S1600000x128.Idx) : ∃ t : Fin cfg0.N, (cfg0.win 3).flush t = true ∧ i ∈ ((cfg0.win 3).blk t).view.set := by
  have hi0 : (i 0).val < 1600000 := (i 0).isLt
  have hi1 : (i 1).val < 128 := (i 1).isLt
  have hN : cfg0.N = 100 := N_0
  have htl : (i 0).val / 16000 < cfg0.N := by rw [hN]; omega
  refine ⟨⟨(i 0).val / 16000, htl⟩, flush0_3 _, ?_⟩
  rw [mem_blk]
  obtain ⟨e0a, e0b, e1a, e1b, e2a, e2b, e3a, e3b⟩ := idx_facts ⟨(i 0).val / 16000, htl⟩
  intro a
  match a with
  | ⟨0, _⟩ =>
    show win0_3.index ⟨(i 0).val / 16000, htl⟩ (0 : Fin 2) * 16000 ≤ (i 0).val ∧ (i 0).val < win0_3.index ⟨(i 0).val / 16000, htl⟩ (0 : Fin 2) * 16000 + 16000
    rw [e3a]
    show (i 0).val / 16000 * 16000 ≤ (i 0).val ∧ (i 0).val < (i 0).val / 16000 * 16000 + 16000
    omega
  | ⟨1, _⟩ =>
    show win0_3.index ⟨(i 0).val / 16000, htl⟩ (1 : Fin 2) * 128 ≤ (i 1).val ∧ (i 1).val < win0_3.index ⟨(i 0).val / 16000, htl⟩ (1 : Fin 2) * 128 + 128
    rw [e3b]
    omega

/-- Output array 3 after the launch: the stage of the whole arrays the launch finds. -/
theorem value (Wt : Cert.Stages.FA Cert.ReferenceIdeal.S32x128) (b : Cert.Stages.FA Cert.ReferenceIdeal.S128)
    (X : Cert.Stages.FA Cert.ReferenceIdeal.S1600000x32)
    (hX : V c (Pipeline.arrRef spec0 0) = X)
    (hW : V c (Pipeline.arrRef spec0 1) = Wt)
    (hb : ∀ k : Fin 128, V c (Pipeline.arrRef spec0 2) (ix2 (0 : Fin 1) k) = b (ix1 k)) :
    (dat0 V c).arrAt 3 cfg0.N = Cert.Stages.edgeLin Wt b X :=
  (dat0 V c).arrAt_eq_of_cover 3 _ (fun t _ => flushed_eq V c Wt b X hX hW hb t) cover

end Cert.KernelIdeal.Edge0

end
-- ==== Proof.Region1.lean ====
/-
  Launch 1 (the input message and its selection) as functions of whole arrays.

  The launch walks the 100000 rows in 20 blocks of 5000.  At a block it multiplies the block's rows of node features
  by the whole weight matrix, adds the bias row and the same rows of the summed edge messages, and writes the outcome —
  the input message — to the same rows of its first output and the selection of it to the same rows of its second.
  The blocks tile the rows, so the two output arrays end holding the input message of the whole arrays and its
  selection.
-/
import proofs.«127585_j36051955483067_1_alg».proof.Proof.Gen.KernelIdeal.Frame
import proofs.«127585_j36051955483067_1_alg».proof.Proof.StagesAt

set_option maxRecDepth 16384

noncomputable section

namespace Cert.KernelIdeal.Init1

open Cert.KernelIdeal Cert.KernelIdeal.Gen
open Idealize.ShloMosaic Idealize.ShloMosaic.TcCoe Idealize.ShloMosaic.ValueIdx Idealize.ShloMosaic.LinearRows
open Idealize.SL.Sem
open Idealize.ShloMosaic.Pipeline (Dat Cfg Window)

/-- The first store's value at entry (q, c) of a block: the linear form of row q, the summed edge messages' entry added. -/
theorem pay1_apply (x0 x3 : Vec Ideal S5000x128 .f32) (x1 : Vec Ideal S128x128 .f32) (x2 : Vec Ideal S1x128 .f32)
    (q : Fin 5000) (c : Fin 128) :
    k1_pay1 (F := Ideal) x0 x1 x2 x3 (ix2 q c) = linAt x0 x1 (fun k => x2 (ix2 (0 : Fin 1) k)) q c + x3 (ix2 q c) := by
  unfold k1_pay1
  simp only [shapeCast_self]
  exact congrArg (· + x3 (ix2 q c))
    (kernel_lin_apply (M := 5000) (K := 128) (N := 128) bitsLt_bf16_f32 bitsLt_bf16_f32 broadcasts_S1x128_S5000x128 x0 x1 x2 q c)

/-- The second store's value at entry (q, c): the selection of the first's. -/
theorem pay2_apply (x0 x3 : Vec Ideal S5000x128 .f32) (x1 : Vec Ideal S128x128 .f32) (x2 : Vec Ideal S1x128 .f32)
    (q : Fin 5000) (c : Fin 128) :
    k1_pay2 (F := Ideal) x0 x1 x2 x3 (ix2 q c)
      = leakyAt Cert.Stages.z0 Cert.Stages.s01 (linAt x0 x1 (fun k => x2 (ix2 (0 : Fin 1) k)) q c + x3 (ix2 q c)) := by
  unfold k1_pay2
  exact (kernel_leaky_apply _ _ _ (ix2 q c)).trans (congrArg (leakyAt _ _) (pay1_apply x0 x3 x1 x2 q c))

theorem hz : (![0, 0] : Fin 2 → Nat) = fun _ => 0 := funext fun a => by fin_cases a <;> rfl

/-- The block indices over the grid: the row-blocked windows move with the point, the weights and the bias stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b)) (c : Dev nD)

/-- What a point writes back through output window 4 is its block of the stage of the whole arrays. -/
theorem flushed4_eq (Wt : Cert.Stages.FA Cert.ReferenceIdeal.S128x128) (b : Cert.Stages.FA Cert.ReferenceIdeal.S128)
    (X : Cert.Stages.FA Cert.ReferenceIdeal.S100000x128) (R : Cert.Stages.FA Cert.ReferenceIdeal.S100000x128)
    (hX : V c (Pipeline.arrRef spec1 0) = X) (hR : V c (Pipeline.arrRef spec1 1) = R)
    (hW : V c (Pipeline.arrRef spec1 2) = Wt)
    (hb : ∀ k : Fin 128, V c (Pipeline.arrRef spec1 3) (ix2 (0 : Fin 1) k) = b (ix1 k)) (t : Fin cfg1.N) :
    (dat1 V c).flushed 4 t = ((cfg1.win 4).blk t).view.read (Elt Ideal) (Cert.Stages.nodeLin Wt b X R) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x128) hz, View.ld_unit_zero (S := S1x128) hz]
  funext j
  obtain ⟨q, k, rfl⟩ : ∃ (q : Fin 5000) (k : Fin 128), j = ix2 q k := ⟨j 0, j 1, eq_ix2 j⟩
  obtain ⟨e0a, e0b, e1a, e1b, e2a, e2b, e3a, e3b, e4a, e4b, e5a, e5b⟩ := idx_facts t
  have ht : t.val < 20 := lt_of_lt_of_eq t.isLt N_1
  have hrow : t.val * 5000 + q.val < 100000 := by have := q.isLt; omega
  have hi : ((cfg1.win 4).blk t).view.emb (ix2 q k) = ix2 (⟨t.val * 5000 + q.val, hrow⟩ : Fin 100000) k := by
    funext a; apply Fin.ext
    match a with
    | ⟨0, _⟩ => show win1_4.index t (0 : Fin 2) * 5000 + 1 * q.val = t.val * 5000 + q.val; omega
    | ⟨1, _⟩ => show win1_4.index t (1 : Fin 2) * 128 + 1 * k.val = k.val; omega
  show k1_pay1 (iblk1 V c 0 t) (iblk1 V c 2 t) (iblk1 V c 3 t) (iblk1 V c 1 t) (ix2 q k)
    = (Cert.Stages.nodeLin Wt b X R) (((cfg1.win 4).blk t).view.emb (ix2 q k))
  rw [hi]
  refine (pay1_apply (iblk1 V c 0 t) (iblk1 V c 1 t) (iblk1 V c 2 t) (iblk1 V c 3 t) q k).trans ?_
  refine Eq.trans ?_ (Cert.Stages.nodeLin_apply Wt b X R (⟨t.val * 5000 + q.val, hrow⟩ : Fin 100000) k).symm
  have h0 : ∀ k' : Fin 128, iblk1 V c 0 t (ix2 q k') = X (ix2 (⟨t.val * 5000 + q.val, hrow⟩ : Fin 100000) k') := by
    intro k'
    rw [← hX]
    show V c (Pipeline.arrRef spec1 0) (((cfg1.win 0).blk t).view.emb (ix2 q k')) = _
    refine congrArg _ (funext fun a => Fin.ext ?_)
    match a with
    | ⟨0, _⟩ => show win1_0.index t (0 : Fin 2) * 5000 + 1 * q.val = t.val * 5000 + q.val; omega
    | ⟨1, _⟩ => show win1_0.index t (1 : Fin 2) * 128 + 1 * k'.val = k'.val; omega
  have h1 : iblk1 V c 1 t (ix2 q k) = R (ix2 (⟨t.val * 5000 + q.val, hrow⟩ : Fin 100000) k) := by
    rw [← hR]
    show V c (Pipeline.arrRef spec1 1) (((cfg1.win 1).blk t).view.emb (ix2 q k)) = _
    refine congrArg _ (funext fun a => Fin.ext ?_)
    match a with
    | ⟨0, _⟩ => show win1_1.index t (0 : Fin 2) * 5000 + 1 * q.val = t.val * 5000 + q.val; omega
    | ⟨1, _⟩ => show win1_1.index t (1 : Fin 2) * 128 + 1 * k.val = k.val; omega
  have h2 : ∀ k' : Fin 128, iblk1 V c 2 t (ix2 k' k) = Wt (ix2 k' k) := by
    intro k'
    rw [← hW]
    show V c (Pipeline.arrRef spec1 2) (((cfg1.win 2).blk t).view.emb (ix2 k' k)) = _
    refine congrArg _ (funext fun a => Fin.ext ?_)
    match a with
    | ⟨0, _⟩ => show win1_2.index t (0 : Fin 2) * 128 + 1 * k'.val = k'.val; omega
    | ⟨1, _⟩ => show win1_2.index t (1 : Fin 2) * 128 + 1 * k.val = k.val; omega
  have h3 : iblk1 V c 3 t (ix2 (0 : Fin 1) k) = b (ix1 k) := by
    rw [← hb k]
    show V c (Pipeline.arrRef spec1 3) (((cfg1.win 3).blk t).view.emb (ix2 (0 : Fin 1) k)) = _
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * k.val = k.val; omega
  rw [h1]
  exact congrArg (· + R (ix2 (⟨t.val * 5000 + q.val, hrow⟩ : Fin 100000) k)) (linAt_congr h0 h2 h3)

/-- An index of output array 4 is in a point's block iff each coordinate is in the block's range on its axis. -/
theorem mem_blk4 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole (Pipeline.arrRef spec1 4)).slice (win1_4.rect t)).set ↔ _
  rw [View.set_slice_whole, Rect.mem_set_unit]
  exact Iff.rfl

/-- Every index of output array 4 is in the block of the point its row falls to. -/
theorem cover4 (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  have htl : (i 0).val / 5000 < cfg1.N := by rw [hN]; omega
  refine ⟨⟨(i 0).val / 5000, htl⟩, flush1_4 _, ?_⟩
  rw [mem_blk4]
  obtain ⟨e0a, e0b, e1a, e1b, e2a, e2b, e3a, e3b, e4a, e4b, e5a, e5b⟩ := idx_facts ⟨(i 0).val / 5000, htl⟩
  intro a
  match a with
  | ⟨0, _⟩ =>
    show win1_4.index ⟨(i 0).val / 5000, htl⟩ (0 : Fin 2) * 5000 ≤ (i 0).val ∧ (i 0).val < win1_4.index ⟨(i 0).val / 5000, htl⟩ (0 : Fin 2) * 5000 + 5000
    rw [e4a]
    show (i 0).val / 5000 * 5000 ≤ (i 0).val ∧ (i 0).val < (i 0).val / 5000 * 5000 + 5000
    omega
  | ⟨1, _⟩ =>
    show win1_4.index ⟨(i 0).val / 5000, htl⟩ (1 : Fin 2) * 128 ≤ (i 1).val ∧ (i 1).val < win1_4.index ⟨(i 0).val / 5000, htl⟩ (1 : Fin 2) * 128 + 128
    rw [e4b]
    omega

/-- Output array 4 after the launch: the stage of the whole arrays the launch finds. -/
theorem value4 (Wt : Cert.Stages.FA Cert.ReferenceIdeal.S128x128) (b : Cert.Stages.FA Cert.ReferenceIdeal.S128)
    (X : Cert.Stages.FA Cert.ReferenceIdeal.S100000x128) (R : Cert.Stages.FA Cert.ReferenceIdeal.S100000x128)
    (hX : V c (Pipeline.arrRef spec1 0) = X) (hR : V c (Pipeline.arrRef spec1 1) = R)
    (hW : V c (Pipeline.arrRef spec1 2) = Wt)
    (hb : ∀ k : Fin 128, V c (Pipeline.arrRef spec1 3) (ix2 (0 : Fin 1) k) = b (ix1 k)) :
    (dat1 V c).arrAt 4 cfg1.N = Cert.Stages.nodeLin Wt b X R :=
  (dat1 V c).arrAt_eq_of_cover 4 _ (fun t _ => flushed4_eq V c Wt b X R hX hR hW hb t) cover4

/-- What a point writes back through output window 5 is its block of the stage of the whole arrays. -/
theorem flushed5_eq (Wt : Cert.Stages.FA Cert.ReferenceIdeal.S128x128) (b : Cert.Stages.FA Cert.ReferenceIdeal.S128)
    (X : Cert.Stages.FA Cert.ReferenceIdeal.S100000x128) (R : Cert.Stages.FA Cert.ReferenceIdeal.S100000x128)
    (hX : V c (Pipeline.arrRef spec1 0) = X) (hR : V c (Pipeline.arrRef spec1 1) = R)
    (hW : V c (Pipeline.arrRef spec1 2) = Wt)
    (hb : ∀ k : Fin 128, V c (Pipeline.arrRef spec1 3) (ix2 (0 : Fin 1) k) = b (ix1 k)) (t : Fin cfg1.N) :
    (dat1 V c).flushed 5 t = ((cfg1.win 5).blk t).view.read (Elt Ideal) (Cert.Stages.leakyNodes (Cert.Stages.nodeLin Wt b X R)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  funext j
  obtain ⟨q, k, rfl⟩ : ∃ (q : Fin 5000) (k : Fin 128), j = ix2 q k := ⟨j 0, j 1, eq_ix2 j⟩
  obtain ⟨e0a, e0b, e1a, e1b, e2a, e2b, e3a, e3b, e4a, e4b, e5a, e5b⟩ := idx_facts t
  have ht : t.val < 20 := lt_of_lt_of_eq t.isLt N_1
  have hrow : t.val * 5000 + q.val < 100000 := by have := q.isLt; omega
  have hi : ((cfg1.win 5).blk t).view.emb (ix2 q k) = ix2 (⟨t.val * 5000 + q.val, hrow⟩ : Fin 100000) k := by
    funext a; apply Fin.ext
    match a with
    | ⟨0, _⟩ => show win1_5.index t (0 : Fin 2) * 5000 + 1 * q.val = t.val * 5000 + q.val; omega
    | ⟨1, _⟩ => show win1_5.index t (1 : Fin 2) * 128 + 1 * k.val = k.val; omega
  show k1_pay2 (iblk1 V c 0 t) (iblk1 V c 2 t) (iblk1 V c 3 t) (iblk1 V c 1 t) (ix2 q k)
    = (Cert.Stages.leakyNodes (Cert.Stages.nodeLin Wt b X R)) (((cfg1.win 5).blk t).view.emb (ix2 q k))
  rw [hi]
  refine (pay2_apply (iblk1 V c 0 t) (iblk1 V c 1 t) (iblk1 V c 2 t) (iblk1 V c 3 t) q k).trans ?_
  refine Eq.trans ?_ (Cert.Stages.leakyNodes_apply (Cert.Stages.nodeLin Wt b X R) (ix2 (⟨t.val * 5000 + q.val, hrow⟩ : Fin 100000) k)).symm
  have h0 : ∀ k' : Fin 128, iblk1 V c 0 t (ix2 q k') = X (ix2 (⟨t.val * 5000 + q.val, hrow⟩ : Fin 100000) k') := by
    intro k'
    rw [← hX]
    show V c (Pipeline.arrRef spec1 0) (((cfg1.win 0).blk t).view.emb (ix2 q k')) = _
    refine congrArg _ (funext fun a => Fin.ext ?_)
    match a with
    | ⟨0, _⟩ => show win1_0.index t (0 : Fin 2) * 5000 + 1 * q.val = t.val * 5000 + q.val; omega
    | ⟨1, _⟩ => show win1_0.index t (1 : Fin 2) * 128 + 1 * k'.val = k'.val; omega
  have h1 : iblk1 V c 1 t (ix2 q k) = R (ix2 (⟨t.val * 5000 + q.val, hrow⟩ : Fin 100000) k) := by
    rw [← hR]
    show V c (Pipeline.arrRef spec1 1) (((cfg1.win 1).blk t).view.emb (ix2 q k)) = _
    refine congrArg _ (funext fun a => Fin.ext ?_)
    match a with
    | ⟨0, _⟩ => show win1_1.index t (0 : Fin 2) * 5000 + 1 * q.val = t.val * 5000 + q.val; omega
    | ⟨1, _⟩ => show win1_1.index t (1 : Fin 2) * 128 + 1 * k.val = k.val; omega
  have h2 : ∀ k' : Fin 128, iblk1 V c 2 t (ix2 k' k) = Wt (ix2 k' k) := by
    intro k'
    rw [← hW]
    show V c (Pipeline.arrRef spec1 2) (((cfg1.win 2).blk t).view.emb (ix2 k' k)) = _
    refine congrArg _ (funext fun a => Fin.ext ?_)
    match a with
    | ⟨0, _⟩ => show win1_2.index t (0 : Fin 2) * 128 + 1 * k'.val = k'.val; omega
    | ⟨1, _⟩ => show win1_2.index t (1 : Fin 2) * 128 + 1 * k.val = k.val; omega
  have h3 : iblk1 V c 3 t (ix2 (0 : Fin 1) k) = b (ix1 k) := by
    rw [← hb k]
    show V c (Pipeline.arrRef spec1 3) (((cfg1.win 3).blk t).view.emb (ix2 (0 : Fin 1) k)) = _
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * k.val = k.val; omega
  rw [Cert.Stages.nodeLin_apply, h1]
  exact congrArg (leakyAt _ _) (congrArg (· + R (ix2 (⟨t.val * 5000 + q.val, hrow⟩ : Fin 100000) k)) (linAt_congr h0 h2 h3))

/-- An index of output array 5 is in a point's block iff each coordinate is in the block's range on its axis. -/
theorem mem_blk5 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole (Pipeline.arrRef spec1 5)).slice (win1_5.rect t)).set ↔ _
  rw [View.set_slice_whole, Rect.mem_set_unit]
  exact Iff.rfl

/-- Every index of output array 5 is in the block of the point its row falls to. -/
theorem cover5 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  have htl : (i 0).val / 5000 < cfg1.N := by rw [hN]; omega
  refine ⟨⟨(i 0).val / 5000, htl⟩, flush1_5 _, ?_⟩
  rw [mem_blk5]
  obtain ⟨e0a, e0b, e1a, e1b, e2a, e2b, e3a, e3b, e4a, e4b, e5a, e5b⟩ := idx_facts ⟨(i 0).val / 5000, htl⟩
  intro a
  match a with
  | ⟨0, _⟩ =>
    show win1_5.index ⟨(i 0).val / 5000, htl⟩ (0 : Fin 2) * 5000 ≤ (i 0).val ∧ (i 0).val < win1_5.index ⟨(i 0).val / 5000, htl⟩ (0 : Fin 2) * 5000 + 5000
    rw [e5a]
    show (i 0).val / 5000 * 5000 ≤ (i 0).val ∧ (i 0).val < (i 0).val / 5000 * 5000 + 5000
    omega
  | ⟨1, _⟩ =>
    show win1_5.index ⟨(i 0).val / 5000, htl⟩ (1 : Fin 2) * 128 ≤ (i 1).val ∧ (i 1).val < win1_5.index ⟨(i 0).val / 5000, htl⟩ (1 : Fin 2) * 128 + 128
    rw [e5b]
    omega

/-- Output array 5 after the launch: the stage of the whole arrays the launch finds. -/
theorem value5 (Wt : Cert.Stages.FA Cert.ReferenceIdeal.S128x128) (b : Cert.Stages.FA Cert.ReferenceIdeal.S128)
    (X : Cert.Stages.FA Cert.ReferenceIdeal.S100000x128) (R : Cert.Stages.FA Cert.ReferenceIdeal.S100000x128)
    (hX : V c (Pipeline.arrRef spec1 0) = X) (hR : V c (Pipeline.arrRef spec1 1) = R)
    (hW : V c (Pipeline.arrRef spec1 2) = Wt)
    (hb : ∀ k : Fin 128, V c (Pipeline.arrRef spec1 3) (ix2 (0 : Fin 1) k) = b (ix1 k)) :
    (dat1 V c).arrAt 5 cfg1.N = Cert.Stages.leakyNodes (Cert.Stages.nodeLin Wt b X R) :=
  (dat1 V c).arrAt_eq_of_cover 5 _ (fun t _ => flushed5_eq V c Wt b X R hX hR hW hb t) cover5

end Cert.KernelIdeal.Init1

end
-- ==== Proof.Region2.lean ====
/-
  Launch 2 (a round's dense step) as a function of whole arrays.

  The launch walks the 100000 rows in 20 blocks of 5000.  At a block it multiplies the block's rows of the pooled
  messages by the whole weight matrix, adds the bias row and the same rows of the input message, applies the selection,
  and writes the outcome to the same rows of its output.  Entry (q, c) of a block's outcome depends on row q of the block
  only, and the blocks tile the rows, so the output array ends holding the round's dense step of the whole arrays.
-/
import proofs.«127585_j36051955483067_1_alg».proof.Proof.Gen.KernelIdeal.Frame
import proofs.«127585_j36051955483067_1_alg».proof.Proof.StagesAt

set_option maxRecDepth 16384

noncomputable section

namespace Cert.KernelIdeal.Conv2

open Cert.KernelIdeal Cert.KernelIdeal.Gen
open Idealize.ShloMosaic Idealize.ShloMosaic.TcCoe Idealize.ShloMosaic.ValueIdx Idealize.ShloMosaic.LinearRows
open Idealize.SL.Sem
open Idealize.ShloMosaic.Pipeline (Dat Cfg Window)

/-- The body's outcome at entry (q, c) of a block: the linear form of row q, the residual's entry added, selected. -/
theorem pay_apply (x0 x3 : Vec Ideal S5000x128 .f32) (x1 : Vec Ideal S128x128 .f32) (x2 : Vec Ideal S1x128 .f32)
    (q : Fin 5000) (c : Fin 128) :
    k2_pay1 (F := Ideal) x0 x1 x2 x3 (ix2 q c)
      = leakyAt Cert.Stages.z0 Cert.Stages.s01 (linAt x0 x1 (fun k => x2 (ix2 (0 : Fin 1) k)) q c + x3 (ix2 q c)) := by
  unfold k2_pay1
  simp only [shapeCast_self]
  refine (kernel_leaky_apply _ _ _ (ix2 q c)).trans (congrArg (leakyAt _ _) ?_)
  exact congrArg (· + x3 (ix2 q c))
    (kernel_lin_apply (M := 5000) (K := 128) (N := 128) bitsLt_bf16_f32 bitsLt_bf16_f32 broadcasts_S1x128_S5000x128 x0 x1 x2 q c)

theorem hz : (![0, 0] : Fin 2 → Nat) = fun _ => 0 := funext fun a => by fin_cases a <;> rfl

/-- The block indices over the grid: the row-blocked windows move with the point, the weights and the bias stay. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

variable (V : (c : Dev nD) → (b : Ref sig .tc) → Buf (Elt Ideal) ((c : Thread nD τ).loc b)) (c : Dev nD)

/-- What a point writes back is its block of the dense step of the whole arrays. -/
theorem flushed_eq (Wt : Cert.Stages.FA Cert.ReferenceIdeal.S128x128) (b : Cert.Stages.FA Cert.ReferenceIdeal.S128)
    (IM P : Cert.Stages.FA Cert.ReferenceIdeal.S100000x128)
    (hP : V c (Pipeline.arrRef spec2 0) = P) (hIM : V c (Pipeline.arrRef spec2 1) = IM)
    (hW : V c (Pipeline.arrRef spec2 2) = Wt)
    (hb : ∀ k : Fin 128, V c (Pipeline.arrRef spec2 3) (ix2 (0 : Fin 1) k) = b (ix1 k)) (t : Fin cfg2.N) :
    (dat2 V c).flushed 4 t = ((cfg2.win 4).blk t).view.read (Elt Ideal) (Cert.Stages.conv Wt b IM P) := by
  show (cfg2.win 4).cut (grid2.coords t) ((dat2 V c).after 4 t) = _
  rw [after2_4]
  unfold out2_4
  rw [View.canon_unit_zero hz]
  simp only [View.ld_unit_zero (S := S5000x128) hz, View.ld_unit_zero (S := S128x128) hz, View.ld_unit_zero (S := S1x128) hz]
  funext j
  obtain ⟨q, k, rfl⟩ : ∃ (q : Fin 5000) (k : Fin 128), j = ix2 q k := ⟨j 0, j 1, eq_ix2 j⟩
  obtain ⟨e0, e1, e2, e3, e4, e5, e6, e7, e8, e9⟩ := idx_facts t
  have ht : t.val < 20 := lt_of_lt_of_eq t.isLt N_2
  have hrow : t.val * 5000 + q.val < 100000 := by have := q.isLt; omega
  have hi : ((cfg2.win 4).blk t).view.emb (ix2 q k) = ix2 (⟨t.val * 5000 + q.val, hrow⟩ : Fin 100000) k := by
    funext a; apply Fin.ext
    match a with
    | ⟨0, _⟩ => show win2_4.index t (0 : Fin 2) * 5000 + 1 * q.val = t.val * 5000 + q.val; omega
    | ⟨1, _⟩ => show win2_4.index t (1 : Fin 2) * 128 + 1 * k.val = k.val; omega
  show k2_pay1 (iblk2 V c 0 t) (iblk2 V c 2 t) (iblk2 V c 3 t) (iblk2 V c 1 t) (ix2 q k)
    = Cert.Stages.conv Wt b IM P (((cfg2.win 4).blk t).view.emb (ix2 q k))
  rw [hi]
  refine (pay_apply (iblk2 V c 0 t) (iblk2 V c 1 t) (iblk2 V c 2 t) (iblk2 V c 3 t) q k).trans ?_
  refine Eq.trans ?_ (Cert.Stages.conv_apply Wt b IM P ⟨t.val * 5000 + q.val, hrow⟩ k).symm
  refine congrArg (leakyAt _ _) ?_
  have h0 : ∀ k' : Fin 128, iblk2 V c 0 t (ix2 q k') = P (ix2 (⟨t.val * 5000 + q.val, hrow⟩ : Fin 100000) k') := by
    intro k'
    rw [← hP]
    show V c (Pipeline.arrRef spec2 0) (((cfg2.win 0).blk t).view.emb (ix2 q k')) = _
    refine congrArg _ (funext fun a => Fin.ext ?_)
    match a with
    | ⟨0, _⟩ => show win2_0.index t (0 : Fin 2) * 5000 + 1 * q.val = t.val * 5000 + q.val; omega
    | ⟨1, _⟩ => show win2_0.index t (1 : Fin 2) * 128 + 1 * k'.val = k'.val; omega
  have h1 : iblk2 V c 1 t (ix2 q k) = IM (ix2 (⟨t.val * 5000 + q.val, hrow⟩ : Fin 100000) k) := by
    rw [← hIM]
    show V c (Pipeline.arrRef spec2 1) (((cfg2.win 1).blk t).view.emb (ix2 q k)) = _
    refine congrArg _ (funext fun a => Fin.ext ?_)
    match a with
    | ⟨0, _⟩ => show win2_1.index t (0 : Fin 2) * 5000 + 1 * q.val = t.val * 5000 + q.val; omega
    | ⟨1, _⟩ => show win2_1.index t (1 : Fin 2) * 128 + 1 * k.val = k.val; omega
  have h2 : ∀ k' : Fin 128, iblk2 V c 2 t (ix2 k' k) = Wt (ix2 k' k) := by
    intro k'
    rw [← hW]
    show V c (Pipeline.arrRef spec2 2) (((cfg2.win 2).blk t).view.emb (ix2 k' k)) = _
    refine congrArg _ (funext fun a => Fin.ext ?_)
    match a with
    | ⟨0, _⟩ => show win2_2.index t (0 : Fin 2) * 128 + 1 * k'.val = k'.val; omega
    | ⟨1, _⟩ => show win2_2.index t (1 : Fin 2) * 128 + 1 * k.val = k.val; omega
  have h3 : iblk2 V c 3 t (ix2 (0 : Fin 1) k) = b (ix1 k) := by
    rw [← hb k]
    show V c (Pipeline.arrRef spec2 3) (((cfg2.win 3).blk t).view.emb (ix2 (0 : Fin 1) k)) = _
    refine congrArg _ (funext fun a => Fin.ext ?_)
    match a with
    | ⟨0, _⟩ => show win2_3.index t (0 : Fin 2) * 1 + 1 * 0 = 0; omega
    | ⟨1, _⟩ => show win2_3.index t (1 : Fin 2) * 128 + 1 * k.val = k.val; omega
  rw [h1]
  exact congrArg (· + IM (ix2 (⟨t.val * 5000 + q.val, hrow⟩ : Fin 100000) k)) (linAt_congr h0 h2 h3)

/-- An index of the output array is in a point's block iff each coordinate is in the block's range on its axis. -/
theorem mem_blk (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole (Pipeline.arrRef spec2 4)).slice (win2_4.rect t)).set ↔ _
  rw [View.set_slice_whole, Rect.mem_set_unit]
  exact Iff.rfl

/-- Every index of the output array is in the block of the point its row falls to. -/
theorem cover (i : S100000x128.Idx) : ∃ t : Fin cfg2.N, (cfg2.win 4).flush t = true ∧ i ∈ ((cfg2.win 4).blk t).view.set := by
  have hi0 : (i 0).val < 100000 := (i 0).isLt
  have hi1 : (i 1).val < 128 := (i 1).isLt
  have hN : cfg2.N = 20 := N_2
  have htl : (i 0).val / 5000 < cfg2.N := by rw [hN]; omega
  refine ⟨⟨(i 0).val / 5000, htl⟩, flush2_4 _, ?_⟩
  rw [mem_blk]
  obtain ⟨e0, e1, e2, e3, e4, e5, e6, e7, e8, e9⟩ := idx_facts ⟨(i 0).val / 5000, htl⟩
  intro a
  match a with
  | ⟨0, _⟩ =>
    show win2_4.index ⟨(i 0).val / 5000, htl⟩ (0 : Fin 2) * 5000 ≤ (i 0).val ∧ (i 0).val < win2_4.index ⟨(i 0).val / 5000, htl⟩ (0 : Fin 2) * 5000 + 5000
    rw [e8]
    show (i 0).val / 5000 * 5000 ≤ (i 0).val ∧ (i 0).val < (i 0).val / 5000 * 5000 + 5000
    omega
  | ⟨1, _⟩ =>
    show win2_4.index ⟨(i 0).val / 5000, htl⟩ (1 : Fin 2) * 128 ≤ (i 1).val ∧ (i 1).val < win2_4.index ⟨(i 0).val / 5000, htl⟩ (1 : Fin 2) * 128 + 128
    rw [e9]
    omega

/-- The output array after the launch: the round's dense step of the whole arrays the launch finds. -/
theorem value (Wt : Cert.Stages.FA Cert.ReferenceIdeal.S128x128) (b : Cert.Stages.FA Cert.ReferenceIdeal.S128)
    (IM P : Cert.Stages.FA Cert.ReferenceIdeal.S100000x128)
    (hP : V c (Pipeline.arrRef spec2 0) = P) (hIM : V c (Pipeline.arrRef spec2 1) = IM)
    (hW : V c (Pipeline.arrRef spec2 2) = Wt)
    (hb : ∀ k : Fin 128, V c (Pipeline.arrRef spec2 3) (ix2 (0 : Fin 1) k) = b (ix1 k)) :
    (dat2 V c).arrAt 4 cfg2.N = Cert.Stages.conv Wt b IM P :=
  (dat2 V c).arrAt_eq_of_cover 4 _ (fun t _ => flushed_eq V c Wt b IM P hP hIM hW hb t) cover

end Cert.KernelIdeal.Conv2

end
-- ==== Proof.Region3.lean ====
/-
  Launch 3 (a round's dense step) as a function of whole arrays.

  The launch walks the 100000 rows in 20 blocks of 5000.  At a block it multiplies the block's rows of the pooled
  messages by the whole weight matrix, adds the bias row and the same rows of the input message, applies the selection,
  and writes the outcome to the same rows of its output.  Entry (q, c) of a block's outcome depends on row q of the block
  only, and the blocks tile the rows, so the output array ends holding the round's dense step of the whole arrays.
-/
import proofs.«127585_j36051955483067_1_alg».proof.Proof.Gen.KernelIdeal.Frame
import proofs.«127585_j36051955483067_1_alg».proof.Proof.StagesAt

set_option maxRecDepth 16384

noncomputable section

namespace Cert.KernelIdeal.Conv3

open Cert.KernelIdeal Cert.KernelIdeal.Gen
open Idealize.ShloMosaic Idealize.ShloMosaic.TcCoe Idealize.ShloMosaic.ValueIdx Idealize.ShloMosaic.LinearRows
open Idealize.SL.Sem
open Idealize.ShloMosaic.Pipeline (Dat Cfg Window)

/-- The body's outcome at entry (q, c) of a block: the linear form of row q, the residual's entry added, selected. -/
theorem pay_apply (x0 x3 : Vec Ideal S5000x128 .f32) (x1 : Vec Ideal S128x128 .f32) (x2 : Vec Ideal S1x128 .f32)
    (q : Fin 5000) (c : Fin 128) :
    k3_pay1 (F := Ideal) x0 x1 x2 x3 (ix2 q c)
      = leakyAt Cert.Stages.z0 Cert.Stages.s01 (linAt x0 x1 (fun k => x2 (ix2 (0 : Fin 1) k)) q c + x3 (ix2 q c)) := by
  unfold k3_pay1
  simp only [shapeCast_self]
  refine (kernel_leaky_apply _ _ _ (ix2 q c)).trans (congrArg (leakyAt _ _) ?_)
  exact congrArg (· + x3 (ix2 q c))
    (kernel_lin_apply (M := 5000) (K := 128) (N := 128) bitsLt_bf16_f32 bitsLt_bf16_f32 broadcasts_S1x128_S5000x128 x0 x1 x2 q c)

theorem hz : (![0, 0] : Fin 2 → Nat) = fun _ => 0 := funext fun a => by fin_cases a <;> rfl

/-- The block indices over the grid: the row-blocked windows move with the point, the weights and the bias stay. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

variable (V : (c : Dev nD) → (b : Ref sig .tc) → Buf (Elt Ideal) ((c : Thread nD τ).loc b)) (c : Dev nD)

/-- What a point writes back is its block of the dense step of the whole arrays. -/
theorem flushed_eq (Wt : Cert.Stages.FA Cert.ReferenceIdeal.S128x128) (b : Cert.Stages.FA Cert.ReferenceIdeal.S128)
    (IM P : Cert.Stages.FA Cert.ReferenceIdeal.S100000x128)
    (hP : V c (Pipeline.arrRef spec3 0) = P) (hIM : V c (Pipeline.arrRef spec3 1) = IM)
    (hW : V c (Pipeline.arrRef spec3 2) = Wt)
    (hb : ∀ k : Fin 128, V c (Pipeline.arrRef spec3 3) (ix2 (0 : Fin 1) k) = b (ix1 k)) (t : Fin cfg3.N) :
    (dat3 V c).flushed 4 t = ((cfg3.win 4).blk t).view.read (Elt Ideal) (Cert.Stages.conv Wt b IM P) := by
  show (cfg3.win 4).cut (grid3.coords t) ((dat3 V c).after 4 t) = _
  rw [after3_4]
  unfold out3_4
  rw [View.canon_unit_zero hz]
  simp only [View.ld_unit_zero (S := S5000x128) hz, View.ld_unit_zero (S := S128x128) hz, View.ld_unit_zero (S := S1x128) hz]
  funext j
  obtain ⟨q, k, rfl⟩ : ∃ (q : Fin 5000) (k : Fin 128), j = ix2 q k := ⟨j 0, j 1, eq_ix2 j⟩
  obtain ⟨e0, e1, e2, e3, e4, e5, e6, e7, e8, e9⟩ := idx_facts t
  have ht : t.val < 20 := lt_of_lt_of_eq t.isLt N_3
  have hrow : t.val * 5000 + q.val < 100000 := by have := q.isLt; omega
  have hi : ((cfg3.win 4).blk t).view.emb (ix2 q k) = ix2 (⟨t.val * 5000 + q.val, hrow⟩ : Fin 100000) k := by
    funext a; apply Fin.ext
    match a with
    | ⟨0, _⟩ => show win3_4.index t (0 : Fin 2) * 5000 + 1 * q.val = t.val * 5000 + q.val; omega
    | ⟨1, _⟩ => show win3_4.index t (1 : Fin 2) * 128 + 1 * k.val = k.val; omega
  show k3_pay1 (iblk3 V c 0 t) (iblk3 V c 2 t) (iblk3 V c 3 t) (iblk3 V c 1 t) (ix2 q k)
    = Cert.Stages.conv Wt b IM P (((cfg3.win 4).blk t).view.emb (ix2 q k))
  rw [hi]
  refine (pay_apply (iblk3 V c 0 t) (iblk3 V c 1 t) (iblk3 V c 2 t) (iblk3 V c 3 t) q k).trans ?_
  refine Eq.trans ?_ (Cert.Stages.conv_apply Wt b IM P ⟨t.val * 5000 + q.val, hrow⟩ k).symm
  refine congrArg (leakyAt _ _) ?_
  have h0 : ∀ k' : Fin 128, iblk3 V c 0 t (ix2 q k') = P (ix2 (⟨t.val * 5000 + q.val, hrow⟩ : Fin 100000) k') := by
    intro k'
    rw [← hP]
    show V c (Pipeline.arrRef spec3 0) (((cfg3.win 0).blk t).view.emb (ix2 q k')) = _
    refine congrArg _ (funext fun a => Fin.ext ?_)
    match a with
    | ⟨0, _⟩ => show win3_0.index t (0 : Fin 2) * 5000 + 1 * q.val = t.val * 5000 + q.val; omega
    | ⟨1, _⟩ => show win3_0.index t (1 : Fin 2) * 128 + 1 * k'.val = k'.val; omega
  have h1 : iblk3 V c 1 t (ix2 q k) = IM (ix2 (⟨t.val * 5000 + q.val, hrow⟩ : Fin 100000) k) := by
    rw [← hIM]
    show V c (Pipeline.arrRef spec3 1) (((cfg3.win 1).blk t).view.emb (ix2 q k)) = _
    refine congrArg _ (funext fun a => Fin.ext ?_)
    match a with
    | ⟨0, _⟩ => show win3_1.index t (0 : Fin 2) * 5000 + 1 * q.val = t.val * 5000 + q.val; omega
    | ⟨1, _⟩ => show win3_1.index t (1 : Fin 2) * 128 + 1 * k.val = k.val; omega
  have h2 : ∀ k' : Fin 128, iblk3 V c 2 t (ix2 k' k) = Wt (ix2 k' k) := by
    intro k'
    rw [← hW]
    show V c (Pipeline.arrRef spec3 2) (((cfg3.win 2).blk t).view.emb (ix2 k' k)) = _
    refine congrArg _ (funext fun a => Fin.ext ?_)
    match a with
    | ⟨0, _⟩ => show win3_2.index t (0 : Fin 2) * 128 + 1 * k'.val = k'.val; omega
    | ⟨1, _⟩ => show win3_2.index t (1 : Fin 2) * 128 + 1 * k.val = k.val; omega
  have h3 : iblk3 V c 3 t (ix2 (0 : Fin 1) k) = b (ix1 k) := by
    rw [← hb k]
    show V c (Pipeline.arrRef spec3 3) (((cfg3.win 3).blk t).view.emb (ix2 (0 : Fin 1) k)) = _
    refine congrArg _ (funext fun a => Fin.ext ?_)
    match a with
    | ⟨0, _⟩ => show win3_3.index t (0 : Fin 2) * 1 + 1 * 0 = 0; omega
    | ⟨1, _⟩ => show win3_3.index t (1 : Fin 2) * 128 + 1 * k.val = k.val; omega
  rw [h1]
  exact congrArg (· + IM (ix2 (⟨t.val * 5000 + q.val, hrow⟩ : Fin 100000) k)) (linAt_congr h0 h2 h3)

/-- An index of the output array is in a point's block iff each coordinate is in the block's range on its axis. -/
theorem mem_blk (t : Fin cfg3.N) (i : S100000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole (Pipeline.arrRef spec3 4)).slice (win3_4.rect t)).set ↔ _
  rw [View.set_slice_whole, Rect.mem_set_unit]
  exact Iff.rfl

/-- Every index of the output array is in the block of the point its row falls to. -/
theorem cover (i : S100000x128.Idx) : ∃ t : Fin cfg3.N, (cfg3.win 4).flush t = true ∧ i ∈ ((cfg3.win 4).blk t).view.set := by
  have hi0 : (i 0).val < 100000 := (i 0).isLt
  have hi1 : (i 1).val < 128 := (i 1).isLt
  have hN : cfg3.N = 20 := N_3
  have htl : (i 0).val / 5000 < cfg3.N := by rw [hN]; omega
  refine ⟨⟨(i 0).val / 5000, htl⟩, flush3_4 _, ?_⟩
  rw [mem_blk]
  obtain ⟨e0, e1, e2, e3, e4, e5, e6, e7, e8, e9⟩ := idx_facts ⟨(i 0).val / 5000, htl⟩
  intro a
  match a with
  | ⟨0, _⟩ =>
    show win3_4.index ⟨(i 0).val / 5000, htl⟩ (0 : Fin 2) * 5000 ≤ (i 0).val ∧ (i 0).val < win3_4.index ⟨(i 0).val / 5000, htl⟩ (0 : Fin 2) * 5000 + 5000
    rw [e8]
    show (i 0).val / 5000 * 5000 ≤ (i 0).val ∧ (i 0).val < (i 0).val / 5000 * 5000 + 5000
    omega
  | ⟨1, _⟩ =>
    show win3_4.index ⟨(i 0).val / 5000, htl⟩ (1 : Fin 2) * 128 ≤ (i 1).val ∧ (i 1).val < win3_4.index ⟨(i 0).val / 5000, htl⟩ (1 : Fin 2) * 128 + 128
    rw [e9]
    omega

/-- The output array after the launch: the round's dense step of the whole arrays the launch finds. -/
theorem value (Wt : Cert.Stages.FA Cert.ReferenceIdeal.S128x128) (b : Cert.Stages.FA Cert.ReferenceIdeal.S128)
    (IM P : Cert.Stages.FA Cert.ReferenceIdeal.S100000x128)
    (hP : V c (Pipeline.arrRef spec3 0) = P) (hIM : V c (Pipeline.arrRef spec3 1) = IM)
    (hW : V c (Pipeline.arrRef spec3 2) = Wt)
    (hb : ∀ k : Fin 128, V c (Pipeline.arrRef spec3 3) (ix2 (0 : Fin 1) k) = b (ix1 k)) :
    (dat3 V c).arrAt 4 cfg3.N = Cert.Stages.conv Wt b IM P :=
  (dat3 V c).arrAt_eq_of_cover 4 _ (fun t _ => flushed_eq V c Wt b IM P hP hIM hW hb t) cover

end Cert.KernelIdeal.Conv3

end
-- ==== Proof.Region4.lean ====
/-
  Launch 4 (a round's dense step) as a function of whole arrays.

  The launch walks the 100000 rows in 20 blocks of 5000.  At a block it multiplies the block's rows of the pooled
  messages by the whole weight matrix, adds the bias row and the same rows of the input message, applies the selection,
  and writes the outcome to the same rows of its output.  Entry (q, c) of a block's outcome depends on row q of the block
  only, and the blocks tile the rows, so the output array ends holding the round's dense step of the whole arrays.
-/
import proofs.«127585_j36051955483067_1_alg».proof.Proof.Gen.KernelIdeal.Frame
import proofs.«127585_j36051955483067_1_alg».proof.Proof.StagesAt

set_option maxRecDepth 16384

noncomputable section

namespace Cert.KernelIdeal.Conv4

open Cert.KernelIdeal Cert.KernelIdeal.Gen
open Idealize.ShloMosaic Idealize.ShloMosaic.TcCoe Idealize.ShloMosaic.ValueIdx Idealize.ShloMosaic.LinearRows
open Idealize.SL.Sem
open Idealize.ShloMosaic.Pipeline (Dat Cfg Window)

/-- The body's outcome at entry (q, c) of a block: the linear form of row q, the residual's entry added, selected. -/
theorem pay_apply (x0 x3 : Vec Ideal S5000x128 .f32) (x1 : Vec Ideal S128x128 .f32) (x2 : Vec Ideal S1x128 .f32)
    (q : Fin 5000) (c : Fin 128) :
    k4_pay1 (F := Ideal) x0 x1 x2 x3 (ix2 q c)
      = leakyAt Cert.Stages.z0 Cert.Stages.s01 (linAt x0 x1 (fun k => x2 (ix2 (0 : Fin 1) k)) q c + x3 (ix2 q c)) := by
  unfold k4_pay1
  simp only [shapeCast_self]
  refine (kernel_leaky_apply _ _ _ (ix2 q c)).trans (congrArg (leakyAt _ _) ?_)
  exact congrArg (· + x3 (ix2 q c))
    (kernel_lin_apply (M := 5000) (K := 128) (N := 128) bitsLt_bf16_f32 bitsLt_bf16_f32 broadcasts_S1x128_S5000x128 x0 x1 x2 q c)

theorem hz : (![0, 0] : Fin 2 → Nat) = fun _ => 0 := funext fun a => by fin_cases a <;> rfl

/-- The block indices over the grid: the row-blocked windows move with the point, the weights and the bias stay. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

variable (V : (c : Dev nD) → (b : Ref sig .tc) → Buf (Elt Ideal) ((c : Thread nD τ).loc b)) (c : Dev nD)

/-- What a point writes back is its block of the dense step of the whole arrays. -/
theorem flushed_eq (Wt : Cert.Stages.FA Cert.ReferenceIdeal.S128x128) (b : Cert.Stages.FA Cert.ReferenceIdeal.S128)
    (IM P : Cert.Stages.FA Cert.ReferenceIdeal.S100000x128)
    (hP : V c (Pipeline.arrRef spec4 0) = P) (hIM : V c (Pipeline.arrRef spec4 1) = IM)
    (hW : V c (Pipeline.arrRef spec4 2) = Wt)
    (hb : ∀ k : Fin 128, V c (Pipeline.arrRef spec4 3) (ix2 (0 : Fin 1) k) = b (ix1 k)) (t : Fin cfg4.N) :
    (dat4 V c).flushed 4 t = ((cfg4.win 4).blk t).view.read (Elt Ideal) (Cert.Stages.conv Wt b IM P) := by
  show (cfg4.win 4).cut (grid4.coords t) ((dat4 V c).after 4 t) = _
  rw [after4_4]
  unfold out4_4
  rw [View.canon_unit_zero hz]
  simp only [View.ld_unit_zero (S := S5000x128) hz, View.ld_unit_zero (S := S128x128) hz, View.ld_unit_zero (S := S1x128) hz]
  funext j
  obtain ⟨q, k, rfl⟩ : ∃ (q : Fin 5000) (k : Fin 128), j = ix2 q k := ⟨j 0, j 1, eq_ix2 j⟩
  obtain ⟨e0, e1, e2, e3, e4, e5, e6, e7, e8, e9⟩ := idx_facts t
  have ht : t.val < 20 := lt_of_lt_of_eq t.isLt N_4
  have hrow : t.val * 5000 + q.val < 100000 := by have := q.isLt; omega
  have hi : ((cfg4.win 4).blk t).view.emb (ix2 q k) = ix2 (⟨t.val * 5000 + q.val, hrow⟩ : Fin 100000) k := by
    funext a; apply Fin.ext
    match a with
    | ⟨0, _⟩ => show win4_4.index t (0 : Fin 2) * 5000 + 1 * q.val = t.val * 5000 + q.val; omega
    | ⟨1, _⟩ => show win4_4.index t (1 : Fin 2) * 128 + 1 * k.val = k.val; omega
  show k4_pay1 (iblk4 V c 0 t) (iblk4 V c 2 t) (iblk4 V c 3 t) (iblk4 V c 1 t) (ix2 q k)
    = Cert.Stages.conv Wt b IM P (((cfg4.win 4).blk t).view.emb (ix2 q k))
  rw [hi]
  refine (pay_apply (iblk4 V c 0 t) (iblk4 V c 1 t) (iblk4 V c 2 t) (iblk4 V c 3 t) q k).trans ?_
  refine Eq.trans ?_ (Cert.Stages.conv_apply Wt b IM P ⟨t.val * 5000 + q.val, hrow⟩ k).symm
  refine congrArg (leakyAt _ _) ?_
  have h0 : ∀ k' : Fin 128, iblk4 V c 0 t (ix2 q k') = P (ix2 (⟨t.val * 5000 + q.val, hrow⟩ : Fin 100000) k') := by
    intro k'
    rw [← hP]
    show V c (Pipeline.arrRef spec4 0) (((cfg4.win 0).blk t).view.emb (ix2 q k')) = _
    refine congrArg _ (funext fun a => Fin.ext ?_)
    match a with
    | ⟨0, _⟩ => show win4_0.index t (0 : Fin 2) * 5000 + 1 * q.val = t.val * 5000 + q.val; omega
    | ⟨1, _⟩ => show win4_0.index t (1 : Fin 2) * 128 + 1 * k'.val = k'.val; omega
  have h1 : iblk4 V c 1 t (ix2 q k) = IM (ix2 (⟨t.val * 5000 + q.val, hrow⟩ : Fin 100000) k) := by
    rw [← hIM]
    show V c (Pipeline.arrRef spec4 1) (((cfg4.win 1).blk t).view.emb (ix2 q k)) = _
    refine congrArg _ (funext fun a => Fin.ext ?_)
    match a with
    | ⟨0, _⟩ => show win4_1.index t (0 : Fin 2) * 5000 + 1 * q.val = t.val * 5000 + q.val; omega
    | ⟨1, _⟩ => show win4_1.index t (1 : Fin 2) * 128 + 1 * k.val = k.val; omega
  have h2 : ∀ k' : Fin 128, iblk4 V c 2 t (ix2 k' k) = Wt (ix2 k' k) := by
    intro k'
    rw [← hW]
    show V c (Pipeline.arrRef spec4 2) (((cfg4.win 2).blk t).view.emb (ix2 k' k)) = _
    refine congrArg _ (funext fun a => Fin.ext ?_)
    match a with
    | ⟨0, _⟩ => show win4_2.index t (0 : Fin 2) * 128 + 1 * k'.val = k'.val; omega
    | ⟨1, _⟩ => show win4_2.index t (1 : Fin 2) * 128 + 1 * k.val = k.val; omega
  have h3 : iblk4 V c 3 t (ix2 (0 : Fin 1) k) = b (ix1 k) := by
    rw [← hb k]
    show V c (Pipeline.arrRef spec4 3) (((cfg4.win 3).blk t).view.emb (ix2 (0 : Fin 1) k)) = _
    refine congrArg _ (funext fun a => Fin.ext ?_)
    match a with
    | ⟨0, _⟩ => show win4_3.index t (0 : Fin 2) * 1 + 1 * 0 = 0; omega
    | ⟨1, _⟩ => show win4_3.index t (1 : Fin 2) * 128 + 1 * k.val = k.val; omega
  rw [h1]
  exact congrArg (· + IM (ix2 (⟨t.val * 5000 + q.val, hrow⟩ : Fin 100000) k)) (linAt_congr h0 h2 h3)

/-- An index of the output array is in a point's block iff each coordinate is in the block's range on its axis. -/
theorem mem_blk (t : Fin cfg4.N) (i : S100000x128.Idx) :
    i ∈ ((cfg4.win 4).blk t).view.set ↔ ∀ a : Fin 2, win4_4.index t a * S5000x128.size a ≤ (i a).val ∧ (i a).val < win4_4.index t a * S5000x128.size a + S5000x128.size a := by
  show i ∈ ((View.whole (Pipeline.arrRef spec4 4)).slice (win4_4.rect t)).set ↔ _
  rw [View.set_slice_whole, Rect.mem_set_unit]
  exact Iff.rfl

/-- Every index of the output array is in the block of the point its row falls to. -/
theorem cover (i : S100000x128.Idx) : ∃ t : Fin cfg4.N, (cfg4.win 4).flush t = true ∧ i ∈ ((cfg4.win 4).blk t).view.set := by
  have hi0 : (i 0).val < 100000 := (i 0).isLt
  have hi1 : (i 1).val < 128 := (i 1).isLt
  have hN : cfg4.N = 20 := N_4
  have htl : (i 0).val / 5000 < cfg4.N := by rw [hN]; omega
  refine ⟨⟨(i 0).val / 5000, htl⟩, flush4_4 _, ?_⟩
  rw [mem_blk]
  obtain ⟨e0, e1, e2, e3, e4, e5, e6, e7, e8, e9⟩ := idx_facts ⟨(i 0).val / 5000, htl⟩
  intro a
  match a with
  | ⟨0, _⟩ =>
    show win4_4.index ⟨(i 0).val / 5000, htl⟩ (0 : Fin 2) * 5000 ≤ (i 0).val ∧ (i 0).val < win4_4.index ⟨(i 0).val / 5000, htl⟩ (0 : Fin 2) * 5000 + 5000
    rw [e8]
    show (i 0).val / 5000 * 5000 ≤ (i 0).val ∧ (i 0).val < (i 0).val / 5000 * 5000 + 5000
    omega
  | ⟨1, _⟩ =>
    show win4_4.index ⟨(i 0).val / 5000, htl⟩ (1 : Fin 2) * 128 ≤ (i 1).val ∧ (i 1).val < win4_4.index ⟨(i 0).val / 5000, htl⟩ (1 : Fin 2) * 128 + 128
    rw [e9]
    omega

/-- The output array after the launch: the round's dense step of the whole arrays the launch finds. -/
theorem value (Wt : Cert.Stages.FA Cert.ReferenceIdeal.S128x128) (b : Cert.Stages.FA Cert.ReferenceIdeal.S128)
    (IM P : Cert.Stages.FA Cert.ReferenceIdeal.S100000x128)
    (hP : V c (Pipeline.arrRef spec4 0) = P) (hIM : V c (Pipeline.arrRef spec4 1) = IM)
    (hW : V c (Pipeline.arrRef spec4 2) = Wt)
    (hb : ∀ k : Fin 128, V c (Pipeline.arrRef spec4 3) (ix2 (0 : Fin 1) k) = b (ix1 k)) :
    (dat4 V c).arrAt 4 cfg4.N = Cert.Stages.conv Wt b IM P :=
  (dat4 V c).arrAt_eq_of_cover 4 _ (fun t _ => flushed_eq V c Wt b IM P hP hIM hW hb t) cover

end Cert.KernelIdeal.Conv4

end
-- ==== Proof.Region5.lean ====
/-
  Launch 5 (the output layer) as a function of whole arrays.

  The launch walks the 100000 rows in 20 blocks of 5000.  At a block it multiplies the block's rows of the last
  current message by the whole weight matrix, adds the bias row, applies the selection, and writes the outcome to the
  same rows of its output.  The blocks tile the rows, so the output array ends holding the output layer of the whole
  arrays.
-/
import proofs.«127585_j36051955483067_1_alg».proof.Proof.Gen.KernelIdeal.Frame
import proofs.«127585_j36051955483067_1_alg».proof.Proof.StagesAt

set_option maxRecDepth 16384

noncomputable section

namespace Cert.KernelIdeal.Out5

open Cert.KernelIdeal Cert.KernelIdeal.Gen
open Idealize.ShloMosaic Idealize.ShloMosaic.TcCoe Idealize.ShloMosaic.ValueIdx Idealize.ShloMosaic.LinearRows
open Idealize.SL.Sem
open Idealize.ShloMosaic.Pipeline (Dat Cfg Window)

/-- The body's outcome at entry (q, c) of a block: the linear form of row q, selected. -/
theorem pay_apply (x0 : Vec Ideal S5000x128 .f32) (x1 : Vec Ideal S128x128 .f32) (x2 : Vec Ideal S1x128 .f32)
    (q : Fin 5000) (c : Fin 128) :
    k5_pay1 (F := Ideal) x0 x1 x2 (ix2 q c)
      = leakyAt Cert.Stages.z0 Cert.Stages.s01 (linAt x0 x1 (fun k => x2 (ix2 (0 : Fin 1) k)) q c) := by
  unfold k5_pay1
  simp only [shapeCast_self]
  refine (kernel_leaky_apply _ _ _ (ix2 q c)).trans (congrArg (leakyAt _ _) ?_)
  exact kernel_lin_apply (M := 5000) (K := 128) (N := 128) bitsLt_bf16_f32 bitsLt_bf16_f32 broadcasts_S1x128_S5000x128 x0 x1 x2 q c

theorem hz : (![0, 0] : Fin 2 → Nat) = fun _ => 0 := funext fun a => by fin_cases a <;> rfl

/-- The block indices over the grid: the row-blocked windows move with the point, the weights and the bias stay. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

variable (V : (c : Dev nD) → (b : Ref sig .tc) → Buf (Elt Ideal) ((c : Thread nD τ).loc b)) (c : Dev nD)

/-- What a point writes back through output window 3 is its block of the stage of the whole arrays. -/
theorem flushed_eq (Wt : Cert.Stages.FA Cert.ReferenceIdeal.S128x128) (b : Cert.Stages.FA Cert.ReferenceIdeal.S128)
    (X : Cert.Stages.FA Cert.ReferenceIdeal.S100000x128)
    (hX : V c (Pipeline.arrRef spec5 0) = X)
    (hW : V c (Pipeline.arrRef spec5 1) = Wt)
    (hb : ∀ k : Fin 128, V c (Pipeline.arrRef spec5 2) (ix2 (0 : Fin 1) k) = b (ix1 k)) (t : Fin cfg5.N) :
    (dat5 V c).flushed 3 t = ((cfg5.win 3).blk t).view.read (Elt Ideal) (Cert.Stages.outLayer Wt b X) := by
  show (cfg5.win 3).cut (grid5.coords t) ((dat5 V c).after 3 t) = _
  rw [after5_3]
  unfold out5_3
  rw [View.canon_unit_zero hz]
  simp only [View.ld_unit_zero (S := S5000x128) hz, View.ld_unit_zero (S := S128x128) hz, View.ld_unit_zero (S := S1x128) hz]
  funext j
  obtain ⟨q, k, rfl⟩ : ∃ (q : Fin 5000) (k : Fin 128), j = ix2 q k := ⟨j 0, j 1, eq_ix2 j⟩
  obtain ⟨e0a, e0b, e1a, e1b, e2a, e2b, e3a, e3b⟩ := idx_facts t
  have ht : t.val < 20 := lt_of_lt_of_eq t.isLt N_5
  have hrow : t.val * 5000 + q.val < 100000 := by have := q.isLt; omega
  have hi : ((cfg5.win 3).blk t).view.emb (ix2 q k) = ix2 (⟨t.val * 5000 + q.val, hrow⟩ : Fin 100000) k := by
    funext a; apply Fin.ext
    match a with
    | ⟨0, _⟩ => show win5_3.index t (0 : Fin 2) * 5000 + 1 * q.val = t.val * 5000 + q.val; omega
    | ⟨1, _⟩ => show win5_3.index t (1 : Fin 2) * 128 + 1 * k.val = k.val; omega
  show k5_pay1 (iblk5 V c 0 t) (iblk5 V c 1 t) (iblk5 V c 2 t) (ix2 q k)
    = (Cert.Stages.outLayer Wt b X) (((cfg5.win 3).blk t).view.emb (ix2 q k))
  rw [hi]
  refine (pay_apply (iblk5 V c 0 t) (iblk5 V c 1 t) (iblk5 V c 2 t) q k).trans ?_
  refine Eq.trans ?_ (Cert.Stages.outLayer_apply Wt b X (⟨t.val * 5000 + q.val, hrow⟩ : Fin 100000) k).symm
  have h0 : ∀ k' : Fin 128, iblk5 V c 0 t (ix2 q k') = X (ix2 (⟨t.val * 5000 + q.val, hrow⟩ : Fin 100000) k') := by
    intro k'
    rw [← hX]
    show V c (Pipeline.arrRef spec5 0) (((cfg5.win 0).blk t).view.emb (ix2 q k')) = _
    refine congrArg _ (funext fun a => Fin.ext ?_)
    match a with
    | ⟨0, _⟩ => show win5_0.index t (0 : Fin 2) * 5000 + 1 * q.val = t.val * 5000 + q.val; omega
    | ⟨1, _⟩ => show win5_0.index t (1 : Fin 2) * 128 + 1 * k'.val = k'.val; omega
  have h2 : ∀ k' : Fin 128, iblk5 V c 1 t (ix2 k' k) = Wt (ix2 k' k) := by
    intro k'
    rw [← hW]
    show V c (Pipeline.arrRef spec5 1) (((cfg5.win 1).blk t).view.emb (ix2 k' k)) = _
    refine congrArg _ (funext fun a => Fin.ext ?_)
    match a with
    | ⟨0, _⟩ => show win5_1.index t (0 : Fin 2) * 128 + 1 * k'.val = k'.val; omega
    | ⟨1, _⟩ => show win5_1.index t (1 : Fin 2) * 128 + 1 * k.val = k.val; omega
  have h3 : iblk5 V c 2 t (ix2 (0 : Fin 1) k) = b (ix1 k) := by
    rw [← hb k]
    show V c (Pipeline.arrRef spec5 2) (((cfg5.win 2).blk t).view.emb (ix2 (0 : Fin 1) k)) = _
    refine congrArg _ (funext fun a => Fin.ext ?_)
    match a with
    | ⟨0, _⟩ => show win5_2.index t (0 : Fin 2) * 1 + 1 * 0 = 0; omega
    | ⟨1, _⟩ => show win5_2.index t (1 : Fin 2) * 128 + 1 * k.val = k.val; omega
  exact congrArg (leakyAt _ _) (linAt_congr h0 h2 h3)

/-- An index of output array 3 is in a point's block iff each coordinate is in the block's range on its axis. -/
theorem mem_blk (t : Fin cfg5.N) (i : S100000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole (Pipeline.arrRef spec5 3)).slice (win5_3.rect t)).set ↔ _
  rw [View.set_slice_whole, Rect.mem_set_unit]
  exact Iff.rfl

/-- Every index of output array 3 is in the block of the point its row falls to. -/
theorem cover (i : S100000x128.Idx) : ∃ t : Fin cfg5.N, (cfg5.win 3).flush t = true ∧ i ∈ ((cfg5.win 3).blk t).view.set := by
  have hi0 : (i 0).val < 100000 := (i 0).isLt
  have hi1 : (i 1).val < 128 := (i 1).isLt
  have hN : cfg5.N = 20 := N_5
  have htl : (i 0).val / 5000 < cfg5.N := by rw [hN]; omega
  refine ⟨⟨(i 0).val / 5000, htl⟩, flush5_3 _, ?_⟩
  rw [mem_blk]
  obtain ⟨e0a, e0b, e1a, e1b, e2a, e2b, e3a, e3b⟩ := idx_facts ⟨(i 0).val / 5000, htl⟩
  intro a
  match a with
  | ⟨0, _⟩ =>
    show win5_3.index ⟨(i 0).val / 5000, htl⟩ (0 : Fin 2) * 5000 ≤ (i 0).val ∧ (i 0).val < win5_3.index ⟨(i 0).val / 5000, htl⟩ (0 : Fin 2) * 5000 + 5000
    rw [e3a]
    show (i 0).val / 5000 * 5000 ≤ (i 0).val ∧ (i 0).val < (i 0).val / 5000 * 5000 + 5000
    omega
  | ⟨1, _⟩ =>
    show win5_3.index ⟨(i 0).val / 5000, htl⟩ (1 : Fin 2) * 128 ≤ (i 1).val ∧ (i 1).val < win5_3.index ⟨(i 0).val / 5000, htl⟩ (1 : Fin 2) * 128 + 128
    rw [e3b]
    omega

/-- Output array 3 after the launch: the stage of the whole arrays the launch finds. -/
theorem value (Wt : Cert.Stages.FA Cert.ReferenceIdeal.S128x128) (b : Cert.Stages.FA Cert.ReferenceIdeal.S128)
    (X : Cert.Stages.FA Cert.ReferenceIdeal.S100000x128)
    (hX : V c (Pipeline.arrRef spec5 0) = X)
    (hW : V c (Pipeline.arrRef spec5 1) = Wt)
    (hb : ∀ k : Fin 128, V c (Pipeline.arrRef spec5 2) (ix2 (0 : Fin 1) k) = b (ix1 k)) :
    (dat5 V c).arrAt 3 cfg5.N = Cert.Stages.outLayer Wt b X :=
  (dat5 V c).arrAt_eq_of_cover 3 _ (fun t _ => flushed_eq V c Wt b X hX hW hb t) cover

end Cert.KernelIdeal.Out5

end
-- ==== Proof.LibWhere.lean ====
/-
  The result of a three-operand operation of an outlined function, without its transports.

  An operation of a function the compiler outlined reads and writes its buffers through typed references: it reads a
  buffer's contents transported to the operand's declared type and writes its value transported back to the buffer's
  own type.  Each transport is along an equation between the two types, so a transported value and the value are the
  same thing seen at two types.  Hence: if the three buffers hold, up to that change of view, the contents c, a and b,
  the result buffer holds, up to it, the operation's function of c, a and b.  Nothing is said about how the equations
  are proved, and none is evaluated.
-/
import Idealize.ShloMosaic.Lib.StableHlo.Run

namespace Idealize.ShloMosaic.StableHlo.TRef

variable {τ : Topo} {sig : RefSig} {Val : EltTy → Type} {Tc Ta Tb Ty : BufTy}

/-- A value read through a typed reference is the buffer's contents, seen at the declared type. -/
theorem ofBuf_eq_of_heq (x : TRef sig Tc) (u : x.ref.ty.Contents Val) (u' : Tc.Contents Val) (h : HEq u u') :
    x.ofBuf u = u' :=
  eq_of_heq ((cast_heq _ u).trans h)

/-- A value written through a typed reference is the value, seen at the buffer's own type. -/
theorem toBuf_eq_of_heq (x : TRef sig Ty) (v : Ty.Contents Val) (w : x.ref.ty.Contents Val) (h : HEq v w) :
    x.toBuf v = w :=
  eq_of_heq ((cast_heq _ v).trans h)

/-- The result buffer of a three-operand operation through typed references. -/
theorem ternary_result_eq (xc : TRef sig Tc) (xa : TRef sig Ta) (xb : TRef sig Tb) (xy : TRef sig Ty)
    (f : Tc.Contents Val → Ta.Contents Val → Tb.Contents Val → Ty.Contents Val) (F : Valuation τ sig Val)
    (c' : Tc.Contents Val) (a' : Ta.Contents Val) (b' : Tb.Contents Val) (r' : xy.ref.ty.Contents Val)
    (hc : HEq (F (Proc.devRef .tc xc.ref)) c') (ha : HEq (F (Proc.devRef .tc xa.ref)) a')
    (hb : HEq (F (Proc.devRef .tc xb.ref)) b') (hr : HEq (f c' a' b') r') :
    (TRef.ternary xc xa xb xy f : HloOp τ sig Val).result F (Proc.devRef .tc xy.ref) = r' := by
  show (StableHlo.ternary xc.ref xa.ref xb.ref xy.ref (fun w u v => xy.toBuf (f (xc.ofBuf w) (xa.ofBuf u) (xb.ofBuf v)))
      xc.dev xa.dev xb.dev xy.dev : HloOp τ sig Val).result F (Proc.devRef .tc xy.ref) = r'
  rw [ternary_result]
  rw [ofBuf_eq_of_heq xc _ c' hc, ofBuf_eq_of_heq xa _ a' ha, ofBuf_eq_of_heq xb _ b' hb]
  exact toBuf_eq_of_heq xy _ r' hr

end Idealize.ShloMosaic.StableHlo.TRef
-- ==== Proof.KerRead.lean ====
/-
  The idealized kernel's run, read as the network's stages.

  The program alternates host stretches and launches.  The first host stretch transposes the four weight matrices and
  reshapes the four biases to rows; every later one prepares a launch's operand from an earlier launch's output (a
  sum of rows into nodes, or a gather along the edges followed by such a sum); the last sums the output layer's rows
  per graph and applies the selection.  Each buffer a launch or a stretch reads was written once, earlier, and
  nothing in between writes it, so it still holds what was written there.  Walking every operand back to the segment
  that wrote it, launch by launch, the result buffer after the last boundary holds the network's stages composed,
  applied to the launch contents of the argument buffers.
-/
import proofs.«127585_j36051955483067_1_alg».proof.Proof.Region0
import proofs.«127585_j36051955483067_1_alg».proof.Proof.Region1
import proofs.«127585_j36051955483067_1_alg».proof.Proof.Region2
import proofs.«127585_j36051955483067_1_alg».proof.Proof.Region3
import proofs.«127585_j36051955483067_1_alg».proof.Proof.Region4
import proofs.«127585_j36051955483067_1_alg».proof.Proof.Region5
import proofs.«127585_j36051955483067_1_alg».proof.Proof.LibWhere

set_option maxRecDepth 16384
set_option maxHeartbeats 1000000
set_option quotPrecheck false

noncomputable section

namespace Cert.KernelIdeal.Chain

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- No operation of a host stretch writes the buffer in question: one inequality of references per operation. -/
macro "nw " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The host stretches, from any contents -/

section Host

variable (V : Valuation τ sig (Elt Ideal))

theorem host0_v0 : StableHlo.after (hostOps0 (F := Ideal)) V (Proc.devRef .tc main_v0) = Cert.Stages.tr128 (V (Proc.devRef .tc main_arg6)) := by
  after_results; rfl
theorem host0_v1 : StableHlo.after (hostOps0 (F := Ideal)) V (Proc.devRef .tc main_v1) = Cert.Stages.tr32 (V (Proc.devRef .tc main_arg8)) := by
  after_results; rfl
theorem host0_v2 : StableHlo.after (hostOps0 (F := Ideal)) V (Proc.devRef .tc main_v2) = Cert.Stages.tr128 (V (Proc.devRef .tc main_arg10)) := by
  after_results; rfl
theorem host0_v3 : StableHlo.after (hostOps0 (F := Ideal)) V (Proc.devRef .tc main_v3) = Cert.Stages.tr128 (V (Proc.devRef .tc main_arg12)) := by
  after_results; rfl
/-- A bias reshaped to a row: entry (0, k) of the row is entry k of the bias. -/
theorem host0_v4 (k : Fin 128) : StableHlo.after (hostOps0 (F := Ideal)) V (Proc.devRef .tc main_v4) (ix2 (0 : Fin 1) k) = V (Proc.devRef .tc main_arg7) (ix1 k) := by
  after_results
  exact Cert.HostLayout.reshape_rowvec_apply _ _ 0 k
theorem host0_v5 (k : Fin 128) : StableHlo.after (hostOps0 (F := Ideal)) V (Proc.devRef .tc main_v5) (ix2 (0 : Fin 1) k) = V (Proc.devRef .tc main_arg9) (ix1 k) := by
  after_results
  exact Cert.HostLayout.reshape_rowvec_apply _ _ 0 k
theorem host0_v6 (k : Fin 128) : StableHlo.after (hostOps0 (F := Ideal)) V (Proc.devRef .tc main_v6) (ix2 (0 : Fin 1) k) = V (Proc.devRef .tc main_arg11) (ix1 k) := by
  after_results
  exact Cert.HostLayout.reshape_rowvec_apply _ _ 0 k
theorem host0_v7 (k : Fin 128) : StableHlo.after (hostOps0 (F := Ideal)) V (Proc.devRef .tc main_v7) (ix2 (0 : Fin 1) k) = V (Proc.devRef .tc main_arg13) (ix1 k) := by
  after_results
  exact Cert.HostLayout.reshape_rowvec_apply _ _ 0 k

/-- The edge layer's rows summed into the nodes. -/
theorem host_sum (idx : Cert.Stages.IA Cert.ReferenceIdeal.S1600000) (U : Cert.Stages.FA Cert.ReferenceIdeal.S1600000x128)
    (h4 : V (Proc.devRef .tc main_arg4) = idx) (h8 : V (Proc.devRef .tc main_v8) = U) :
    StableHlo.after (hostOps1 (F := Ideal)) V (Proc.devRef .tc main_v11) = Cert.Stages.sumIntoNodes idx U := by
  subst h4 h8
  after_results
  rfl

theorem host_pool_hostOps2 (src dst : Cert.Stages.IA Cert.ReferenceIdeal.S1600000) (cur : Cert.Stages.FA Cert.ReferenceIdeal.S100000x128)
    (h2 : V (Proc.devRef .tc main_arg2) = src) (h3 : V (Proc.devRef .tc main_arg3) = dst) (hc : V (Proc.devRef .tc main_v12_1) = cur) :
    StableHlo.after (hostOps2 (F := Ideal)) V (Proc.devRef .tc main_v22) = Cert.Stages.pool src dst cur := by
  subst h2 h3 hc
  after_results
  rfl

theorem host_pool_hostOps3 (src dst : Cert.Stages.IA Cert.ReferenceIdeal.S1600000) (cur : Cert.Stages.FA Cert.ReferenceIdeal.S100000x128)
    (h2 : V (Proc.devRef .tc main_arg2) = src) (h3 : V (Proc.devRef .tc main_arg3) = dst) (hc : V (Proc.devRef .tc main_v23) = cur) :
    StableHlo.after (hostOps3 (F := Ideal)) V (Proc.devRef .tc main_v33) = Cert.Stages.pool src dst cur := by
  subst h2 h3 hc
  after_results
  rfl

theorem host_pool_hostOps4 (src dst : Cert.Stages.IA Cert.ReferenceIdeal.S1600000) (cur : Cert.Stages.FA Cert.ReferenceIdeal.S100000x128)
    (h2 : V (Proc.devRef .tc main_arg2) = src) (h3 : V (Proc.devRef .tc main_arg3) = dst) (hc : V (Proc.devRef .tc main_v34) = cur) :
    StableHlo.after (hostOps4 (F := Ideal)) V (Proc.devRef .tc main_v44) = Cert.Stages.pool src dst cur := by
  subst h2 h3 hc
  after_results
  rfl

/-! The last host stretches: the output layer's rows summed per graph, and the selection. -/

theorem host6_Y : StableHlo.after (hostOps6 (F := Ideal)) V (Proc.devRef .tc main_v49) = (Cert.Stages.sumPerGraph (V (Proc.devRef .tc main_arg5)) (V (Proc.devRef .tc main_v46))) := by
  after_results; rfl
theorem host6_c : StableHlo.after (hostOps6 (F := Ideal)) V (Proc.devRef .tc main_v51) = Cert.Stages.cond64 (Cert.Stages.sumPerGraph (V (Proc.devRef .tc main_arg5)) (V (Proc.devRef .tc main_v46))) := by
  after_results; rfl
theorem host6_s : StableHlo.after (hostOps6 (F := Ideal)) V (Proc.devRef .tc main_v53) = Cert.Stages.scaled64 (Cert.Stages.sumPerGraph (V (Proc.devRef .tc main_arg5)) (V (Proc.devRef .tc main_v46))) := by
  after_results; rfl
theorem host6_cH : HEq (StableHlo.after (hostOps6 (F := Ideal)) V (Proc.devRef .tc main_v51)) (Cert.Stages.cond64 (Cert.Stages.sumPerGraph (V (Proc.devRef .tc main_arg5)) (V (Proc.devRef .tc main_v46)))) :=
  heq_of_eq (host6_c V)
/-- The selection's own operation, from the three arrays it chooses among. -/
theorem sel_readout : (StableHlo.TRef.ternary (.of main_v51 : StableHlo.TRef sig ⟨S64x128, .i1⟩) (.of main_v49 : StableHlo.TRef sig ⟨S64x128, .f32⟩) (.of main_v53 : StableHlo.TRef sig ⟨S64x128, .f32⟩) (.of main_v54 : StableHlo.TRef sig ⟨S64x128, .f32⟩) select : HloOp τ sig (Elt Ideal)).result
      (StableHlo.after (hostOps6 (F := Ideal)) V) (Proc.devRef .tc main_v54)
      = Cert.Stages.readout (V (Proc.devRef .tc main_arg5)) (V (Proc.devRef .tc main_v46)) :=
  StableHlo.TRef.ternary_result_eq (τ := τ) (Val := Elt Ideal) (.of main_v51 : StableHlo.TRef sig ⟨S64x128, .i1⟩) (.of main_v49 : StableHlo.TRef sig ⟨S64x128, .f32⟩) (.of main_v53 : StableHlo.TRef sig ⟨S64x128, .f32⟩) (.of main_v54 : StableHlo.TRef sig ⟨S64x128, .f32⟩) select
    (StableHlo.after (hostOps6 (F := Ideal)) V) (Cert.Stages.cond64 (Cert.Stages.sumPerGraph (V (Proc.devRef .tc main_arg5)) (V (Proc.devRef .tc main_v46)))) (Cert.Stages.sumPerGraph (V (Proc.devRef .tc main_arg5)) (V (Proc.devRef .tc main_v46))) (Cert.Stages.scaled64 (Cert.Stages.sumPerGraph (V (Proc.devRef .tc main_arg5)) (V (Proc.devRef .tc main_v46))))
    (Cert.Stages.readout (V (Proc.devRef .tc main_arg5)) (V (Proc.devRef .tc main_v46)))
    (host6_cH V) (heq_of_eq (host6_Y V)) (heq_of_eq (host6_s V)) (heq_of_eq rfl)
theorem host_readout' : StableHlo.after (hostOps6_1 (F := Ideal)) (StableHlo.after (hostOps6 (F := Ideal)) V) (Proc.devRef .tc main_v54)
    = Cert.Stages.readout (V (Proc.devRef .tc main_arg5)) (V (Proc.devRef .tc main_v46)) :=
  sel_readout V
theorem host_readout (gid : Cert.Stages.IA Cert.ReferenceIdeal.S100000) (o : Cert.Stages.FA Cert.ReferenceIdeal.S100000x128)
    (h5 : V (Proc.devRef .tc main_arg5) = gid) (ho : V (Proc.devRef .tc main_v46) = o) :
    StableHlo.after (hostOps6_1 (F := Ideal)) (StableHlo.after (hostOps6 (F := Ideal)) V) (Proc.devRef .tc main_v54) = Cert.Stages.readout gid o := by
  subst h5 ho
  exact host_readout' V

end Host

/-! ## The boundaries of the run, buffer by buffer -/

variable (m : (ℓ : Loc nD τ sig) → Buf (Elt Ideal) ℓ) (ρ : Dev nD → PrngReg) (c : Dev nD)

local notation "A0" => m ((c : Thread nD τ).loc main_arg0)
local notation "A1" => m ((c : Thread nD τ).loc main_arg1)
local notation "A2" => m ((c : Thread nD τ).loc main_arg2)
local notation "A3" => m ((c : Thread nD τ).loc main_arg3)
local notation "A4" => m ((c : Thread nD τ).loc main_arg4)
local notation "A5" => m ((c : Thread nD τ).loc main_arg5)
local notation "A6" => m ((c : Thread nD τ).loc main_arg6)
local notation "A7" => m ((c : Thread nD τ).loc main_arg7)
local notation "A8" => m ((c : Thread nD τ).loc main_arg8)
local notation "A9" => m ((c : Thread nD τ).loc main_arg9)
local notation "A10" => m ((c : Thread nD τ).loc main_arg10)
local notation "A11" => m ((c : Thread nD τ).loc main_arg11)
local notation "A12" => m ((c : Thread nD τ).loc main_arg12)
local notation "A13" => m ((c : Thread nD τ).loc main_arg13)
local notation "IM" => Cert.Stages.inputMsg A0 A1 A4 A6 A7 A8 A9
local notation "C0" => Cert.Stages.leakyNodes IM
local notation "C1" => Cert.Stages.msgRound A2 A3 A10 A11 IM C0
local notation "C2" => Cert.Stages.msgRound A2 A3 A10 A11 IM C1
local notation "C3" => Cert.Stages.msgRound A2 A3 A10 A11 IM C2

/-! ### At launch -/
theorem L0_arg0 : W0 m ρ c (Proc.devRef .tc main_arg0) = A0 := rfl
theorem L0_arg1 : W0 m ρ c (Proc.devRef .tc main_arg1) = A1 := rfl
theorem L0_arg2 : W0 m ρ c (Proc.devRef .tc main_arg2) = A2 := rfl
theorem L0_arg3 : W0 m ρ c (Proc.devRef .tc main_arg3) = A3 := rfl
theorem L0_arg4 : W0 m ρ c (Proc.devRef .tc main_arg4) = A4 := rfl
theorem L0_arg5 : W0 m ρ c (Proc.devRef .tc main_arg5) = A5 := rfl

/-! ### After the first host stretch: weights transposed, biases as rows -/
theorem L1_v0 : W1 m ρ c (Proc.devRef .tc main_v0) = Cert.Stages.tr128 A6 := host0_v0 (W0 m ρ c)
theorem L1_v1 : W1 m ρ c (Proc.devRef .tc main_v1) = Cert.Stages.tr32 A8 := host0_v1 (W0 m ρ c)
theorem L1_v2 : W1 m ρ c (Proc.devRef .tc main_v2) = Cert.Stages.tr128 A10 := host0_v2 (W0 m ρ c)
theorem L1_v3 : W1 m ρ c (Proc.devRef .tc main_v3) = Cert.Stages.tr128 A12 := host0_v3 (W0 m ρ c)
theorem L1_v4 (k : Fin 128) : W1 m ρ c (Proc.devRef .tc main_v4) (ix2 (0 : Fin 1) k) = A7 (ix1 k) := host0_v4 (W0 m ρ c) k
theorem L1_v5 (k : Fin 128) : W1 m ρ c (Proc.devRef .tc main_v5) (ix2 (0 : Fin 1) k) = A9 (ix1 k) := host0_v5 (W0 m ρ c) k
theorem L1_v6 (k : Fin 128) : W1 m ρ c (Proc.devRef .tc main_v6) (ix2 (0 : Fin 1) k) = A11 (ix1 k) := host0_v6 (W0 m ρ c) k
theorem L1_v7 (k : Fin 128) : W1 m ρ c (Proc.devRef .tc main_v7) (ix2 (0 : Fin 1) k) = A13 (ix1 k) := host0_v7 (W0 m ρ c) k
theorem L1_arg0 : W1 m ρ c (Proc.devRef .tc main_arg0) = A0 :=
  (by nw hostOps0 : W1 m ρ c (Proc.devRef .tc main_arg0) = W0 m ρ c (Proc.devRef .tc main_arg0)).trans (L0_arg0 m ρ c)
theorem L1_arg1 : W1 m ρ c (Proc.devRef .tc main_arg1) = A1 :=
  (by nw hostOps0 : W1 m ρ c (Proc.devRef .tc main_arg1) = W0 m ρ c (Proc.devRef .tc main_arg1)).trans (L0_arg1 m ρ c)
theorem L1_arg2 : W1 m ρ c (Proc.devRef .tc main_arg2) = A2 :=
  (by nw hostOps0 : W1 m ρ c (Proc.devRef .tc main_arg2) = W0 m ρ c (Proc.devRef .tc main_arg2)).trans (L0_arg2 m ρ c)
theorem L1_arg3 : W1 m ρ c (Proc.devRef .tc main_arg3) = A3 :=
  (by nw hostOps0 : W1 m ρ c (Proc.devRef .tc main_arg3) = W0 m ρ c (Proc.devRef .tc main_arg3)).trans (L0_arg3 m ρ c)
theorem L1_arg4 : W1 m ρ c (Proc.devRef .tc main_arg4) = A4 :=
  (by nw hostOps0 : W1 m ρ c (Proc.devRef .tc main_arg4) = W0 m ρ c (Proc.devRef .tc main_arg4)).trans (L0_arg4 m ρ c)
theorem L1_arg5 : W1 m ρ c (Proc.devRef .tc main_arg5) = A5 :=
  (by nw hostOps0 : W1 m ρ c (Proc.devRef .tc main_arg5) = W0 m ρ c (Proc.devRef .tc main_arg5)).trans (L0_arg5 m ρ c)

/-! ### After launch 0: the edge layer -/
theorem L2_v8 : W2 m ρ c (Proc.devRef .tc main_v8) = Cert.Stages.edgeLin (Cert.Stages.tr32 A8) A9 A1 :=
  (W2_arr m ρ c 3).trans (Edge0.value (V1 m ρ) c (Cert.Stages.tr32 A8) A9 A1 (L1_arg1 m ρ c) (L1_v1 m ρ c) (L1_v5 m ρ c))
theorem L2_arg0 : W2 m ρ c (Proc.devRef .tc main_arg0) = A0 :=
  (W2_of_ne m ρ c main_arg0 (by decide) : W2 m ρ c (Proc.devRef .tc main_arg0) = W1 m ρ c (Proc.devRef .tc main_arg0)).trans (L1_arg0 m ρ c)
theorem L2_arg2 : W2 m ρ c (Proc.devRef .tc main_arg2) = A2 :=
  (W2_of_ne m ρ c main_arg2 (by decide) : W2 m ρ c (Proc.devRef .tc main_arg2) = W1 m ρ c (Proc.devRef .tc main_arg2)).trans (L1_arg2 m ρ c)
theorem L2_arg3 : W2 m ρ c (Proc.devRef .tc main_arg3) = A3 :=
  (W2_of_ne m ρ c main_arg3 (by decide) : W2 m ρ c (Proc.devRef .tc main_arg3) = W1 m ρ c (Proc.devRef .tc main_arg3)).trans (L1_arg3 m ρ c)
theorem L2_arg4 : W2 m ρ c (Proc.devRef .tc main_arg4) = A4 :=
  (W2_of_ne m ρ c main_arg4 (by decide) : W2 m ρ c (Proc.devRef .tc main_arg4) = W1 m ρ c (Proc.devRef .tc main_arg4)).trans (L1_arg4 m ρ c)
theorem L2_arg5 : W2 m ρ c (Proc.devRef .tc main_arg5) = A5 :=
  (W2_of_ne m ρ c main_arg5 (by decide) : W2 m ρ c (Proc.devRef .tc main_arg5) = W1 m ρ c (Proc.devRef .tc main_arg5)).trans (L1_arg5 m ρ c)
theorem L2_v0 : W2 m ρ c (Proc.devRef .tc main_v0) = Cert.Stages.tr128 A6 :=
  (W2_of_ne m ρ c main_v0 (by decide) : W2 m ρ c (Proc.devRef .tc main_v0) = W1 m ρ c (Proc.devRef .tc main_v0)).trans (L1_v0 m ρ c)
theorem L2_v2 : W2 m ρ c (Proc.devRef .tc main_v2) = Cert.Stages.tr128 A10 :=
  (W2_of_ne m ρ c main_v2 (by decide) : W2 m ρ c (Proc.devRef .tc main_v2) = W1 m ρ c (Proc.devRef .tc main_v2)).trans (L1_v2 m ρ c)
theorem L2_v3 : W2 m ρ c (Proc.devRef .tc main_v3) = Cert.Stages.tr128 A12 :=
  (W2_of_ne m ρ c main_v3 (by decide) : W2 m ρ c (Proc.devRef .tc main_v3) = W1 m ρ c (Proc.devRef .tc main_v3)).trans (L1_v3 m ρ c)
theorem L2_v4 (k : Fin 128) : W2 m ρ c (Proc.devRef .tc main_v4) (ix2 (0 : Fin 1) k) = A7 (ix1 k) :=
  (congrFun (W2_of_ne m ρ c main_v4 (by decide) : W2 m ρ c (Proc.devRef .tc main_v4) = W1 m ρ c (Proc.devRef .tc main_v4)) (ix2 (0 : Fin 1) k)).trans (L1_v4 m ρ c k)
theorem L2_v6 (k : Fin 128) : W2 m ρ c (Proc.devRef .tc main_v6) (ix2 (0 : Fin 1) k) = A11 (ix1 k) :=
  (congrFun (W2_of_ne m ρ c main_v6 (by decide) : W2 m ρ c (Proc.devRef .tc main_v6) = W1 m ρ c (Proc.devRef .tc main_v6)) (ix2 (0 : Fin 1) k)).trans (L1_v6 m ρ c k)
theorem L2_v7 (k : Fin 128) : W2 m ρ c (Proc.devRef .tc main_v7) (ix2 (0 : Fin 1) k) = A13 (ix1 k) :=
  (congrFun (W2_of_ne m ρ c main_v7 (by decide) : W2 m ρ c (Proc.devRef .tc main_v7) = W1 m ρ c (Proc.devRef .tc main_v7)) (ix2 (0 : Fin 1) k)).trans (L1_v7 m ρ c k)

/-! ### After the second host stretch: the edge layer summed into the nodes -/
theorem L3_v11 : W3 m ρ c (Proc.devRef .tc main_v11) = Cert.Stages.sumIntoNodes A4 (Cert.Stages.edgeLin (Cert.Stages.tr32 A8) A9 A1) :=
  host_sum (W2 m ρ c) A4 _ (L2_arg4 m ρ c) (L2_v8 m ρ c)
theorem L3_arg0 : W3 m ρ c (Proc.devRef .tc main_arg0) = A0 :=
  (by nw hostOps1 : W3 m ρ c (Proc.devRef .tc main_arg0) = W2 m ρ c (Proc.devRef .tc main_arg0)).trans (L2_arg0 m ρ c)
theorem L3_arg2 : W3 m ρ c (Proc.devRef .tc main_arg2) = A2 :=
  (by nw hostOps1 : W3 m ρ c (Proc.devRef .tc main_arg2) = W2 m ρ c (Proc.devRef .tc main_arg2)).trans (L2_arg2 m ρ c)
theorem L3_arg3 : W3 m ρ c (Proc.devRef .tc main_arg3) = A3 :=
  (by nw hostOps1 : W3 m ρ c (Proc.devRef .tc main_arg3) = W2 m ρ c (Proc.devRef .tc main_arg3)).trans (L2_arg3 m ρ c)
theorem L3_arg5 : W3 m ρ c (Proc.devRef .tc main_arg5) = A5 :=
  (by nw hostOps1 : W3 m ρ c (Proc.devRef .tc main_arg5) = W2 m ρ c (Proc.devRef .tc main_arg5)).trans (L2_arg5 m ρ c)
theorem L3_v0 : W3 m ρ c (Proc.devRef .tc main_v0) = Cert.Stages.tr128 A6 :=
  (by nw hostOps1 : W3 m ρ c (Proc.devRef .tc main_v0) = W2 m ρ c (Proc.devRef .tc main_v0)).trans (L2_v0 m ρ c)
theorem L3_v2 : W3 m ρ c (Proc.devRef .tc main_v2) = Cert.Stages.tr128 A10 :=
  (by nw hostOps1 : W3 m ρ c (Proc.devRef .tc main_v2) = W2 m ρ c (Proc.devRef .tc main_v2)).trans (L2_v2 m ρ c)
theorem L3_v3 : W3 m ρ c (Proc.devRef .tc main_v3) = Cert.Stages.tr128 A12 :=
  (by nw hostOps1 : W3 m ρ c (Proc.devRef .tc main_v3) = W2 m ρ c (Proc.devRef .tc main_v3)).trans (L2_v3 m ρ c)
theorem L3_v4 (k : Fin 128) : W3 m ρ c (Proc.devRef .tc main_v4) (ix2 (0 : Fin 1) k) = A7 (ix1 k) :=
  (congrFun (by nw hostOps1 : W3 m ρ c (Proc.devRef .tc main_v4) = W2 m ρ c (Proc.devRef .tc main_v4)) (ix2 (0 : Fin 1) k)).trans (L2_v4 m ρ c k)
theorem L3_v6 (k : Fin 128) : W3 m ρ c (Proc.devRef .tc main_v6) (ix2 (0 : Fin 1) k) = A11 (ix1 k) :=
  (congrFun (by nw hostOps1 : W3 m ρ c (Proc.devRef .tc main_v6) = W2 m ρ c (Proc.devRef .tc main_v6)) (ix2 (0 : Fin 1) k)).trans (L2_v6 m ρ c k)
theorem L3_v7 (k : Fin 128) : W3 m ρ c (Proc.devRef .tc main_v7) (ix2 (0 : Fin 1) k) = A13 (ix1 k) :=
  (congrFun (by nw hostOps1 : W3 m ρ c (Proc.devRef .tc main_v7) = W2 m ρ c (Proc.devRef .tc main_v7)) (ix2 (0 : Fin 1) k)).trans (L2_v7 m ρ c k)

/-! ### After launch 1: the input message and its selection -/
theorem L4_v12_0 : W4 m ρ c (Proc.devRef .tc main_v12_0) = IM :=
  (W4_arr m ρ c 4).trans (Init1.value4 (V3 m ρ) c (Cert.Stages.tr128 A6) A7 A0 _ (L3_arg0 m ρ c) (L3_v11 m ρ c) (L3_v0 m ρ c) (L3_v4 m ρ c))
theorem L4_v12_1 : W4 m ρ c (Proc.devRef .tc main_v12_1) = C0 :=
  (W4_arr m ρ c 5).trans (Init1.value5 (V3 m ρ) c (Cert.Stages.tr128 A6) A7 A0 _ (L3_arg0 m ρ c) (L3_v11 m ρ c) (L3_v0 m ρ c) (L3_v4 m ρ c))
theorem L4_arg2 : W4 m ρ c (Proc.devRef .tc main_arg2) = A2 :=
  (W4_of_ne m ρ c main_arg2 (by decide) : W4 m ρ c (Proc.devRef .tc main_arg2) = W3 m ρ c (Proc.devRef .tc main_arg2)).trans (L3_arg2 m ρ c)
theorem L4_arg3 : W4 m ρ c (Proc.devRef .tc main_arg3) = A3 :=
  (W4_of_ne m ρ c main_arg3 (by decide) : W4 m ρ c (Proc.devRef .tc main_arg3) = W3 m ρ c (Proc.devRef .tc main_arg3)).trans (L3_arg3 m ρ c)
theorem L4_arg5 : W4 m ρ c (Proc.devRef .tc main_arg5) = A5 :=
  (W4_of_ne m ρ c main_arg5 (by decide) : W4 m ρ c (Proc.devRef .tc main_arg5) = W3 m ρ c (Proc.devRef .tc main_arg5)).trans (L3_arg5 m ρ c)
theorem L4_v2 : W4 m ρ c (Proc.devRef .tc main_v2) = Cert.Stages.tr128 A10 :=
  (W4_of_ne m ρ c main_v2 (by decide) : W4 m ρ c (Proc.devRef .tc main_v2) = W3 m ρ c (Proc.devRef .tc main_v2)).trans (L3_v2 m ρ c)
theorem L4_v3 : W4 m ρ c (Proc.devRef .tc main_v3) = Cert.Stages.tr128 A12 :=
  (W4_of_ne m ρ c main_v3 (by decide) : W4 m ρ c (Proc.devRef .tc main_v3) = W3 m ρ c (Proc.devRef .tc main_v3)).trans (L3_v3 m ρ c)
theorem L4_v6 (k : Fin 128) : W4 m ρ c (Proc.devRef .tc main_v6) (ix2 (0 : Fin 1) k) = A11 (ix1 k) :=
  (congrFun (W4_of_ne m ρ c main_v6 (by decide) : W4 m ρ c (Proc.devRef .tc main_v6) = W3 m ρ c (Proc.devRef .tc main_v6)) (ix2 (0 : Fin 1) k)).trans (L3_v6 m ρ c k)
theorem L4_v7 (k : Fin 128) : W4 m ρ c (Proc.devRef .tc main_v7) (ix2 (0 : Fin 1) k) = A13 (ix1 k) :=
  (congrFun (W4_of_ne m ρ c main_v7 (by decide) : W4 m ρ c (Proc.devRef .tc main_v7) = W3 m ρ c (Proc.devRef .tc main_v7)) (ix2 (0 : Fin 1) k)).trans (L3_v7 m ρ c k)

/-! ### The first round -/
/-- After the host stretch before the next launch: the current message pooled along the edges. -/
theorem L5_v22 : W5 m ρ c (Proc.devRef .tc main_v22) = Cert.Stages.pool A2 A3 C0 :=
  host_pool_hostOps2 (W4 m ρ c) A2 A3 C0 (L4_arg2 m ρ c) (L4_arg3 m ρ c) (L4_v12_1 m ρ c)
theorem L5_arg2 : W5 m ρ c (Proc.devRef .tc main_arg2) = A2 :=
  (by nw hostOps2 : W5 m ρ c (Proc.devRef .tc main_arg2) = W4 m ρ c (Proc.devRef .tc main_arg2)).trans (L4_arg2 m ρ c)
theorem L5_arg3 : W5 m ρ c (Proc.devRef .tc main_arg3) = A3 :=
  (by nw hostOps2 : W5 m ρ c (Proc.devRef .tc main_arg3) = W4 m ρ c (Proc.devRef .tc main_arg3)).trans (L4_arg3 m ρ c)
theorem L5_arg5 : W5 m ρ c (Proc.devRef .tc main_arg5) = A5 :=
  (by nw hostOps2 : W5 m ρ c (Proc.devRef .tc main_arg5) = W4 m ρ c (Proc.devRef .tc main_arg5)).trans (L4_arg5 m ρ c)
theorem L5_v2 : W5 m ρ c (Proc.devRef .tc main_v2) = Cert.Stages.tr128 A10 :=
  (by nw hostOps2 : W5 m ρ c (Proc.devRef .tc main_v2) = W4 m ρ c (Proc.devRef .tc main_v2)).trans (L4_v2 m ρ c)
theorem L5_v3 : W5 m ρ c (Proc.devRef .tc main_v3) = Cert.Stages.tr128 A12 :=
  (by nw hostOps2 : W5 m ρ c (Proc.devRef .tc main_v3) = W4 m ρ c (Proc.devRef .tc main_v3)).trans (L4_v3 m ρ c)
theorem L5_v6 (k : Fin 128) : W5 m ρ c (Proc.devRef .tc main_v6) (ix2 (0 : Fin 1) k) = A11 (ix1 k) :=
  (congrFun (by nw hostOps2 : W5 m ρ c (Proc.devRef .tc main_v6) = W4 m ρ c (Proc.devRef .tc main_v6)) (ix2 (0 : Fin 1) k)).trans (L4_v6 m ρ c k)
theorem L5_v7 (k : Fin 128) : W5 m ρ c (Proc.devRef .tc main_v7) (ix2 (0 : Fin 1) k) = A13 (ix1 k) :=
  (congrFun (by nw hostOps2 : W5 m ρ c (Proc.devRef .tc main_v7) = W4 m ρ c (Proc.devRef .tc main_v7)) (ix2 (0 : Fin 1) k)).trans (L4_v7 m ρ c k)
theorem L5_v12_0 : W5 m ρ c (Proc.devRef .tc main_v12_0) = IM :=
  (by nw hostOps2 : W5 m ρ c (Proc.devRef .tc main_v12_0) = W4 m ρ c (Proc.devRef .tc main_v12_0)).trans (L4_v12_0 m ρ c)

/-- After launch 2: its output holds the round's outcome. -/
theorem L6_v23 : W6 m ρ c (Proc.devRef .tc main_v23) = C1 :=
  (W6_arr m ρ c 4).trans (Conv2.value (V5 m ρ) c (Cert.Stages.tr128 A10) A11 IM (Cert.Stages.pool A2 A3 C0)
    (L5_v22 m ρ c) (L5_v12_0 m ρ c) (L5_v2 m ρ c) (L5_v6 m ρ c))
theorem L6_arg2 : W6 m ρ c (Proc.devRef .tc main_arg2) = A2 :=
  (W6_of_ne m ρ c main_arg2 (by decide) : W6 m ρ c (Proc.devRef .tc main_arg2) = W5 m ρ c (Proc.devRef .tc main_arg2)).trans (L5_arg2 m ρ c)
theorem L6_arg3 : W6 m ρ c (Proc.devRef .tc main_arg3) = A3 :=
  (W6_of_ne m ρ c main_arg3 (by decide) : W6 m ρ c (Proc.devRef .tc main_arg3) = W5 m ρ c (Proc.devRef .tc main_arg3)).trans (L5_arg3 m ρ c)
theorem L6_arg5 : W6 m ρ c (Proc.devRef .tc main_arg5) = A5 :=
  (W6_of_ne m ρ c main_arg5 (by decide) : W6 m ρ c (Proc.devRef .tc main_arg5) = W5 m ρ c (Proc.devRef .tc main_arg5)).trans (L5_arg5 m ρ c)
theorem L6_v2 : W6 m ρ c (Proc.devRef .tc main_v2) = Cert.Stages.tr128 A10 :=
  ((W6_arr m ρ c 2).trans (((dat2 (V5 m ρ) c).arrAt_in 2 rfl _).trans (A_eq2 (V5 m ρ) c 2)) : W6 m ρ c (Proc.devRef .tc main_v2) = W5 m ρ c (Proc.devRef .tc main_v2)).trans (L5_v2 m ρ c)
theorem L6_v3 : W6 m ρ c (Proc.devRef .tc main_v3) = Cert.Stages.tr128 A12 :=
  (W6_of_ne m ρ c main_v3 (by decide) : W6 m ρ c (Proc.devRef .tc main_v3) = W5 m ρ c (Proc.devRef .tc main_v3)).trans (L5_v3 m ρ c)
theorem L6_v6 (k : Fin 128) : W6 m ρ c (Proc.devRef .tc main_v6) (ix2 (0 : Fin 1) k) = A11 (ix1 k) :=
  (congrFun ((W6_arr m ρ c 3).trans (((dat2 (V5 m ρ) c).arrAt_in 3 rfl _).trans (A_eq2 (V5 m ρ) c 3)) : W6 m ρ c (Proc.devRef .tc main_v6) = W5 m ρ c (Proc.devRef .tc main_v6)) (ix2 (0 : Fin 1) k)).trans (L5_v6 m ρ c k)
theorem L6_v7 (k : Fin 128) : W6 m ρ c (Proc.devRef .tc main_v7) (ix2 (0 : Fin 1) k) = A13 (ix1 k) :=
  (congrFun (W6_of_ne m ρ c main_v7 (by decide) : W6 m ρ c (Proc.devRef .tc main_v7) = W5 m ρ c (Proc.devRef .tc main_v7)) (ix2 (0 : Fin 1) k)).trans (L5_v7 m ρ c k)
theorem L6_v12_0 : W6 m ρ c (Proc.devRef .tc main_v12_0) = IM :=
  ((W6_arr m ρ c 1).trans (((dat2 (V5 m ρ) c).arrAt_in 1 rfl _).trans (A_eq2 (V5 m ρ) c 1)) : W6 m ρ c (Proc.devRef .tc main_v12_0) = W5 m ρ c (Proc.devRef .tc main_v12_0)).trans (L5_v12_0 m ρ c)

/-! ### The second round -/
/-- After the host stretch before the next launch: the current message pooled along the edges. -/
theorem L7_v33 : W7 m ρ c (Proc.devRef .tc main_v33) = Cert.Stages.pool A2 A3 C1 :=
  host_pool_hostOps3 (W6 m ρ c) A2 A3 C1 (L6_arg2 m ρ c) (L6_arg3 m ρ c) (L6_v23 m ρ c)
theorem L7_arg2 : W7 m ρ c (Proc.devRef .tc main_arg2) = A2 :=
  (by nw hostOps3 : W7 m ρ c (Proc.devRef .tc main_arg2) = W6 m ρ c (Proc.devRef .tc main_arg2)).trans (L6_arg2 m ρ c)
theorem L7_arg3 : W7 m ρ c (Proc.devRef .tc main_arg3) = A3 :=
  (by nw hostOps3 : W7 m ρ c (Proc.devRef .tc main_arg3) = W6 m ρ c (Proc.devRef .tc main_arg3)).trans (L6_arg3 m ρ c)
theorem L7_arg5 : W7 m ρ c (Proc.devRef .tc main_arg5) = A5 :=
  (by nw hostOps3 : W7 m ρ c (Proc.devRef .tc main_arg5) = W6 m ρ c (Proc.devRef .tc main_arg5)).trans (L6_arg5 m ρ c)
theorem L7_v2 : W7 m ρ c (Proc.devRef .tc main_v2) = Cert.Stages.tr128 A10 :=
  (by nw hostOps3 : W7 m ρ c (Proc.devRef .tc main_v2) = W6 m ρ c (Proc.devRef .tc main_v2)).trans (L6_v2 m ρ c)
theorem L7_v3 : W7 m ρ c (Proc.devRef .tc main_v3) = Cert.Stages.tr128 A12 :=
  (by nw hostOps3 : W7 m ρ c (Proc.devRef .tc main_v3) = W6 m ρ c (Proc.devRef .tc main_v3)).trans (L6_v3 m ρ c)
theorem L7_v6 (k : Fin 128) : W7 m ρ c (Proc.devRef .tc main_v6) (ix2 (0 : Fin 1) k) = A11 (ix1 k) :=
  (congrFun (by nw hostOps3 : W7 m ρ c (Proc.devRef .tc main_v6) = W6 m ρ c (Proc.devRef .tc main_v6)) (ix2 (0 : Fin 1) k)).trans (L6_v6 m ρ c k)
theorem L7_v7 (k : Fin 128) : W7 m ρ c (Proc.devRef .tc main_v7) (ix2 (0 : Fin 1) k) = A13 (ix1 k) :=
  (congrFun (by nw hostOps3 : W7 m ρ c (Proc.devRef .tc main_v7) = W6 m ρ c (Proc.devRef .tc main_v7)) (ix2 (0 : Fin 1) k)).trans (L6_v7 m ρ c k)
theorem L7_v12_0 : W7 m ρ c (Proc.devRef .tc main_v12_0) = IM :=
  (by nw hostOps3 : W7 m ρ c (Proc.devRef .tc main_v12_0) = W6 m ρ c (Proc.devRef .tc main_v12_0)).trans (L6_v12_0 m ρ c)

/-- After launch 3: its output holds the round's outcome. -/
theorem L8_v34 : W8 m ρ c (Proc.devRef .tc main_v34) = C2 :=
  (W8_arr m ρ c 4).trans (Conv3.value (V7 m ρ) c (Cert.Stages.tr128 A10) A11 IM (Cert.Stages.pool A2 A3 C1)
    (L7_v33 m ρ c) (L7_v12_0 m ρ c) (L7_v2 m ρ c) (L7_v6 m ρ c))
theorem L8_arg2 : W8 m ρ c (Proc.devRef .tc main_arg2) = A2 :=
  (W8_of_ne m ρ c main_arg2 (by decide) : W8 m ρ c (Proc.devRef .tc main_arg2) = W7 m ρ c (Proc.devRef .tc main_arg2)).trans (L7_arg2 m ρ c)
theorem L8_arg3 : W8 m ρ c (Proc.devRef .tc main_arg3) = A3 :=
  (W8_of_ne m ρ c main_arg3 (by decide) : W8 m ρ c (Proc.devRef .tc main_arg3) = W7 m ρ c (Proc.devRef .tc main_arg3)).trans (L7_arg3 m ρ c)
theorem L8_arg5 : W8 m ρ c (Proc.devRef .tc main_arg5) = A5 :=
  (W8_of_ne m ρ c main_arg5 (by decide) : W8 m ρ c (Proc.devRef .tc main_arg5) = W7 m ρ c (Proc.devRef .tc main_arg5)).trans (L7_arg5 m ρ c)
theorem L8_v2 : W8 m ρ c (Proc.devRef .tc main_v2) = Cert.Stages.tr128 A10 :=
  ((W8_arr m ρ c 2).trans (((dat3 (V7 m ρ) c).arrAt_in 2 rfl _).trans (A_eq3 (V7 m ρ) c 2)) : W8 m ρ c (Proc.devRef .tc main_v2) = W7 m ρ c (Proc.devRef .tc main_v2)).trans (L7_v2 m ρ c)
theorem L8_v3 : W8 m ρ c (Proc.devRef .tc main_v3) = Cert.Stages.tr128 A12 :=
  (W8_of_ne m ρ c main_v3 (by decide) : W8 m ρ c (Proc.devRef .tc main_v3) = W7 m ρ c (Proc.devRef .tc main_v3)).trans (L7_v3 m ρ c)
theorem L8_v6 (k : Fin 128) : W8 m ρ c (Proc.devRef .tc main_v6) (ix2 (0 : Fin 1) k) = A11 (ix1 k) :=
  (congrFun ((W8_arr m ρ c 3).trans (((dat3 (V7 m ρ) c).arrAt_in 3 rfl _).trans (A_eq3 (V7 m ρ) c 3)) : W8 m ρ c (Proc.devRef .tc main_v6) = W7 m ρ c (Proc.devRef .tc main_v6)) (ix2 (0 : Fin 1) k)).trans (L7_v6 m ρ c k)
theorem L8_v7 (k : Fin 128) : W8 m ρ c (Proc.devRef .tc main_v7) (ix2 (0 : Fin 1) k) = A13 (ix1 k) :=
  (congrFun (W8_of_ne m ρ c main_v7 (by decide) : W8 m ρ c (Proc.devRef .tc main_v7) = W7 m ρ c (Proc.devRef .tc main_v7)) (ix2 (0 : Fin 1) k)).trans (L7_v7 m ρ c k)
theorem L8_v12_0 : W8 m ρ c (Proc.devRef .tc main_v12_0) = IM :=
  ((W8_arr m ρ c 1).trans (((dat3 (V7 m ρ) c).arrAt_in 1 rfl _).trans (A_eq3 (V7 m ρ) c 1)) : W8 m ρ c (Proc.devRef .tc main_v12_0) = W7 m ρ c (Proc.devRef .tc main_v12_0)).trans (L7_v12_0 m ρ c)

/-! ### The third round -/
/-- After the host stretch before the next launch: the current message pooled along the edges. -/
theorem L9_v44 : W9 m ρ c (Proc.devRef .tc main_v44) = Cert.Stages.pool A2 A3 C2 :=
  host_pool_hostOps4 (W8 m ρ c) A2 A3 C2 (L8_arg2 m ρ c) (L8_arg3 m ρ c) (L8_v34 m ρ c)
theorem L9_arg5 : W9 m ρ c (Proc.devRef .tc main_arg5) = A5 :=
  (by nw hostOps4 : W9 m ρ c (Proc.devRef .tc main_arg5) = W8 m ρ c (Proc.devRef .tc main_arg5)).trans (L8_arg5 m ρ c)
theorem L9_v2 : W9 m ρ c (Proc.devRef .tc main_v2) = Cert.Stages.tr128 A10 :=
  (by nw hostOps4 : W9 m ρ c (Proc.devRef .tc main_v2) = W8 m ρ c (Proc.devRef .tc main_v2)).trans (L8_v2 m ρ c)
theorem L9_v3 : W9 m ρ c (Proc.devRef .tc main_v3) = Cert.Stages.tr128 A12 :=
  (by nw hostOps4 : W9 m ρ c (Proc.devRef .tc main_v3) = W8 m ρ c (Proc.devRef .tc main_v3)).trans (L8_v3 m ρ c)
theorem L9_v6 (k : Fin 128) : W9 m ρ c (Proc.devRef .tc main_v6) (ix2 (0 : Fin 1) k) = A11 (ix1 k) :=
  (congrFun (by nw hostOps4 : W9 m ρ c (Proc.devRef .tc main_v6) = W8 m ρ c (Proc.devRef .tc main_v6)) (ix2 (0 : Fin 1) k)).trans (L8_v6 m ρ c k)
theorem L9_v7 (k : Fin 128) : W9 m ρ c (Proc.devRef .tc main_v7) (ix2 (0 : Fin 1) k) = A13 (ix1 k) :=
  (congrFun (by nw hostOps4 : W9 m ρ c (Proc.devRef .tc main_v7) = W8 m ρ c (Proc.devRef .tc main_v7)) (ix2 (0 : Fin 1) k)).trans (L8_v7 m ρ c k)
theorem L9_v12_0 : W9 m ρ c (Proc.devRef .tc main_v12_0) = IM :=
  (by nw hostOps4 : W9 m ρ c (Proc.devRef .tc main_v12_0) = W8 m ρ c (Proc.devRef .tc main_v12_0)).trans (L8_v12_0 m ρ c)

/-- After launch 4: its output holds the round's outcome. -/
theorem L10_v45 : W10 m ρ c (Proc.devRef .tc main_v45) = C3 :=
  (W10_arr m ρ c 4).trans (Conv4.value (V9 m ρ) c (Cert.Stages.tr128 A10) A11 IM (Cert.Stages.pool A2 A3 C2)
    (L9_v44 m ρ c) (L9_v12_0 m ρ c) (L9_v2 m ρ c) (L9_v6 m ρ c))
theorem L10_arg5 : W10 m ρ c (Proc.devRef .tc main_arg5) = A5 :=
  (W10_of_ne m ρ c main_arg5 (by decide) : W10 m ρ c (Proc.devRef .tc main_arg5) = W9 m ρ c (Proc.devRef .tc main_arg5)).trans (L9_arg5 m ρ c)
theorem L10_v3 : W10 m ρ c (Proc.devRef .tc main_v3) = Cert.Stages.tr128 A12 :=
  (W10_of_ne m ρ c main_v3 (by decide) : W10 m ρ c (Proc.devRef .tc main_v3) = W9 m ρ c (Proc.devRef .tc main_v3)).trans (L9_v3 m ρ c)
theorem L10_v7 (k : Fin 128) : W10 m ρ c (Proc.devRef .tc main_v7) (ix2 (0 : Fin 1) k) = A13 (ix1 k) :=
  (congrFun (W10_of_ne m ρ c main_v7 (by decide) : W10 m ρ c (Proc.devRef .tc main_v7) = W9 m ρ c (Proc.devRef .tc main_v7)) (ix2 (0 : Fin 1) k)).trans (L9_v7 m ρ c k)

/-! ### The output layer -/
theorem L11_v46 : W11 m ρ c (Proc.devRef .tc main_v46) = Cert.Stages.outLayer (Cert.Stages.tr128 A12) A13 C3 :=
  (W11_arr m ρ c 3).trans (Out5.value (V10 m ρ) c (Cert.Stages.tr128 A12) A13 C3 (L10_v45 m ρ c) (L10_v3 m ρ c) (L10_v7 m ρ c))
theorem L11_arg5 : W11 m ρ c (Proc.devRef .tc main_arg5) = A5 :=
  (W11_of_ne m ρ c main_arg5 (by decide) : W11 m ρ c (Proc.devRef .tc main_arg5) = W10 m ρ c (Proc.devRef .tc main_arg5)).trans (L10_arg5 m ρ c)

/-! ### The result -/

/-- After the last boundary the result buffer holds the network of the launch contents of the arguments. -/
theorem result_eq : W13 m ρ c (Proc.devRef .tc main_v54)
    = Cert.Stages.network A0 A1 A2 A3 A4 A5 A6 A7 A8 A9 A10 A11 A12 A13 :=
  host_readout (W11 m ρ c) A5 _ (L11_arg5 m ρ c) (L11_v46 m ρ c)

end Cert.KernelIdeal.Chain

end
-- ==== Proof.RefOps.lean ====
/-
  The reference program as consecutive stretches of host operations, and its run.

  The reference is a straight line of host operations.  Read in order it computes six stages: the input message; three
  rounds, each gathering the current messages along the edges, summing them into the destination nodes and applying
  the dense layer with the input message added; the output layer; and the sum over each graph.  Every stage ends
  in the selection "x where x is positive, a fixed multiple of x elsewhere", which the program performs by one operation
  of an outlined function.  The line is cut before and after each of those six operations: twelve stretches.  A
  stretch reads only the arguments and what earlier stretches wrote, so the contents of every buffer after the whole
  line are those after the last stretch, from those after the one before, and so on back to the launch contents.
  Every weakly fair execution terminates, nothing faulting, with every buffer at that fold.
-/
import proofs.«127585_j36051955483067_1_alg».proof.Proof.Gen.ReferenceIdeal
import Idealize.ShloMosaic.Lib.StableHlo.Run

noncomputable section

namespace Cert.ReferenceIdeal.Fold

open Cert.ReferenceIdeal Cert.ReferenceIdeal.Gen Idealize.ShloMosaic Idealize.ShloMosaic.TcCoe Idealize.SL.Sem Idealize.ShloMosaic.StableHlo

variable {F : FTy → Type} [FloatOps F]

/-- Operations 0 to 20 of @main, in order. -/
abbrev pre0 : List (HloOp τ sig (Elt F)) :=
  [ unary main_arg6 main_v0 ((transpose S128x128 [1, 0] · transposes_S128x128_S128x128_1_0) : (⟨S128x128, .f32⟩ : BufTy).Contents (Elt F) → (⟨S128x128, .f32⟩ : BufTy).Contents (Elt F)),
    binary main_arg0 main_v0 main_v1 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg7 main_v2 (broadcastInDim S1x128 ![1] bcast_S128_S1x128_1 : (⟨S128, .f32⟩ : BufTy).Contents (Elt F) → (⟨S1x128, .f32⟩ : BufTy).Contents (Elt F)),
    unary main_v2 main_v3 (broadcastInDim S100000x128 ![0, 1] bcast_S1x128_S100000x128_0_1 : (⟨S1x128, .f32⟩ : BufTy).Contents (Elt F) → (⟨S100000x128, .f32⟩ : BufTy).Contents (Elt F)),
    binary main_v1 main_v3 main_v4 (addf : (⟨S100000x128, .f32⟩ : BufTy).Contents (Elt F) → (⟨S100000x128, .f32⟩ : BufTy).Contents (Elt F) → (⟨S100000x128, .f32⟩ : BufTy).Contents (Elt F)),
    unary main_arg8 main_v5 ((transpose S32x128 [1, 0] · transposes_S128x32_S32x128_1_0) : (⟨S128x32, .f32⟩ : BufTy).Contents (Elt F) → (⟨S32x128, .f32⟩ : BufTy).Contents (Elt F)),
    binary main_arg1 main_v5 main_v6 ((fun l r => Host.dotGeneral dot_S1600000x32_S32x128_S1600000x128_1_0_0_1_n_n none l r) : (⟨S1600000x32, .f32⟩ : BufTy).Contents (Elt F) → (⟨S32x128, .f32⟩ : BufTy).Contents (Elt F) → (⟨S1600000x128, .f32⟩ : BufTy).Contents (Elt F)),
    unary main_arg9 main_v7 (broadcastInDim S1x128 ![1] bcast_S128_S1x128_1 : (⟨S128, .f32⟩ : BufTy).Contents (Elt F) → (⟨S1x128, .f32⟩ : BufTy).Contents (Elt F)),
    unary main_v7 main_v8 (broadcastInDim S1600000x128 ![0, 1] bcast_S1x128_S1600000x128_0_1 : (⟨S1x128, .f32⟩ : BufTy).Contents (Elt F) → (⟨S1600000x128, .f32⟩ : BufTy).Contents (Elt F)),
    binary main_v6 main_v8 main_v9 (addf : (⟨S1600000x128, .f32⟩ : BufTy).Contents (Elt F) → (⟨S1600000x128, .f32⟩ : BufTy).Contents (Elt F) → (⟨S1600000x128, .f32⟩ : BufTy).Contents (Elt F)),
    nullary main_cst (constant S_ .f32 0x00000000#32),
    unary main_cst main_v10 (broadcastInDim S100000x128 ![] bcast_S_S100000x128 : (⟨S_, .f32⟩ : BufTy).Contents (Elt F) → (⟨S100000x128, .f32⟩ : BufTy).Contents (Elt F)),
    unary main_arg4 main_v11 (broadcastInDim S1600000x1 ![0] bcast_S1600000_S1600000x1_0 : (⟨S1600000, .i32⟩ : BufTy).Contents (Elt F) → (⟨S1600000x1, .i32⟩ : BufTy).Contents (Elt F)),
    ternary main_v10 main_v11 main_v9 main_v12 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v4 main_v12 main_v13 (addf : (⟨S100000x128, .f32⟩ : BufTy).Contents (Elt F) → (⟨S100000x128, .f32⟩ : BufTy).Contents (Elt F) → (⟨S100000x128, .f32⟩ : BufTy).Contents (Elt F)),
    nullary main_cst_0 (constant S_ .f32 0x00000000#32),
    unary main_cst_0 main_v14 (broadcastInDim S100000x128 ![] bcast_S_S100000x128 : (⟨S_, .f32⟩ : BufTy).Contents (Elt F) → (⟨S100000x128, .f32⟩ : BufTy).Contents (Elt F)),
    binary main_v13 main_v14 main_v15 (cmpf .ogt : (⟨S100000x128, .f32⟩ : BufTy).Contents (Elt F) → (⟨S100000x128, .f32⟩ : BufTy).Contents (Elt F) → (⟨S100000x128, .i1⟩ : BufTy).Contents (Elt F)),
    nullary main_cst_1 (constant S_ .f32 0x3C23D70A#32),
    unary main_cst_1 main_v16 (broadcastInDim S100000x128 ![] bcast_S_S100000x128 : (⟨S_, .f32⟩ : BufTy).Contents (Elt F) → (⟨S100000x128, .f32⟩ : BufTy).Contents (Elt F)),
    binary main_v16 main_v13 main_v17 (mulf : (⟨S100000x128, .f32⟩ : BufTy).Contents (Elt F) → (⟨S100000x128, .f32⟩ : BufTy).Contents (Elt F) → (⟨S100000x128, .f32⟩ : BufTy).Contents (Elt F)) ]
theorem pre0_sub : (pre0 : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., unary_bufs_sub .., unary_bufs_sub .., binary_bufs_sub .., nullary_bufs_sub .., unary_bufs_sub .., unary_bufs_sub .., ternary_bufs_sub .., binary_bufs_sub .., nullary_bufs_sub .., unary_bufs_sub .., binary_bufs_sub .., nullary_bufs_sub .., unary_bufs_sub .., binary_bufs_sub ..⟩
theorem pre0_fresh : (pre0 : List (HloOp τ sig (Elt F))).Forall fun op => op.fresh = ∅ := by
  simp only [List.Forall]; repeat' constructor

/-- The outlined selection that follows : operation 21 of @main. -/
abbrev w0 : List (HloOp τ sig (Elt F)) :=
  [ TRef.ternary (TRef.of (T := ⟨S100000x128, .i1⟩) main_v15) (TRef.of (T := ⟨S100000x128, .f32⟩) main_v13) (TRef.of (T := ⟨S100000x128, .f32⟩) main_v17) (TRef.of (T := ⟨S100000x128, .f32⟩) main_v18) select ]
theorem w0_sub : (w0 : List (HloOp τ sig (Elt F))).Forall fun op => op.bufs ⊆ tcRefs τ sig :=
  ternary_bufs_sub ..
theorem w0_fresh : (w0 : List (HloOp τ sig (Elt F))).Forall fun op => op.fresh = ∅ := by
  simp only [List.Forall]; repeat' constructor

/-- Operations 22 to 46 of @main, in order. -/
abbrev pre1 : List (HloOp τ sig (Elt F)) :=
  [ nullary main_c (constantI S_ 32 0#32),
    unary main_c main_v19 (broadcastInDim S1600000 ![] bcast_S_S1600000 : (⟨S_, .i32⟩ : BufTy).Contents (Elt F) → (⟨S1600000, .i32⟩ : BufTy).Contents (Elt F)),
    binary main_arg2 main_v19 main_v20 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v21 (broadcastInDim S1600000 ![] bcast_S_S1600000 : (⟨S_, .i32⟩ : BufTy).Contents (Elt F) → (⟨S1600000, .i32⟩ : BufTy).Contents (Elt F)),
    binary main_arg2 main_v21 main_v22 (addi : (⟨S1600000, .i32⟩ : BufTy).Contents (Elt F) → (⟨S1600000, .i32⟩ : BufTy).Contents (Elt F) → (⟨S1600000, .i32⟩ : BufTy).Contents (Elt F)),
    ternary main_v20 main_v22 main_arg2 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v23 main_v24 (broadcastInDim S1600000x1 ![0] bcast_S1600000_S1600000x1_0 : (⟨S1600000, .i32⟩ : BufTy).Contents (Elt F) → (⟨S1600000x1, .i32⟩ : BufTy).Contents (Elt F)),
    binary main_v18 main_v24 main_v25 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_3 (constant S_ .f32 0x00000000#32),
    unary main_cst_3 main_v26 (broadcastInDim S100000x128 ![] bcast_S_S100000x128 : (⟨S_, .f32⟩ : BufTy).Contents (Elt F) → (⟨S100000x128, .f32⟩ : BufTy).Contents (Elt F)),
    unary main_arg3 main_v27 (broadcastInDim S1600000x1 ![0] bcast_S1600000_S1600000x1_0 : (⟨S1600000, .i32⟩ : BufTy).Contents (Elt F) → (⟨S1600000x1, .i32⟩ : BufTy).Contents (Elt F)),
    ternary main_v26 main_v27 main_v25 main_v28 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg10 main_v29 ((transpose S128x128 [1, 0] · transposes_S128x128_S128x128_1_0) : (⟨S128x128, .f32⟩ : BufTy).Contents (Elt F) → (⟨S128x128, .f32⟩ : BufTy).Contents (Elt F)),
    binary main_v28 main_v29 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg11 main_v31 (broadcastInDim S1x128 ![1] bcast_S128_S1x128_1 : (⟨S128, .f32⟩ : BufTy).Contents (Elt F) → (⟨S1x128, .f32⟩ : BufTy).Contents (Elt F)),
    unary main_v31 main_v32 (broadcastInDim S100000x128 ![0, 1] bcast_S1x128_S100000x128_0_1 : (⟨S1x128, .f32⟩ : BufTy).Contents (Elt F) → (⟨S100000x128, .f32⟩ : BufTy).Contents (Elt F)),
    binary main_v30 main_v32 main_v33 (addf : (⟨S100000x128, .f32⟩ : BufTy).Contents (Elt F) → (⟨S100000x128, .f32⟩ : BufTy).Contents (Elt F) → (⟨S100000x128, .f32⟩ : BufTy).Contents (Elt F)),
    binary main_v33 main_v13 main_v34 (addf : (⟨S100000x128, .f32⟩ : BufTy).Contents (Elt F) → (⟨S100000x128, .f32⟩ : BufTy).Contents (Elt F) → (⟨S100000x128, .f32⟩ : BufTy).Contents (Elt F)),
    nullary main_cst_4 (constant S_ .f32 0x00000000#32),
    unary main_cst_4 main_v35 (broadcastInDim S100000x128 ![] bcast_S_S100000x128 : (⟨S_, .f32⟩ : BufTy).Contents (Elt F) → (⟨S100000x128, .f32⟩ : BufTy).Contents (Elt F)),
    binary main_v34 main_v35 main_v36 (cmpf .ogt : (⟨S100000x128, .f32⟩ : BufTy).Contents (Elt F) → (⟨S100000x128, .f32⟩ : BufTy).Contents (Elt F) → (⟨S100000x128, .i1⟩ : BufTy).Contents (Elt F)),
    nullary main_cst_5 (constant S_ .f32 0x3C23D70A#32),
    unary main_cst_5 main_v37 (broadcastInDim S100000x128 ![] bcast_S_S100000x128 : (⟨S_, .f32⟩ : BufTy).Contents (Elt F) → (⟨S100000x128, .f32⟩ : BufTy).Contents (Elt F)),
    binary main_v37 main_v34 main_v38 (mulf : (⟨S100000x128, .f32⟩ : BufTy).Contents (Elt F) → (⟨S100000x128, .f32⟩ : BufTy).Contents (Elt F) → (⟨S100000x128, .f32⟩ : BufTy).Contents (Elt F)) ]
theorem pre1_sub : (pre1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub ..⟩
theorem pre1_fresh : (pre1 : List (HloOp τ sig (Elt F))).Forall fun op => op.fresh = ∅ := by
  simp only [List.Forall]; repeat' constructor

/-- The outlined selection that follows : operation 47 of @main. -/
abbrev w1 : List (HloOp τ sig (Elt F)) :=
  [ TRef.ternary (TRef.of (T := ⟨S100000x128, .i1⟩) main_v36) (TRef.of (T := ⟨S100000x128, .f32⟩) main_v34) (TRef.of (T := ⟨S100000x128, .f32⟩) main_v38) (TRef.of (T := ⟨S100000x128, .f32⟩) main_v39) select ]
theorem w1_sub : (w1 : List (HloOp τ sig (Elt F))).Forall fun op => op.bufs ⊆ tcRefs τ sig :=
  ternary_bufs_sub ..
theorem w1_fresh : (w1 : List (HloOp τ sig (Elt F))).Forall fun op => op.fresh = ∅ := by
  simp only [List.Forall]; repeat' constructor

/-- Operations 48 to 72 of @main, in order. -/
abbrev pre2 : List (HloOp τ sig (Elt F)) :=
  [ nullary main_c_6 (constantI S_ 32 0#32),
    unary main_c_6 main_v40 (broadcastInDim S1600000 ![] bcast_S_S1600000 : (⟨S_, .i32⟩ : BufTy).Contents (Elt F) → (⟨S1600000, .i32⟩ : BufTy).Contents (Elt F)),
    binary main_arg2 main_v40 main_v41 (cmpi .slt : (⟨S1600000, .i32⟩ : BufTy).Contents (Elt F) → (⟨S1600000, .i32⟩ : BufTy).Contents (Elt F) → (⟨S1600000, .i1⟩ : BufTy).Contents (Elt F)),
    nullary main_c_7 (constantI S_ 32 100000#32),
    unary main_c_7 main_v42 (broadcastInDim S1600000 ![] bcast_S_S1600000 : (⟨S_, .i32⟩ : BufTy).Contents (Elt F) → (⟨S1600000, .i32⟩ : BufTy).Contents (Elt F)),
    binary main_arg2 main_v42 main_v43 (addi : (⟨S1600000, .i32⟩ : BufTy).Contents (Elt F) → (⟨S1600000, .i32⟩ : BufTy).Contents (Elt F) → (⟨S1600000, .i32⟩ : BufTy).Contents (Elt F)),
    ternary main_v41 main_v43 main_arg2 main_v44 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v44 main_v45 (broadcastInDim S1600000x1 ![0] bcast_S1600000_S1600000x1_0 : (⟨S1600000, .i32⟩ : BufTy).Contents (Elt F) → (⟨S1600000x1, .i32⟩ : BufTy).Contents (Elt F)),
    binary main_v39 main_v45 main_v46 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_8 (constant S_ .f32 0x00000000#32),
    unary main_cst_8 main_v47 (broadcastInDim S100000x128 ![] bcast_S_S100000x128 : (⟨S_, .f32⟩ : BufTy).Contents (Elt F) → (⟨S100000x128, .f32⟩ : BufTy).Contents (Elt F)),
    unary main_arg3 main_v48 (broadcastInDim S1600000x1 ![0] bcast_S1600000_S1600000x1_0 : (⟨S1600000, .i32⟩ : BufTy).Contents (Elt F) → (⟨S1600000x1, .i32⟩ : BufTy).Contents (Elt F)),
    ternary main_v47 main_v48 main_v46 main_v49 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg10 main_v50 ((transpose S128x128 [1, 0] · transposes_S128x128_S128x128_1_0) : (⟨S128x128, .f32⟩ : BufTy).Contents (Elt F) → (⟨S128x128, .f32⟩ : BufTy).Contents (Elt F)),
    binary main_v49 main_v50 main_v51 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg11 main_v52 (broadcastInDim S1x128 ![1] bcast_S128_S1x128_1 : (⟨S128, .f32⟩ : BufTy).Contents (Elt F) → (⟨S1x128, .f32⟩ : BufTy).Contents (Elt F)),
    unary main_v52 main_v53 (broadcastInDim S100000x128 ![0, 1] bcast_S1x128_S100000x128_0_1 : (⟨S1x128, .f32⟩ : BufTy).Contents (Elt F) → (⟨S100000x128, .f32⟩ : BufTy).Contents (Elt F)),
    binary main_v51 main_v53 main_v54 (addf : (⟨S100000x128, .f32⟩ : BufTy).Contents (Elt F) → (⟨S100000x128, .f32⟩ : BufTy).Contents (Elt F) → (⟨S100000x128, .f32⟩ : BufTy).Contents (Elt F)),
    binary main_v54 main_v13 main_v55 (addf : (⟨S100000x128, .f32⟩ : BufTy).Contents (Elt F) → (⟨S100000x128, .f32⟩ : BufTy).Contents (Elt F) → (⟨S100000x128, .f32⟩ : BufTy).Contents (Elt F)),
    nullary main_cst_9 (constant S_ .f32 0x00000000#32),
    unary main_cst_9 main_v56 (broadcastInDim S100000x128 ![] bcast_S_S100000x128 : (⟨S_, .f32⟩ : BufTy).Contents (Elt F) → (⟨S100000x128, .f32⟩ : BufTy).Contents (Elt F)),
    binary main_v55 main_v56 main_v57 (cmpf .ogt : (⟨S100000x128, .f32⟩ : BufTy).Contents (Elt F) → (⟨S100000x128, .f32⟩ : BufTy).Contents (Elt F) → (⟨S100000x128, .i1⟩ : BufTy).Contents (Elt F)),
    nullary main_cst_10 (constant S_ .f32 0x3C23D70A#32),
    unary main_cst_10 main_v58 (broadcastInDim S100000x128 ![] bcast_S_S100000x128 : (⟨S_, .f32⟩ : BufTy).Contents (Elt F) → (⟨S100000x128, .f32⟩ : BufTy).Contents (Elt F)),
    binary main_v58 main_v55 main_v59 (mulf : (⟨S100000x128, .f32⟩ : BufTy).Contents (Elt F) → (⟨S100000x128, .f32⟩ : BufTy).Contents (Elt F) → (⟨S100000x128, .f32⟩ : BufTy).Contents (Elt F)) ]
theorem pre2_sub : (pre2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub ..⟩
theorem pre2_fresh : (pre2 : List (HloOp τ sig (Elt F))).Forall fun op => op.fresh = ∅ := by
  simp only [List.Forall]; repeat' constructor

/-- The outlined selection that follows : operation 73 of @main. -/
abbrev w2 : List (HloOp τ sig (Elt F)) :=
  [ TRef.ternary (TRef.of (T := ⟨S100000x128, .i1⟩) main_v57) (TRef.of (T := ⟨S100000x128, .f32⟩) main_v55) (TRef.of (T := ⟨S100000x128, .f32⟩) main_v59) (TRef.of (T := ⟨S100000x128, .f32⟩) main_v60) select ]
theorem w2_sub : (w2 : List (HloOp τ sig (Elt F))).Forall fun op => op.bufs ⊆ tcRefs τ sig :=
  ternary_bufs_sub ..
theorem w2_fresh : (w2 : List (HloOp τ sig (Elt F))).Forall fun op => op.fresh = ∅ := by
  simp only [List.Forall]; repeat' constructor

/-- Operations 74 to 98 of @main, in order. -/
abbrev pre3 : List (HloOp τ sig (Elt F)) :=
  [ nullary main_c_11 (constantI S_ 32 0#32),
    unary main_c_11 main_v61 (broadcastInDim S1600000 ![] bcast_S_S1600000 : (⟨S_, .i32⟩ : BufTy).Contents (Elt F) → (⟨S1600000, .i32⟩ : BufTy).Contents (Elt F)),
    binary main_arg2 main_v61 main_v62 (cmpi .slt : (⟨S1600000, .i32⟩ : BufTy).Contents (Elt F) → (⟨S1600000, .i32⟩ : BufTy).Contents (Elt F) → (⟨S1600000, .i1⟩ : BufTy).Contents (Elt F)),
    nullary main_c_12 (constantI S_ 32 100000#32),
    unary main_c_12 main_v63 (broadcastInDim S1600000 ![] bcast_S_S1600000 : (⟨S_, .i32⟩ : BufTy).Contents (Elt F) → (⟨S1600000, .i32⟩ : BufTy).Contents (Elt F)),
    binary main_arg2 main_v63 main_v64 (addi : (⟨S1600000, .i32⟩ : BufTy).Contents (Elt F) → (⟨S1600000, .i32⟩ : BufTy).Contents (Elt F) → (⟨S1600000, .i32⟩ : BufTy).Contents (Elt F)),
    ternary main_v62 main_v64 main_arg2 main_v65 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v65 main_v66 (broadcastInDim S1600000x1 ![0] bcast_S1600000_S1600000x1_0 : (⟨S1600000, .i32⟩ : BufTy).Contents (Elt F) → (⟨S1600000x1, .i32⟩ : BufTy).Contents (Elt F)),
    binary main_v60 main_v66 main_v67 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_13 (constant S_ .f32 0x00000000#32),
    unary main_cst_13 main_v68 (broadcastInDim S100000x128 ![] bcast_S_S100000x128 : (⟨S_, .f32⟩ : BufTy).Contents (Elt F) → (⟨S100000x128, .f32⟩ : BufTy).Contents (Elt F)),
    unary main_arg3 main_v69 (broadcastInDim S1600000x1 ![0] bcast_S1600000_S1600000x1_0 : (⟨S1600000, .i32⟩ : BufTy).Contents (Elt F) → (⟨S1600000x1, .i32⟩ : BufTy).Contents (Elt F)),
    ternary main_v68 main_v69 main_v67 main_v70 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg10 main_v71 ((transpose S128x128 [1, 0] · transposes_S128x128_S128x128_1_0) : (⟨S128x128, .f32⟩ : BufTy).Contents (Elt F) → (⟨S128x128, .f32⟩ : BufTy).Contents (Elt F)),
    binary main_v70 main_v71 main_v72 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg11 main_v73 (broadcastInDim S1x128 ![1] bcast_S128_S1x128_1 : (⟨S128, .f32⟩ : BufTy).Contents (Elt F) → (⟨S1x128, .f32⟩ : BufTy).Contents (Elt F)),
    unary main_v73 main_v74 (broadcastInDim S100000x128 ![0, 1] bcast_S1x128_S100000x128_0_1 : (⟨S1x128, .f32⟩ : BufTy).Contents (Elt F) → (⟨S100000x128, .f32⟩ : BufTy).Contents (Elt F)),
    binary main_v72 main_v74 main_v75 (addf : (⟨S100000x128, .f32⟩ : BufTy).Contents (Elt F) → (⟨S100000x128, .f32⟩ : BufTy).Contents (Elt F) → (⟨S100000x128, .f32⟩ : BufTy).Contents (Elt F)),
    binary main_v75 main_v13 main_v76 (addf : (⟨S100000x128, .f32⟩ : BufTy).Contents (Elt F) → (⟨S100000x128, .f32⟩ : BufTy).Contents (Elt F) → (⟨S100000x128, .f32⟩ : BufTy).Contents (Elt F)),
    nullary main_cst_14 (constant S_ .f32 0x00000000#32),
    unary main_cst_14 main_v77 (broadcastInDim S100000x128 ![] bcast_S_S100000x128 : (⟨S_, .f32⟩ : BufTy).Contents (Elt F) → (⟨S100000x128, .f32⟩ : BufTy).Contents (Elt F)),
    binary main_v76 main_v77 main_v78 (cmpf .ogt : (⟨S100000x128, .f32⟩ : BufTy).Contents (Elt F) → (⟨S100000x128, .f32⟩ : BufTy).Contents (Elt F) → (⟨S100000x128, .i1⟩ : BufTy).Contents (Elt F)),
    nullary main_cst_15 (constant S_ .f32 0x3C23D70A#32),
    unary main_cst_15 main_v79 (broadcastInDim S100000x128 ![] bcast_S_S100000x128 : (⟨S_, .f32⟩ : BufTy).Contents (Elt F) → (⟨S100000x128, .f32⟩ : BufTy).Contents (Elt F)),
    binary main_v79 main_v76 main_v80 (mulf : (⟨S100000x128, .f32⟩ : BufTy).Contents (Elt F) → (⟨S100000x128, .f32⟩ : BufTy).Contents (Elt F) → (⟨S100000x128, .f32⟩ : BufTy).Contents (Elt F)) ]
theorem pre3_sub : (pre3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub ..⟩
theorem pre3_fresh : (pre3 : List (HloOp τ sig (Elt F))).Forall fun op => op.fresh = ∅ := by
  simp only [List.Forall]; repeat' constructor

/-- The outlined selection that follows : operation 99 of @main. -/
abbrev w3 : List (HloOp τ sig (Elt F)) :=
  [ TRef.ternary (TRef.of (T := ⟨S100000x128, .i1⟩) main_v78) (TRef.of (T := ⟨S100000x128, .f32⟩) main_v76) (TRef.of (T := ⟨S100000x128, .f32⟩) main_v80) (TRef.of (T := ⟨S100000x128, .f32⟩) main_v81) select ]
theorem w3_sub : (w3 : List (HloOp τ sig (Elt F))).Forall fun op => op.bufs ⊆ tcRefs τ sig :=
  ternary_bufs_sub ..
theorem w3_fresh : (w3 : List (HloOp τ sig (Elt F))).Forall fun op => op.fresh = ∅ := by
  simp only [List.Forall]; repeat' constructor

/-- Operations 100 to 110 of @main, in order. -/
abbrev pre4 : List (HloOp τ sig (Elt F)) :=
  [ unary main_arg12 main_v82 ((transpose S128x128 [1, 0] · transposes_S128x128_S128x128_1_0) : (⟨S128x128, .f32⟩ : BufTy).Contents (Elt F) → (⟨S128x128, .f32⟩ : BufTy).Contents (Elt F)),
    binary main_v81 main_v82 main_v83 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg13 main_v84 (broadcastInDim S1x128 ![1] bcast_S128_S1x128_1 : (⟨S128, .f32⟩ : BufTy).Contents (Elt F) → (⟨S1x128, .f32⟩ : BufTy).Contents (Elt F)),
    unary main_v84 main_v85 (broadcastInDim S100000x128 ![0, 1] bcast_S1x128_S100000x128_0_1 : (⟨S1x128, .f32⟩ : BufTy).Contents (Elt F) → (⟨S100000x128, .f32⟩ : BufTy).Contents (Elt F)),
    binary main_v83 main_v85 main_v86 (addf : (⟨S100000x128, .f32⟩ : BufTy).Contents (Elt F) → (⟨S100000x128, .f32⟩ : BufTy).Contents (Elt F) → (⟨S100000x128, .f32⟩ : BufTy).Contents (Elt F)),
    nullary main_cst_16 (constant S_ .f32 0x00000000#32),
    unary main_cst_16 main_v87 (broadcastInDim S100000x128 ![] bcast_S_S100000x128 : (⟨S_, .f32⟩ : BufTy).Contents (Elt F) → (⟨S100000x128, .f32⟩ : BufTy).Contents (Elt F)),
    binary main_v86 main_v87 main_v88 (cmpf .ogt : (⟨S100000x128, .f32⟩ : BufTy).Contents (Elt F) → (⟨S100000x128, .f32⟩ : BufTy).Contents (Elt F) → (⟨S100000x128, .i1⟩ : BufTy).Contents (Elt F)),
    nullary main_cst_17 (constant S_ .f32 0x3C23D70A#32),
    unary main_cst_17 main_v89 (broadcastInDim S100000x128 ![] bcast_S_S100000x128 : (⟨S_, .f32⟩ : BufTy).Contents (Elt F) → (⟨S100000x128, .f32⟩ : BufTy).Contents (Elt F)),
    binary main_v89 main_v86 main_v90 (mulf : (⟨S100000x128, .f32⟩ : BufTy).Contents (Elt F) → (⟨S100000x128, .f32⟩ : BufTy).Contents (Elt F) → (⟨S100000x128, .f32⟩ : BufTy).Contents (Elt F)) ]
theorem pre4_sub : (pre4 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., nullary_bufs_sub .., unary_bufs_sub .., binary_bufs_sub ..⟩
theorem pre4_fresh : (pre4 : List (HloOp τ sig (Elt F))).Forall fun op => op.fresh = ∅ := by
  simp only [List.Forall]; repeat' constructor

/-- The outlined selection that follows : operation 111 of @main. -/
abbrev w4 : List (HloOp τ sig (Elt F)) :=
  [ TRef.ternary (TRef.of (T := ⟨S100000x128, .i1⟩) main_v88) (TRef.of (T := ⟨S100000x128, .f32⟩) main_v86) (TRef.of (T := ⟨S100000x128, .f32⟩) main_v90) (TRef.of (T := ⟨S100000x128, .f32⟩) main_v91) select ]
theorem w4_sub : (w4 : List (HloOp τ sig (Elt F))).Forall fun op => op.bufs ⊆ tcRefs τ sig :=
  ternary_bufs_sub ..
theorem w4_fresh : (w4 : List (HloOp τ sig (Elt F))).Forall fun op => op.fresh = ∅ := by
  simp only [List.Forall]; repeat' constructor

/-- Operations 112 to 121 of @main, in order. -/
abbrev pre5 : List (HloOp τ sig (Elt F)) :=
  [ nullary main_cst_18 (constant S_ .f32 0x00000000#32),
    unary main_cst_18 main_v92 (broadcastInDim S64x128 ![] bcast_S_S64x128 : (⟨S_, .f32⟩ : BufTy).Contents (Elt F) → (⟨S64x128, .f32⟩ : BufTy).Contents (Elt F)),
    unary main_arg5 main_v93 (broadcastInDim S100000x1 ![0] bcast_S100000_S100000x1_0 : (⟨S100000, .i32⟩ : BufTy).Contents (Elt F) → (⟨S100000x1, .i32⟩ : BufTy).Contents (Elt F)),
    ternary main_v92 main_v93 main_v91 main_v94 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)),
    nullary main_cst_19 (constant S_ .f32 0x00000000#32),
    unary main_cst_19 main_v95 (broadcastInDim S64x128 ![] bcast_S_S64x128 : (⟨S_, .f32⟩ : BufTy).Contents (Elt F) → (⟨S64x128, .f32⟩ : BufTy).Contents (Elt F)),
    binary main_v94 main_v95 main_v96 (cmpf .ogt : (⟨S64x128, .f32⟩ : BufTy).Contents (Elt F) → (⟨S64x128, .f32⟩ : BufTy).Contents (Elt F) → (⟨S64x128, .i1⟩ : BufTy).Contents (Elt F)),
    nullary main_cst_20 (constant S_ .f32 0x3C23D70A#32),
    unary main_cst_20 main_v97 (broadcastInDim S64x128 ![] bcast_S_S64x128 : (⟨S_, .f32⟩ : BufTy).Contents (Elt F) → (⟨S64x128, .f32⟩ : BufTy).Contents (Elt F)),
    binary main_v97 main_v94 main_v98 (mulf : (⟨S64x128, .f32⟩ : BufTy).Contents (Elt F) → (⟨S64x128, .f32⟩ : BufTy).Contents (Elt F) → (⟨S64x128, .f32⟩ : BufTy).Contents (Elt F)) ]
theorem pre5_sub : (pre5 : List (HloOp τ sig (Elt F))).Forall fun op => op.bufs ⊆ tcRefs τ sig :=
  ⟨nullary_bufs_sub .., unary_bufs_sub .., unary_bufs_sub .., ternary_bufs_sub .., nullary_bufs_sub .., unary_bufs_sub .., binary_bufs_sub .., nullary_bufs_sub .., unary_bufs_sub .., binary_bufs_sub ..⟩
theorem pre5_fresh : (pre5 : List (HloOp τ sig (Elt F))).Forall fun op => op.fresh = ∅ := by
  simp only [List.Forall]; repeat' constructor

/-- The outlined selection that follows : operation 122 of @main. -/
abbrev w5 : List (HloOp τ sig (Elt F)) :=
  [ TRef.ternary (TRef.of (T := ⟨S64x128, .i1⟩) main_v96) (TRef.of (T := ⟨S64x128, .f32⟩) main_v94) (TRef.of (T := ⟨S64x128, .f32⟩) main_v98) (TRef.of (T := ⟨S64x128, .f32⟩) main_v99) select ]
theorem w5_sub : (w5 : List (HloOp τ sig (Elt F))).Forall fun op => op.bufs ⊆ tcRefs τ sig :=
  ternary_bufs_sub ..
theorem w5_fresh : (w5 : List (HloOp τ sig (Elt F))).Forall fun op => op.fresh = ∅ := by
  simp only [List.Forall]; repeat' constructor

/-- The stretches, in order. -/
abbrev segs : List (List (HloOp τ sig (Elt F))) := [pre0, w0, pre1, w1, pre2, w2, pre3, w3, pre4, w4, pre5, w5]

/-- @main's operations: the stretches, in order. -/
abbrev ops : List (HloOp τ sig (Elt F)) := (segs (F := F)).flatten

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-- A property of every operation of each stretch is a property of every operation of the line. -/
theorem forall_ops {p : HloOp τ sig (Elt F) → Prop}
    (h_pre0 : (pre0 (F := F)).Forall p)
    (h_w0 : (w0 (F := F)).Forall p)
    (h_pre1 : (pre1 (F := F)).Forall p)
    (h_w1 : (w1 (F := F)).Forall p)
    (h_pre2 : (pre2 (F := F)).Forall p)
    (h_w2 : (w2 (F := F)).Forall p)
    (h_pre3 : (pre3 (F := F)).Forall p)
    (h_w3 : (w3 (F := F)).Forall p)
    (h_pre4 : (pre4 (F := F)).Forall p)
    (h_w4 : (w4 (F := F)).Forall p)
    (h_pre5 : (pre5 (F := F)).Forall p)
    (h_w5 : (w5 (F := F)).Forall p) :
    ∀ op ∈ (ops : List (HloOp τ sig (Elt F))), p op := by
  intro op h
  obtain ⟨l, hl, hop⟩ := List.mem_flatten.mp h
  simp only [segs, List.mem_cons, List.not_mem_nil, or_false] at hl
  rcases hl with rfl | rfl | rfl | rfl | rfl | rfl | rfl | rfl | rfl | rfl | rfl | rfl
  · exact List.forall_iff_forall_mem.mp h_pre0 op hop
  · exact List.forall_iff_forall_mem.mp h_w0 op hop
  · exact List.forall_iff_forall_mem.mp h_pre1 op hop
  · exact List.forall_iff_forall_mem.mp h_w1 op hop
  · exact List.forall_iff_forall_mem.mp h_pre2 op hop
  · exact List.forall_iff_forall_mem.mp h_w2 op hop
  · exact List.forall_iff_forall_mem.mp h_pre3 op hop
  · exact List.forall_iff_forall_mem.mp h_w3 op hop
  · exact List.forall_iff_forall_mem.mp h_pre4 op hop
  · exact List.forall_iff_forall_mem.mp h_w4 op hop
  · exact List.forall_iff_forall_mem.mp h_pre5 op hop
  · exact List.forall_iff_forall_mem.mp h_w5 op hop

/-- The contents after two stretches in a row are the contents after the second, from those after the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The contents after the whole line, stretch by stretch. -/
theorem after_ops (V : Valuation τ sig (Elt F)) :
    after (ops (F := F)) V
      = after w5 (after pre5 (after w4 (after pre4 (after w3 (after pre3 (after w2 (after pre2 (after w1 (after pre1
          (after w0 (after pre0 V))))))))))) := by
  show after (pre0 ++ (w0 ++ (pre1 ++ (w1 ++ (pre2 ++ (w2 ++ (pre3 ++ (w3 ++ (pre4 ++ (w4 ++ (pre5 ++ (w5 ++ [])))))))))))) V = _
  simp only [after_append, after_nil]

/-- On every device, from any memory with zero counters: every weakly fair execution of @main terminates with every
    buffer at the fold of the operations' results over its launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq
    (fun _ => List.forall_iff_forall_mem.mpr (forall_ops pre0_sub w0_sub pre1_sub w1_sub pre2_sub w2_sub pre3_sub w3_sub pre4_sub w4_sub pre5_sub w5_sub)) m ρ
    (fun _ => forall_ops pre0_fresh w0_fresh pre1_fresh w1_fresh pre2_fresh w2_fresh pre3_fresh w3_fresh pre4_fresh w4_fresh pre5_fresh w5_fresh)

end Cert.ReferenceIdeal.Fold

end
-- ==== Proof.RefRead.lean ====
/-
  The reference's run, read as the network's stages.

  Each stage of the reference is two stretches of its operations: one that computes the stage's array before the
  selection, with the array of its positive places and the array scaled by the selection's factor, and the one
  operation that selects.  A stage reads only arguments and the buffers of earlier stages, and writes none of the buffers
  a later stage still reads.  So the contents of the result buffer after the whole line are the network's stages
  composed, applied to the launch contents of the argument buffers.
-/
import proofs.«127585_j36051955483067_1_alg».proof.Proof.RefOps
import proofs.«127585_j36051955483067_1_alg».proof.Proof.Stages
import proofs.«127585_j36051955483067_1_alg».proof.Proof.LibWhere

set_option maxRecDepth 16384
set_option maxHeartbeats 4000000

noncomputable section

namespace Cert.ReferenceIdeal.Fold

open Cert.ReferenceIdeal Cert.ReferenceIdeal.Gen Idealize.ShloMosaic Idealize.ShloMosaic.TcCoe Idealize.SL.Sem Idealize.ShloMosaic.StableHlo
open Cert.Stages

/-- No operation of a literal stretch writes the buffer in question: one inequality of references per operation. -/
macro "not_written" : tactic => `(tactic| (
  simp only [List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

variable (V : Valuation τ sig (Elt Ideal))

/-! ## What each stage's two stretches write, from the contents they start from -/

/-! ### Stretch 0: the input message -/

theorem pre0_Y : after (pre0 (F := Ideal)) V (Proc.devRef .tc main_v13) = (inputMsg (V (Proc.devRef .tc main_arg0)) (V (Proc.devRef .tc main_arg1)) (V (Proc.devRef .tc main_arg4)) (V (Proc.devRef .tc main_arg6)) (V (Proc.devRef .tc main_arg7)) (V (Proc.devRef .tc main_arg8)) (V (Proc.devRef .tc main_arg9))) := by
  after_results_simp <;> rfl
theorem pre0_c : after (pre0 (F := Ideal)) V (Proc.devRef .tc main_v15) = leakyCond bcast_S_S100000x128 (inputMsg (V (Proc.devRef .tc main_arg0)) (V (Proc.devRef .tc main_arg1)) (V (Proc.devRef .tc main_arg4)) (V (Proc.devRef .tc main_arg6)) (V (Proc.devRef .tc main_arg7)) (V (Proc.devRef .tc main_arg8)) (V (Proc.devRef .tc main_arg9))) := by
  after_results_simp <;> rfl
theorem pre0_s : after (pre0 (F := Ideal)) V (Proc.devRef .tc main_v17) = leakyScaled bcast_S_S100000x128 (inputMsg (V (Proc.devRef .tc main_arg0)) (V (Proc.devRef .tc main_arg1)) (V (Proc.devRef .tc main_arg4)) (V (Proc.devRef .tc main_arg6)) (V (Proc.devRef .tc main_arg7)) (V (Proc.devRef .tc main_arg8)) (V (Proc.devRef .tc main_arg9))) := by
  after_results_simp <;> rfl
theorem pre0_cH : HEq (after (pre0 (F := Ideal)) V (Proc.devRef .tc main_v15)) (leakyCond bcast_S_S100000x128 (inputMsg (V (Proc.devRef .tc main_arg0)) (V (Proc.devRef .tc main_arg1)) (V (Proc.devRef .tc main_arg4)) (V (Proc.devRef .tc main_arg6)) (V (Proc.devRef .tc main_arg7)) (V (Proc.devRef .tc main_arg8)) (V (Proc.devRef .tc main_arg9)))) :=
  heq_of_eq (pre0_c V)
/-- The selection's own operation, from the three arrays it chooses among. -/
theorem sel0 : (TRef.ternary (TRef.of (T := ⟨S100000x128, .i1⟩) main_v15) (TRef.of (T := ⟨S100000x128, .f32⟩) main_v13) (TRef.of (T := ⟨S100000x128, .f32⟩) main_v17) (TRef.of (T := ⟨S100000x128, .f32⟩) main_v18) select : HloOp τ sig (Elt Ideal)).result
      (after (pre0 (F := Ideal)) V) (Proc.devRef .tc main_v18) = leakyNodes (inputMsg (V (Proc.devRef .tc main_arg0)) (V (Proc.devRef .tc main_arg1)) (V (Proc.devRef .tc main_arg4)) (V (Proc.devRef .tc main_arg6)) (V (Proc.devRef .tc main_arg7)) (V (Proc.devRef .tc main_arg8)) (V (Proc.devRef .tc main_arg9))) :=
  TRef.ternary_result_eq (τ := τ) (Val := Elt Ideal) (TRef.of (T := ⟨S100000x128, .i1⟩) main_v15) (TRef.of (T := ⟨S100000x128, .f32⟩) main_v13) (TRef.of (T := ⟨S100000x128, .f32⟩) main_v17) (TRef.of (T := ⟨S100000x128, .f32⟩) main_v18) select
    (after (pre0 (F := Ideal)) V) (leakyCond bcast_S_S100000x128 (inputMsg (V (Proc.devRef .tc main_arg0)) (V (Proc.devRef .tc main_arg1)) (V (Proc.devRef .tc main_arg4)) (V (Proc.devRef .tc main_arg6)) (V (Proc.devRef .tc main_arg7)) (V (Proc.devRef .tc main_arg8)) (V (Proc.devRef .tc main_arg9)))) (inputMsg (V (Proc.devRef .tc main_arg0)) (V (Proc.devRef .tc main_arg1)) (V (Proc.devRef .tc main_arg4)) (V (Proc.devRef .tc main_arg6)) (V (Proc.devRef .tc main_arg7)) (V (Proc.devRef .tc main_arg8)) (V (Proc.devRef .tc main_arg9))) (leakyScaled bcast_S_S100000x128 (inputMsg (V (Proc.devRef .tc main_arg0)) (V (Proc.devRef .tc main_arg1)) (V (Proc.devRef .tc main_arg4)) (V (Proc.devRef .tc main_arg6)) (V (Proc.devRef .tc main_arg7)) (V (Proc.devRef .tc main_arg8)) (V (Proc.devRef .tc main_arg9)))) (leakyNodes (inputMsg (V (Proc.devRef .tc main_arg0)) (V (Proc.devRef .tc main_arg1)) (V (Proc.devRef .tc main_arg4)) (V (Proc.devRef .tc main_arg6)) (V (Proc.devRef .tc main_arg7)) (V (Proc.devRef .tc main_arg8)) (V (Proc.devRef .tc main_arg9))))
    (pre0_cH V) (heq_of_eq (pre0_Y V)) (heq_of_eq (pre0_s V)) (heq_of_eq rfl)
/-- After the selection the stage's buffer holds the stage. -/
theorem read0 : after (w0 (F := Ideal)) (after (pre0 (F := Ideal)) V) (Proc.devRef .tc main_v18) = leakyNodes (inputMsg (V (Proc.devRef .tc main_arg0)) (V (Proc.devRef .tc main_arg1)) (V (Proc.devRef .tc main_arg4)) (V (Proc.devRef .tc main_arg6)) (V (Proc.devRef .tc main_arg7)) (V (Proc.devRef .tc main_arg8)) (V (Proc.devRef .tc main_arg9))) :=
  sel0 V

/-! ### Stretch 1: the first round -/

theorem pre1_Y : after (pre1 (F := Ideal)) V (Proc.devRef .tc main_v34) = (nodeLin (tr128 (V (Proc.devRef .tc main_arg10))) (V (Proc.devRef .tc main_arg11)) (Stages.pool (V (Proc.devRef .tc main_arg2)) (V (Proc.devRef .tc main_arg3)) (V (Proc.devRef .tc main_v18))) (V (Proc.devRef .tc main_v13))) := by
  after_results_simp <;> rfl
theorem pre1_c : after (pre1 (F := Ideal)) V (Proc.devRef .tc main_v36) = leakyCond bcast_S_S100000x128 (nodeLin (tr128 (V (Proc.devRef .tc main_arg10))) (V (Proc.devRef .tc main_arg11)) (Stages.pool (V (Proc.devRef .tc main_arg2)) (V (Proc.devRef .tc main_arg3)) (V (Proc.devRef .tc main_v18))) (V (Proc.devRef .tc main_v13))) := by
  after_results_simp <;> rfl
theorem pre1_s : after (pre1 (F := Ideal)) V (Proc.devRef .tc main_v38) = leakyScaled bcast_S_S100000x128 (nodeLin (tr128 (V (Proc.devRef .tc main_arg10))) (V (Proc.devRef .tc main_arg11)) (Stages.pool (V (Proc.devRef .tc main_arg2)) (V (Proc.devRef .tc main_arg3)) (V (Proc.devRef .tc main_v18))) (V (Proc.devRef .tc main_v13))) := by
  after_results_simp <;> rfl
theorem pre1_cH : HEq (after (pre1 (F := Ideal)) V (Proc.devRef .tc main_v36)) (leakyCond bcast_S_S100000x128 (nodeLin (tr128 (V (Proc.devRef .tc main_arg10))) (V (Proc.devRef .tc main_arg11)) (Stages.pool (V (Proc.devRef .tc main_arg2)) (V (Proc.devRef .tc main_arg3)) (V (Proc.devRef .tc main_v18))) (V (Proc.devRef .tc main_v13)))) :=
  heq_of_eq (pre1_c V)
/-- The selection's own operation, from the three arrays it chooses among. -/
theorem sel1 : (TRef.ternary (TRef.of (T := ⟨S100000x128, .i1⟩) main_v36) (TRef.of (T := ⟨S100000x128, .f32⟩) main_v34) (TRef.of (T := ⟨S100000x128, .f32⟩) main_v38) (TRef.of (T := ⟨S100000x128, .f32⟩) main_v39) select : HloOp τ sig (Elt Ideal)).result
      (after (pre1 (F := Ideal)) V) (Proc.devRef .tc main_v39) = msgRound (V (Proc.devRef .tc main_arg2)) (V (Proc.devRef .tc main_arg3)) (V (Proc.devRef .tc main_arg10)) (V (Proc.devRef .tc main_arg11)) (V (Proc.devRef .tc main_v13)) (V (Proc.devRef .tc main_v18)) :=
  TRef.ternary_result_eq (τ := τ) (Val := Elt Ideal) (TRef.of (T := ⟨S100000x128, .i1⟩) main_v36) (TRef.of (T := ⟨S100000x128, .f32⟩) main_v34) (TRef.of (T := ⟨S100000x128, .f32⟩) main_v38) (TRef.of (T := ⟨S100000x128, .f32⟩) main_v39) select
    (after (pre1 (F := Ideal)) V) (leakyCond bcast_S_S100000x128 (nodeLin (tr128 (V (Proc.devRef .tc main_arg10))) (V (Proc.devRef .tc main_arg11)) (Stages.pool (V (Proc.devRef .tc main_arg2)) (V (Proc.devRef .tc main_arg3)) (V (Proc.devRef .tc main_v18))) (V (Proc.devRef .tc main_v13)))) (nodeLin (tr128 (V (Proc.devRef .tc main_arg10))) (V (Proc.devRef .tc main_arg11)) (Stages.pool (V (Proc.devRef .tc main_arg2)) (V (Proc.devRef .tc main_arg3)) (V (Proc.devRef .tc main_v18))) (V (Proc.devRef .tc main_v13))) (leakyScaled bcast_S_S100000x128 (nodeLin (tr128 (V (Proc.devRef .tc main_arg10))) (V (Proc.devRef .tc main_arg11)) (Stages.pool (V (Proc.devRef .tc main_arg2)) (V (Proc.devRef .tc main_arg3)) (V (Proc.devRef .tc main_v18))) (V (Proc.devRef .tc main_v13)))) (msgRound (V (Proc.devRef .tc main_arg2)) (V (Proc.devRef .tc main_arg3)) (V (Proc.devRef .tc main_arg10)) (V (Proc.devRef .tc main_arg11)) (V (Proc.devRef .tc main_v13)) (V (Proc.devRef .tc main_v18)))
    (pre1_cH V) (heq_of_eq (pre1_Y V)) (heq_of_eq (pre1_s V)) (heq_of_eq rfl)
/-- After the selection the stage's buffer holds the stage. -/
theorem read1 : after (w1 (F := Ideal)) (after (pre1 (F := Ideal)) V) (Proc.devRef .tc main_v39) = msgRound (V (Proc.devRef .tc main_arg2)) (V (Proc.devRef .tc main_arg3)) (V (Proc.devRef .tc main_arg10)) (V (Proc.devRef .tc main_arg11)) (V (Proc.devRef .tc main_v13)) (V (Proc.devRef .tc main_v18)) :=
  sel1 V

/-! ### Stretch 2: the second round -/

theorem pre2_Y : after (pre2 (F := Ideal)) V (Proc.devRef .tc main_v55) = (nodeLin (tr128 (V (Proc.devRef .tc main_arg10))) (V (Proc.devRef .tc main_arg11)) (Stages.pool (V (Proc.devRef .tc main_arg2)) (V (Proc.devRef .tc main_arg3)) (V (Proc.devRef .tc main_v39))) (V (Proc.devRef .tc main_v13))) := by
  after_results_simp <;> rfl
theorem pre2_c : after (pre2 (F := Ideal)) V (Proc.devRef .tc main_v57) = leakyCond bcast_S_S100000x128 (nodeLin (tr128 (V (Proc.devRef .tc main_arg10))) (V (Proc.devRef .tc main_arg11)) (Stages.pool (V (Proc.devRef .tc main_arg2)) (V (Proc.devRef .tc main_arg3)) (V (Proc.devRef .tc main_v39))) (V (Proc.devRef .tc main_v13))) := by
  after_results_simp <;> rfl
theorem pre2_s : after (pre2 (F := Ideal)) V (Proc.devRef .tc main_v59) = leakyScaled bcast_S_S100000x128 (nodeLin (tr128 (V (Proc.devRef .tc main_arg10))) (V (Proc.devRef .tc main_arg11)) (Stages.pool (V (Proc.devRef .tc main_arg2)) (V (Proc.devRef .tc main_arg3)) (V (Proc.devRef .tc main_v39))) (V (Proc.devRef .tc main_v13))) := by
  after_results_simp <;> rfl
theorem pre2_cH : HEq (after (pre2 (F := Ideal)) V (Proc.devRef .tc main_v57)) (leakyCond bcast_S_S100000x128 (nodeLin (tr128 (V (Proc.devRef .tc main_arg10))) (V (Proc.devRef .tc main_arg11)) (Stages.pool (V (Proc.devRef .tc main_arg2)) (V (Proc.devRef .tc main_arg3)) (V (Proc.devRef .tc main_v39))) (V (Proc.devRef .tc main_v13)))) :=
  heq_of_eq (pre2_c V)
/-- The selection's own operation, from the three arrays it chooses among. -/
theorem sel2 : (TRef.ternary (TRef.of (T := ⟨S100000x128, .i1⟩) main_v57) (TRef.of (T := ⟨S100000x128, .f32⟩) main_v55) (TRef.of (T := ⟨S100000x128, .f32⟩) main_v59) (TRef.of (T := ⟨S100000x128, .f32⟩) main_v60) select : HloOp τ sig (Elt Ideal)).result
      (after (pre2 (F := Ideal)) V) (Proc.devRef .tc main_v60) = msgRound (V (Proc.devRef .tc main_arg2)) (V (Proc.devRef .tc main_arg3)) (V (Proc.devRef .tc main_arg10)) (V (Proc.devRef .tc main_arg11)) (V (Proc.devRef .tc main_v13)) (V (Proc.devRef .tc main_v39)) :=
  TRef.ternary_result_eq (τ := τ) (Val := Elt Ideal) (TRef.of (T := ⟨S100000x128, .i1⟩) main_v57) (TRef.of (T := ⟨S100000x128, .f32⟩) main_v55) (TRef.of (T := ⟨S100000x128, .f32⟩) main_v59) (TRef.of (T := ⟨S100000x128, .f32⟩) main_v60) select
    (after (pre2 (F := Ideal)) V) (leakyCond bcast_S_S100000x128 (nodeLin (tr128 (V (Proc.devRef .tc main_arg10))) (V (Proc.devRef .tc main_arg11)) (Stages.pool (V (Proc.devRef .tc main_arg2)) (V (Proc.devRef .tc main_arg3)) (V (Proc.devRef .tc main_v39))) (V (Proc.devRef .tc main_v13)))) (nodeLin (tr128 (V (Proc.devRef .tc main_arg10))) (V (Proc.devRef .tc main_arg11)) (Stages.pool (V (Proc.devRef .tc main_arg2)) (V (Proc.devRef .tc main_arg3)) (V (Proc.devRef .tc main_v39))) (V (Proc.devRef .tc main_v13))) (leakyScaled bcast_S_S100000x128 (nodeLin (tr128 (V (Proc.devRef .tc main_arg10))) (V (Proc.devRef .tc main_arg11)) (Stages.pool (V (Proc.devRef .tc main_arg2)) (V (Proc.devRef .tc main_arg3)) (V (Proc.devRef .tc main_v39))) (V (Proc.devRef .tc main_v13)))) (msgRound (V (Proc.devRef .tc main_arg2)) (V (Proc.devRef .tc main_arg3)) (V (Proc.devRef .tc main_arg10)) (V (Proc.devRef .tc main_arg11)) (V (Proc.devRef .tc main_v13)) (V (Proc.devRef .tc main_v39)))
    (pre2_cH V) (heq_of_eq (pre2_Y V)) (heq_of_eq (pre2_s V)) (heq_of_eq rfl)
/-- After the selection the stage's buffer holds the stage. -/
theorem read2 : after (w2 (F := Ideal)) (after (pre2 (F := Ideal)) V) (Proc.devRef .tc main_v60) = msgRound (V (Proc.devRef .tc main_arg2)) (V (Proc.devRef .tc main_arg3)) (V (Proc.devRef .tc main_arg10)) (V (Proc.devRef .tc main_arg11)) (V (Proc.devRef .tc main_v13)) (V (Proc.devRef .tc main_v39)) :=
  sel2 V

/-! ### Stretch 3: the third round -/

theorem pre3_Y : after (pre3 (F := Ideal)) V (Proc.devRef .tc main_v76) = (nodeLin (tr128 (V (Proc.devRef .tc main_arg10))) (V (Proc.devRef .tc main_arg11)) (Stages.pool (V (Proc.devRef .tc main_arg2)) (V (Proc.devRef .tc main_arg3)) (V (Proc.devRef .tc main_v60))) (V (Proc.devRef .tc main_v13))) := by
  after_results_simp <;> rfl
theorem pre3_c : after (pre3 (F := Ideal)) V (Proc.devRef .tc main_v78) = leakyCond bcast_S_S100000x128 (nodeLin (tr128 (V (Proc.devRef .tc main_arg10))) (V (Proc.devRef .tc main_arg11)) (Stages.pool (V (Proc.devRef .tc main_arg2)) (V (Proc.devRef .tc main_arg3)) (V (Proc.devRef .tc main_v60))) (V (Proc.devRef .tc main_v13))) := by
  after_results_simp <;> rfl
theorem pre3_s : after (pre3 (F := Ideal)) V (Proc.devRef .tc main_v80) = leakyScaled bcast_S_S100000x128 (nodeLin (tr128 (V (Proc.devRef .tc main_arg10))) (V (Proc.devRef .tc main_arg11)) (Stages.pool (V (Proc.devRef .tc main_arg2)) (V (Proc.devRef .tc main_arg3)) (V (Proc.devRef .tc main_v60))) (V (Proc.devRef .tc main_v13))) := by
  after_results_simp <;> rfl
theorem pre3_cH : HEq (after (pre3 (F := Ideal)) V (Proc.devRef .tc main_v78)) (leakyCond bcast_S_S100000x128 (nodeLin (tr128 (V (Proc.devRef .tc main_arg10))) (V (Proc.devRef .tc main_arg11)) (Stages.pool (V (Proc.devRef .tc main_arg2)) (V (Proc.devRef .tc main_arg3)) (V (Proc.devRef .tc main_v60))) (V (Proc.devRef .tc main_v13)))) :=
  heq_of_eq (pre3_c V)
/-- The selection's own operation, from the three arrays it chooses among. -/
theorem sel3 : (TRef.ternary (TRef.of (T := ⟨S100000x128, .i1⟩) main_v78) (TRef.of (T := ⟨S100000x128, .f32⟩) main_v76) (TRef.of (T := ⟨S100000x128, .f32⟩) main_v80) (TRef.of (T := ⟨S100000x128, .f32⟩) main_v81) select : HloOp τ sig (Elt Ideal)).result
      (after (pre3 (F := Ideal)) V) (Proc.devRef .tc main_v81) = msgRound (V (Proc.devRef .tc main_arg2)) (V (Proc.devRef .tc main_arg3)) (V (Proc.devRef .tc main_arg10)) (V (Proc.devRef .tc main_arg11)) (V (Proc.devRef .tc main_v13)) (V (Proc.devRef .tc main_v60)) :=
  TRef.ternary_result_eq (τ := τ) (Val := Elt Ideal) (TRef.of (T := ⟨S100000x128, .i1⟩) main_v78) (TRef.of (T := ⟨S100000x128, .f32⟩) main_v76) (TRef.of (T := ⟨S100000x128, .f32⟩) main_v80) (TRef.of (T := ⟨S100000x128, .f32⟩) main_v81) select
    (after (pre3 (F := Ideal)) V) (leakyCond bcast_S_S100000x128 (nodeLin (tr128 (V (Proc.devRef .tc main_arg10))) (V (Proc.devRef .tc main_arg11)) (Stages.pool (V (Proc.devRef .tc main_arg2)) (V (Proc.devRef .tc main_arg3)) (V (Proc.devRef .tc main_v60))) (V (Proc.devRef .tc main_v13)))) (nodeLin (tr128 (V (Proc.devRef .tc main_arg10))) (V (Proc.devRef .tc main_arg11)) (Stages.pool (V (Proc.devRef .tc main_arg2)) (V (Proc.devRef .tc main_arg3)) (V (Proc.devRef .tc main_v60))) (V (Proc.devRef .tc main_v13))) (leakyScaled bcast_S_S100000x128 (nodeLin (tr128 (V (Proc.devRef .tc main_arg10))) (V (Proc.devRef .tc main_arg11)) (Stages.pool (V (Proc.devRef .tc main_arg2)) (V (Proc.devRef .tc main_arg3)) (V (Proc.devRef .tc main_v60))) (V (Proc.devRef .tc main_v13)))) (msgRound (V (Proc.devRef .tc main_arg2)) (V (Proc.devRef .tc main_arg3)) (V (Proc.devRef .tc main_arg10)) (V (Proc.devRef .tc main_arg11)) (V (Proc.devRef .tc main_v13)) (V (Proc.devRef .tc main_v60)))
    (pre3_cH V) (heq_of_eq (pre3_Y V)) (heq_of_eq (pre3_s V)) (heq_of_eq rfl)
/-- After the selection the stage's buffer holds the stage. -/
theorem read3 : after (w3 (F := Ideal)) (after (pre3 (F := Ideal)) V) (Proc.devRef .tc main_v81) = msgRound (V (Proc.devRef .tc main_arg2)) (V (Proc.devRef .tc main_arg3)) (V (Proc.devRef .tc main_arg10)) (V (Proc.devRef .tc main_arg11)) (V (Proc.devRef .tc main_v13)) (V (Proc.devRef .tc main_v60)) :=
  sel3 V

/-! ### Stretch 4: the output layer -/

theorem pre4_Y : after (pre4 (F := Ideal)) V (Proc.devRef .tc main_v86) = (outLin (tr128 (V (Proc.devRef .tc main_arg12))) (V (Proc.devRef .tc main_arg13)) (V (Proc.devRef .tc main_v81))) := by
  after_results_simp <;> rfl
theorem pre4_c : after (pre4 (F := Ideal)) V (Proc.devRef .tc main_v88) = leakyCond bcast_S_S100000x128 (outLin (tr128 (V (Proc.devRef .tc main_arg12))) (V (Proc.devRef .tc main_arg13)) (V (Proc.devRef .tc main_v81))) := by
  after_results_simp <;> rfl
theorem pre4_s : after (pre4 (F := Ideal)) V (Proc.devRef .tc main_v90) = leakyScaled bcast_S_S100000x128 (outLin (tr128 (V (Proc.devRef .tc main_arg12))) (V (Proc.devRef .tc main_arg13)) (V (Proc.devRef .tc main_v81))) := by
  after_results_simp <;> rfl
theorem pre4_cH : HEq (after (pre4 (F := Ideal)) V (Proc.devRef .tc main_v88)) (leakyCond bcast_S_S100000x128 (outLin (tr128 (V (Proc.devRef .tc main_arg12))) (V (Proc.devRef .tc main_arg13)) (V (Proc.devRef .tc main_v81)))) :=
  heq_of_eq (pre4_c V)
/-- The selection's own operation, from the three arrays it chooses among. -/
theorem sel4 : (TRef.ternary (TRef.of (T := ⟨S100000x128, .i1⟩) main_v88) (TRef.of (T := ⟨S100000x128, .f32⟩) main_v86) (TRef.of (T := ⟨S100000x128, .f32⟩) main_v90) (TRef.of (T := ⟨S100000x128, .f32⟩) main_v91) select : HloOp τ sig (Elt Ideal)).result
      (after (pre4 (F := Ideal)) V) (Proc.devRef .tc main_v91) = outLayer (tr128 (V (Proc.devRef .tc main_arg12))) (V (Proc.devRef .tc main_arg13)) (V (Proc.devRef .tc main_v81)) :=
  TRef.ternary_result_eq (τ := τ) (Val := Elt Ideal) (TRef.of (T := ⟨S100000x128, .i1⟩) main_v88) (TRef.of (T := ⟨S100000x128, .f32⟩) main_v86) (TRef.of (T := ⟨S100000x128, .f32⟩) main_v90) (TRef.of (T := ⟨S100000x128, .f32⟩) main_v91) select
    (after (pre4 (F := Ideal)) V) (leakyCond bcast_S_S100000x128 (outLin (tr128 (V (Proc.devRef .tc main_arg12))) (V (Proc.devRef .tc main_arg13)) (V (Proc.devRef .tc main_v81)))) (outLin (tr128 (V (Proc.devRef .tc main_arg12))) (V (Proc.devRef .tc main_arg13)) (V (Proc.devRef .tc main_v81))) (leakyScaled bcast_S_S100000x128 (outLin (tr128 (V (Proc.devRef .tc main_arg12))) (V (Proc.devRef .tc main_arg13)) (V (Proc.devRef .tc main_v81)))) (outLayer (tr128 (V (Proc.devRef .tc main_arg12))) (V (Proc.devRef .tc main_arg13)) (V (Proc.devRef .tc main_v81)))
    (pre4_cH V) (heq_of_eq (pre4_Y V)) (heq_of_eq (pre4_s V)) (heq_of_eq rfl)
/-- After the selection the stage's buffer holds the stage. -/
theorem read4 : after (w4 (F := Ideal)) (after (pre4 (F := Ideal)) V) (Proc.devRef .tc main_v91) = outLayer (tr128 (V (Proc.devRef .tc main_arg12))) (V (Proc.devRef .tc main_arg13)) (V (Proc.devRef .tc main_v81)) :=
  sel4 V

/-! ### Stretch 5: the sum per graph -/

theorem pre5_Y : after (pre5 (F := Ideal)) V (Proc.devRef .tc main_v94) = (sumPerGraph (V (Proc.devRef .tc main_arg5)) (V (Proc.devRef .tc main_v91))) := by
  after_results_simp <;> rfl
theorem pre5_c : after (pre5 (F := Ideal)) V (Proc.devRef .tc main_v96) = leakyCond bcast_S_S64x128 (sumPerGraph (V (Proc.devRef .tc main_arg5)) (V (Proc.devRef .tc main_v91))) := by
  after_results_simp <;> rfl
theorem pre5_s : after (pre5 (F := Ideal)) V (Proc.devRef .tc main_v98) = leakyScaled bcast_S_S64x128 (sumPerGraph (V (Proc.devRef .tc main_arg5)) (V (Proc.devRef .tc main_v91))) := by
  after_results_simp <;> rfl
theorem pre5_cH : HEq (after (pre5 (F := Ideal)) V (Proc.devRef .tc main_v96)) (leakyCond bcast_S_S64x128 (sumPerGraph (V (Proc.devRef .tc main_arg5)) (V (Proc.devRef .tc main_v91)))) :=
  heq_of_eq (pre5_c V)
/-- The selection's own operation, from the three arrays it chooses among. -/
theorem sel5 : (TRef.ternary (TRef.of (T := ⟨S64x128, .i1⟩) main_v96) (TRef.of (T := ⟨S64x128, .f32⟩) main_v94) (TRef.of (T := ⟨S64x128, .f32⟩) main_v98) (TRef.of (T := ⟨S64x128, .f32⟩) main_v99) select : HloOp τ sig (Elt Ideal)).result
      (after (pre5 (F := Ideal)) V) (Proc.devRef .tc main_v99) = readout (V (Proc.devRef .tc main_arg5)) (V (Proc.devRef .tc main_v91)) :=
  TRef.ternary_result_eq (τ := τ) (Val := Elt Ideal) (TRef.of (T := ⟨S64x128, .i1⟩) main_v96) (TRef.of (T := ⟨S64x128, .f32⟩) main_v94) (TRef.of (T := ⟨S64x128, .f32⟩) main_v98) (TRef.of (T := ⟨S64x128, .f32⟩) main_v99) select
    (after (pre5 (F := Ideal)) V) (leakyCond bcast_S_S64x128 (sumPerGraph (V (Proc.devRef .tc main_arg5)) (V (Proc.devRef .tc main_v91)))) (sumPerGraph (V (Proc.devRef .tc main_arg5)) (V (Proc.devRef .tc main_v91))) (leakyScaled bcast_S_S64x128 (sumPerGraph (V (Proc.devRef .tc main_arg5)) (V (Proc.devRef .tc main_v91)))) (readout (V (Proc.devRef .tc main_arg5)) (V (Proc.devRef .tc main_v91)))
    (pre5_cH V) (heq_of_eq (pre5_Y V)) (heq_of_eq (pre5_s V)) (heq_of_eq rfl)
/-- After the selection the stage's buffer holds the stage. -/
theorem read5 : after (w5 (F := Ideal)) (after (pre5 (F := Ideal)) V) (Proc.devRef .tc main_v99) = readout (V (Proc.devRef .tc main_arg5)) (V (Proc.devRef .tc main_v91)) :=
  sel5 V

/-- The input message's own buffer is left alone by the selection that follows it. -/
theorem im0 : after (w0 (F := Ideal)) (after (pre0 (F := Ideal)) V) (Proc.devRef .tc main_v13) = (inputMsg (V (Proc.devRef .tc main_arg0)) (V (Proc.devRef .tc main_arg1)) (V (Proc.devRef .tc main_arg4)) (V (Proc.devRef .tc main_arg6)) (V (Proc.devRef .tc main_arg7)) (V (Proc.devRef .tc main_arg8)) (V (Proc.devRef .tc main_arg9))) := by
  refine (after_of_forall_not_mem _ _ (List.forall_iff_forall_mem.mp ?_)).trans (pre0_Y V)
  not_written

/-! ## What each stage leaves alone -/

theorem keep0_arg2 : after (w0 (F := Ideal)) (after (pre0 (F := Ideal)) V) (Proc.devRef .tc main_arg2) = V (Proc.devRef .tc main_arg2) := by
  refine (after_of_forall_not_mem _ _ (List.forall_iff_forall_mem.mp ?_)).trans (after_of_forall_not_mem _ _ (List.forall_iff_forall_mem.mp ?_)) <;> not_written
theorem keep0_arg3 : after (w0 (F := Ideal)) (after (pre0 (F := Ideal)) V) (Proc.devRef .tc main_arg3) = V (Proc.devRef .tc main_arg3) := by
  refine (after_of_forall_not_mem _ _ (List.forall_iff_forall_mem.mp ?_)).trans (after_of_forall_not_mem _ _ (List.forall_iff_forall_mem.mp ?_)) <;> not_written
theorem keep0_arg5 : after (w0 (F := Ideal)) (after (pre0 (F := Ideal)) V) (Proc.devRef .tc main_arg5) = V (Proc.devRef .tc main_arg5) := by
  refine (after_of_forall_not_mem _ _ (List.forall_iff_forall_mem.mp ?_)).trans (after_of_forall_not_mem _ _ (List.forall_iff_forall_mem.mp ?_)) <;> not_written
theorem keep0_arg10 : after (w0 (F := Ideal)) (after (pre0 (F := Ideal)) V) (Proc.devRef .tc main_arg10) = V (Proc.devRef .tc main_arg10) := by
  refine (after_of_forall_not_mem _ _ (List.forall_iff_forall_mem.mp ?_)).trans (after_of_forall_not_mem _ _ (List.forall_iff_forall_mem.mp ?_)) <;> not_written
theorem keep0_arg11 : after (w0 (F := Ideal)) (after (pre0 (F := Ideal)) V) (Proc.devRef .tc main_arg11) = V (Proc.devRef .tc main_arg11) := by
  refine (after_of_forall_not_mem _ _ (List.forall_iff_forall_mem.mp ?_)).trans (after_of_forall_not_mem _ _ (List.forall_iff_forall_mem.mp ?_)) <;> not_written
theorem keep0_arg12 : after (w0 (F := Ideal)) (after (pre0 (F := Ideal)) V) (Proc.devRef .tc main_arg12) = V (Proc.devRef .tc main_arg12) := by
  refine (after_of_forall_not_mem _ _ (List.forall_iff_forall_mem.mp ?_)).trans (after_of_forall_not_mem _ _ (List.forall_iff_forall_mem.mp ?_)) <;> not_written
theorem keep0_arg13 : after (w0 (F := Ideal)) (after (pre0 (F := Ideal)) V) (Proc.devRef .tc main_arg13) = V (Proc.devRef .tc main_arg13) := by
  refine (after_of_forall_not_mem _ _ (List.forall_iff_forall_mem.mp ?_)).trans (after_of_forall_not_mem _ _ (List.forall_iff_forall_mem.mp ?_)) <;> not_written
theorem keep1_arg2 : after (w1 (F := Ideal)) (after (pre1 (F := Ideal)) V) (Proc.devRef .tc main_arg2) = V (Proc.devRef .tc main_arg2) := by
  refine (after_of_forall_not_mem _ _ (List.forall_iff_forall_mem.mp ?_)).trans (after_of_forall_not_mem _ _ (List.forall_iff_forall_mem.mp ?_)) <;> not_written
theorem keep1_arg3 : after (w1 (F := Ideal)) (after (pre1 (F := Ideal)) V) (Proc.devRef .tc main_arg3) = V (Proc.devRef .tc main_arg3) := by
  refine (after_of_forall_not_mem _ _ (List.forall_iff_forall_mem.mp ?_)).trans (after_of_forall_not_mem _ _ (List.forall_iff_forall_mem.mp ?_)) <;> not_written
theorem keep1_arg5 : after (w1 (F := Ideal)) (after (pre1 (F := Ideal)) V) (Proc.devRef .tc main_arg5) = V (Proc.devRef .tc main_arg5) := by
  refine (after_of_forall_not_mem _ _ (List.forall_iff_forall_mem.mp ?_)).trans (after_of_forall_not_mem _ _ (List.forall_iff_forall_mem.mp ?_)) <;> not_written
theorem keep1_arg10 : after (w1 (F := Ideal)) (after (pre1 (F := Ideal)) V) (Proc.devRef .tc main_arg10) = V (Proc.devRef .tc main_arg10) := by
  refine (after_of_forall_not_mem _ _ (List.forall_iff_forall_mem.mp ?_)).trans (after_of_forall_not_mem _ _ (List.forall_iff_forall_mem.mp ?_)) <;> not_written
theorem keep1_arg11 : after (w1 (F := Ideal)) (after (pre1 (F := Ideal)) V) (Proc.devRef .tc main_arg11) = V (Proc.devRef .tc main_arg11) := by
  refine (after_of_forall_not_mem _ _ (List.forall_iff_forall_mem.mp ?_)).trans (after_of_forall_not_mem _ _ (List.forall_iff_forall_mem.mp ?_)) <;> not_written
theorem keep1_arg12 : after (w1 (F := Ideal)) (after (pre1 (F := Ideal)) V) (Proc.devRef .tc main_arg12) = V (Proc.devRef .tc main_arg12) := by
  refine (after_of_forall_not_mem _ _ (List.forall_iff_forall_mem.mp ?_)).trans (after_of_forall_not_mem _ _ (List.forall_iff_forall_mem.mp ?_)) <;> not_written
theorem keep1_arg13 : after (w1 (F := Ideal)) (after (pre1 (F := Ideal)) V) (Proc.devRef .tc main_arg13) = V (Proc.devRef .tc main_arg13) := by
  refine (after_of_forall_not_mem _ _ (List.forall_iff_forall_mem.mp ?_)).trans (after_of_forall_not_mem _ _ (List.forall_iff_forall_mem.mp ?_)) <;> not_written
theorem keep1_v13 : after (w1 (F := Ideal)) (after (pre1 (F := Ideal)) V) (Proc.devRef .tc main_v13) = V (Proc.devRef .tc main_v13) := by
  refine (after_of_forall_not_mem _ _ (List.forall_iff_forall_mem.mp ?_)).trans (after_of_forall_not_mem _ _ (List.forall_iff_forall_mem.mp ?_)) <;> not_written
theorem keep2_arg2 : after (w2 (F := Ideal)) (after (pre2 (F := Ideal)) V) (Proc.devRef .tc main_arg2) = V (Proc.devRef .tc main_arg2) := by
  refine (after_of_forall_not_mem _ _ (List.forall_iff_forall_mem.mp ?_)).trans (after_of_forall_not_mem _ _ (List.forall_iff_forall_mem.mp ?_)) <;> not_written
theorem keep2_arg3 : after (w2 (F := Ideal)) (after (pre2 (F := Ideal)) V) (Proc.devRef .tc main_arg3) = V (Proc.devRef .tc main_arg3) := by
  refine (after_of_forall_not_mem _ _ (List.forall_iff_forall_mem.mp ?_)).trans (after_of_forall_not_mem _ _ (List.forall_iff_forall_mem.mp ?_)) <;> not_written
theorem keep2_arg5 : after (w2 (F := Ideal)) (after (pre2 (F := Ideal)) V) (Proc.devRef .tc main_arg5) = V (Proc.devRef .tc main_arg5) := by
  refine (after_of_forall_not_mem _ _ (List.forall_iff_forall_mem.mp ?_)).trans (after_of_forall_not_mem _ _ (List.forall_iff_forall_mem.mp ?_)) <;> not_written
theorem keep2_arg10 : after (w2 (F := Ideal)) (after (pre2 (F := Ideal)) V) (Proc.devRef .tc main_arg10) = V (Proc.devRef .tc main_arg10) := by
  refine (after_of_forall_not_mem _ _ (List.forall_iff_forall_mem.mp ?_)).trans (after_of_forall_not_mem _ _ (List.forall_iff_forall_mem.mp ?_)) <;> not_written
theorem keep2_arg11 : after (w2 (F := Ideal)) (after (pre2 (F := Ideal)) V) (Proc.devRef .tc main_arg11) = V (Proc.devRef .tc main_arg11) := by
  refine (after_of_forall_not_mem _ _ (List.forall_iff_forall_mem.mp ?_)).trans (after_of_forall_not_mem _ _ (List.forall_iff_forall_mem.mp ?_)) <;> not_written
theorem keep2_arg12 : after (w2 (F := Ideal)) (after (pre2 (F := Ideal)) V) (Proc.devRef .tc main_arg12) = V (Proc.devRef .tc main_arg12) := by
  refine (after_of_forall_not_mem _ _ (List.forall_iff_forall_mem.mp ?_)).trans (after_of_forall_not_mem _ _ (List.forall_iff_forall_mem.mp ?_)) <;> not_written
theorem keep2_arg13 : after (w2 (F := Ideal)) (after (pre2 (F := Ideal)) V) (Proc.devRef .tc main_arg13) = V (Proc.devRef .tc main_arg13) := by
  refine (after_of_forall_not_mem _ _ (List.forall_iff_forall_mem.mp ?_)).trans (after_of_forall_not_mem _ _ (List.forall_iff_forall_mem.mp ?_)) <;> not_written
theorem keep2_v13 : after (w2 (F := Ideal)) (after (pre2 (F := Ideal)) V) (Proc.devRef .tc main_v13) = V (Proc.devRef .tc main_v13) := by
  refine (after_of_forall_not_mem _ _ (List.forall_iff_forall_mem.mp ?_)).trans (after_of_forall_not_mem _ _ (List.forall_iff_forall_mem.mp ?_)) <;> not_written
theorem keep3_arg5 : after (w3 (F := Ideal)) (after (pre3 (F := Ideal)) V) (Proc.devRef .tc main_arg5) = V (Proc.devRef .tc main_arg5) := by
  refine (after_of_forall_not_mem _ _ (List.forall_iff_forall_mem.mp ?_)).trans (after_of_forall_not_mem _ _ (List.forall_iff_forall_mem.mp ?_)) <;> not_written
theorem keep3_arg12 : after (w3 (F := Ideal)) (after (pre3 (F := Ideal)) V) (Proc.devRef .tc main_arg12) = V (Proc.devRef .tc main_arg12) := by
  refine (after_of_forall_not_mem _ _ (List.forall_iff_forall_mem.mp ?_)).trans (after_of_forall_not_mem _ _ (List.forall_iff_forall_mem.mp ?_)) <;> not_written
theorem keep3_arg13 : after (w3 (F := Ideal)) (after (pre3 (F := Ideal)) V) (Proc.devRef .tc main_arg13) = V (Proc.devRef .tc main_arg13) := by
  refine (after_of_forall_not_mem _ _ (List.forall_iff_forall_mem.mp ?_)).trans (after_of_forall_not_mem _ _ (List.forall_iff_forall_mem.mp ?_)) <;> not_written
theorem keep4_arg5 : after (w4 (F := Ideal)) (after (pre4 (F := Ideal)) V) (Proc.devRef .tc main_arg5) = V (Proc.devRef .tc main_arg5) := by
  refine (after_of_forall_not_mem _ _ (List.forall_iff_forall_mem.mp ?_)).trans (after_of_forall_not_mem _ _ (List.forall_iff_forall_mem.mp ?_)) <;> not_written

/-! ## The whole line -/

/-- After the whole line the result buffer holds the network of the launch contents of the arguments. -/
theorem result_eq : after (ops (F := Ideal)) V (Proc.devRef .tc main_v99)
    = network (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [after_ops]
  rw [read5, keep4_arg5, read4]
  rw [keep3_arg5, keep3_arg12, keep3_arg13, read3]
  rw [keep2_arg5, keep2_arg12, keep2_arg13, keep2_arg2, keep2_arg3, keep2_arg10, keep2_arg11, keep2_v13, read2]
  rw [keep1_arg5, keep1_arg12, keep1_arg13, keep1_arg2, keep1_arg3, keep1_arg10, keep1_arg11, keep1_v13, read1]
  rw [keep0_arg5, keep0_arg12, keep0_arg13, keep0_arg2, keep0_arg3, keep0_arg10, keep0_arg11, im0, read0]
  rfl

end Cert.ReferenceIdeal.Fold

end
-- ==== Proof.RefFrame.lean ====
/-
  The reference leaves its arguments alone.

  No operation of the reference writes an argument buffer: each writes the one buffer of the value it defines.  So after
  the whole line every argument buffer holds its launch contents.
-/
import proofs.«127585_j36051955483067_1_alg».proof.Proof.RefOps

set_option maxRecDepth 16384
set_option maxHeartbeats 1000000

noncomputable section

namespace Cert.ReferenceIdeal.Fold

open Cert.ReferenceIdeal Cert.ReferenceIdeal.Gen Idealize.ShloMosaic Idealize.ShloMosaic.TcCoe Idealize.SL.Sem Idealize.ShloMosaic.StableHlo

variable {F : FTy → Type} [FloatOps F]

/-- No operation of a literal stretch writes the buffer in question: one inequality of references per operation. -/
macro "unwritten" : tactic => `(tactic| (
  simp only [List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

variable (V : Valuation τ sig (Elt F))

theorem kept_arg0 : after (ops (F := F)) V (Proc.devRef .tc main_arg0) = V (Proc.devRef .tc main_arg0) :=
  after_of_forall_not_mem _ V (forall_ops (p := fun op => (Proc.devRef .tc main_arg0 : DevRef τ sig) ∉ op.writes)
    (by unwritten) (by unwritten) (by unwritten) (by unwritten) (by unwritten) (by unwritten) (by unwritten) (by unwritten) (by unwritten) (by unwritten) (by unwritten) (by unwritten))
theorem kept_arg1 : after (ops (F := F)) V (Proc.devRef .tc main_arg1) = V (Proc.devRef .tc main_arg1) :=
  after_of_forall_not_mem _ V (forall_ops (p := fun op => (Proc.devRef .tc main_arg1 : DevRef τ sig) ∉ op.writes)
    (by unwritten) (by unwritten) (by unwritten) (by unwritten) (by unwritten) (by unwritten) (by unwritten) (by unwritten) (by unwritten) (by unwritten) (by unwritten) (by unwritten))
theorem kept_arg2 : after (ops (F := F)) V (Proc.devRef .tc main_arg2) = V (Proc.devRef .tc main_arg2) :=
  after_of_forall_not_mem _ V (forall_ops (p := fun op => (Proc.devRef .tc main_arg2 : DevRef τ sig) ∉ op.writes)
    (by unwritten) (by unwritten) (by unwritten) (by unwritten) (by unwritten) (by unwritten) (by unwritten) (by unwritten) (by unwritten) (by unwritten) (by unwritten) (by unwritten))
theorem kept_arg3 : after (ops (F := F)) V (Proc.devRef .tc main_arg3) = V (Proc.devRef .tc main_arg3) :=
  after_of_forall_not_mem _ V (forall_ops (p := fun op => (Proc.devRef .tc main_arg3 : DevRef τ sig) ∉ op.writes)
    (by unwritten) (by unwritten) (by unwritten) (by unwritten) (by unwritten) (by unwritten) (by unwritten) (by unwritten) (by unwritten) (by unwritten) (by unwritten) (by unwritten))
theorem kept_arg4 : after (ops (F := F)) V (Proc.devRef .tc main_arg4) = V (Proc.devRef .tc main_arg4) :=
  after_of_forall_not_mem _ V (forall_ops (p := fun op => (Proc.devRef .tc main_arg4 : DevRef τ sig) ∉ op.writes)
    (by unwritten) (by unwritten) (by unwritten) (by unwritten) (by unwritten) (by unwritten) (by unwritten) (by unwritten) (by unwritten) (by unwritten) (by unwritten) (by unwritten))
theorem kept_arg5 : after (ops (F := F)) V (Proc.devRef .tc main_arg5) = V (Proc.devRef .tc main_arg5) :=
  after_of_forall_not_mem _ V (forall_ops (p := fun op => (Proc.devRef .tc main_arg5 : DevRef τ sig) ∉ op.writes)
    (by unwritten) (by unwritten) (by unwritten) (by unwritten) (by unwritten) (by unwritten) (by unwritten) (by unwritten) (by unwritten) (by unwritten) (by unwritten) (by unwritten))
theorem kept_arg6 : after (ops (F := F)) V (Proc.devRef .tc main_arg6) = V (Proc.devRef .tc main_arg6) :=
  after_of_forall_not_mem _ V (forall_ops (p := fun op => (Proc.devRef .tc main_arg6 : DevRef τ sig) ∉ op.writes)
    (by unwritten) (by unwritten) (by unwritten) (by unwritten) (by unwritten) (by unwritten) (by unwritten) (by unwritten) (by unwritten) (by unwritten) (by unwritten) (by unwritten))
theorem kept_arg7 : after (ops (F := F)) V (Proc.devRef .tc main_arg7) = V (Proc.devRef .tc main_arg7) :=
  after_of_forall_not_mem _ V (forall_ops (p := fun op => (Proc.devRef .tc main_arg7 : DevRef τ sig) ∉ op.writes)
    (by unwritten) (by unwritten) (by unwritten) (by unwritten) (by unwritten) (by unwritten) (by unwritten) (by unwritten) (by unwritten) (by unwritten) (by unwritten) (by unwritten))
theorem kept_arg8 : after (ops (F := F)) V (Proc.devRef .tc main_arg8) = V (Proc.devRef .tc main_arg8) :=
  after_of_forall_not_mem _ V (forall_ops (p := fun op => (Proc.devRef .tc main_arg8 : DevRef τ sig) ∉ op.writes)
    (by unwritten) (by unwritten) (by unwritten) (by unwritten) (by unwritten) (by unwritten) (by unwritten) (by unwritten) (by unwritten) (by unwritten) (by unwritten) (by unwritten))
theorem kept_arg9 : after (ops (F := F)) V (Proc.devRef .tc main_arg9) = V (Proc.devRef .tc main_arg9) :=
  after_of_forall_not_mem _ V (forall_ops (p := fun op => (Proc.devRef .tc main_arg9 : DevRef τ sig) ∉ op.writes)
    (by unwritten) (by unwritten) (by unwritten) (by unwritten) (by unwritten) (by unwritten) (by unwritten) (by unwritten) (by unwritten) (by unwritten) (by unwritten) (by unwritten))
theorem kept_arg10 : after (ops (F := F)) V (Proc.devRef .tc main_arg10) = V (Proc.devRef .tc main_arg10) :=
  after_of_forall_not_mem _ V (forall_ops (p := fun op => (Proc.devRef .tc main_arg10 : DevRef τ sig) ∉ op.writes)
    (by unwritten) (by unwritten) (by unwritten) (by unwritten) (by unwritten) (by unwritten) (by unwritten) (by unwritten) (by unwritten) (by unwritten) (by unwritten) (by unwritten))
theorem kept_arg11 : after (ops (F := F)) V (Proc.devRef .tc main_arg11) = V (Proc.devRef .tc main_arg11) :=
  after_of_forall_not_mem _ V (forall_ops (p := fun op => (Proc.devRef .tc main_arg11 : DevRef τ sig) ∉ op.writes)
    (by unwritten) (by unwritten) (by unwritten) (by unwritten) (by unwritten) (by unwritten) (by unwritten) (by unwritten) (by unwritten) (by unwritten) (by unwritten) (by unwritten))
theorem kept_arg12 : after (ops (F := F)) V (Proc.devRef .tc main_arg12) = V (Proc.devRef .tc main_arg12) :=
  after_of_forall_not_mem _ V (forall_ops (p := fun op => (Proc.devRef .tc main_arg12 : DevRef τ sig) ∉ op.writes)
    (by unwritten) (by unwritten) (by unwritten) (by unwritten) (by unwritten) (by unwritten) (by unwritten) (by unwritten) (by unwritten) (by unwritten) (by unwritten) (by unwritten))
theorem kept_arg13 : after (ops (F := F)) V (Proc.devRef .tc main_arg13) = V (Proc.devRef .tc main_arg13) :=
  after_of_forall_not_mem _ V (forall_ops (p := fun op => (Proc.devRef .tc main_arg13 : DevRef τ sig) ∉ op.writes)
    (by unwritten) (by unwritten) (by unwritten) (by unwritten) (by unwritten) (by unwritten) (by unwritten) (by unwritten) (by unwritten) (by unwritten) (by unwritten) (by unwritten))

end Cert.ReferenceIdeal.Fold

end
-- ==== Proof.lean ====
/-
  The kernel and its reference compute the same network.

  The kernel runs a message-passing network over a graph as six launches among host operations: a launch for the edge
  layer, one for the input message and its selection, one for the dense step of each of three rounds, one for the output
  layer; the sums along the edges, the gathers and the sum per graph are host operations between them.  The reference
  computes the same stages entirely on the host.  At the ideal instance a change of float format is the identity and a
  product accumulated block by block into a zero array is the host's general product, so every launch's output array
  is the reference's stage of the same operands; the host operations between the launches are the reference's own,
  operand for operand.  Hence both programs, run from memories agreeing on the arguments, leave the same array in
  their result buffers, and neither writes an argument.  The idealization rewrote nothing, so there is nothing to preserve.
-/
import proofs.«127585_j36051955483067_1_alg».proof.Defs
import proofs.«127585_j36051955483067_1_alg».proof.Proof.Gen.Kernel
import proofs.«127585_j36051955483067_1_alg».proof.Proof.Gen.Kernel.Skeleton
import proofs.«127585_j36051955483067_1_alg».proof.Proof.Gen.Kernel.Launch
import proofs.«127585_j36051955483067_1_alg».proof.Proof.Gen.Kernel.Points
import proofs.«127585_j36051955483067_1_alg».proof.Proof.Gen.Kernel.Frame
import proofs.«127585_j36051955483067_1_alg».proof.Proof.Gen.KernelIdeal
import proofs.«127585_j36051955483067_1_alg».proof.Proof.Gen.KernelIdeal.Skeleton
import proofs.«127585_j36051955483067_1_alg».proof.Proof.Gen.KernelIdeal.Launch
import proofs.«127585_j36051955483067_1_alg».proof.Proof.Gen.KernelIdeal.Points
import proofs.«127585_j36051955483067_1_alg».proof.Proof.Gen.KernelIdeal.Frame
import proofs.«127585_j36051955483067_1_alg».proof.Proof.Gen.ReferenceIdeal
import proofs.«127585_j36051955483067_1_alg».proof.Proof.Gen.Pre_finite_inputs
import proofs.«127585_j36051955483067_1_alg».proof.Proof.KernelRun
import proofs.«127585_j36051955483067_1_alg».proof.Proof.KerRead
import proofs.«127585_j36051955483067_1_alg».proof.Proof.RefRead
import proofs.«127585_j36051955483067_1_alg».proof.Proof.RefFrame
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs, and leaves its arguments alone. -/
theorem frame_kernel : Cert.frame_Kernel (hKernel := Cert.Kernel.Gen.facts) (hPre_finite_inputs := Cert.Pre_finite_inputs.Gen.facts) :=
  fun m ρ _ => Cert.Kernel.Gen.frame m ρ

/-- The idealized kernel runs, and leaves its arguments alone. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs, and leaves its arguments alone: its run, the result forgotten. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun r h c =>
    ⟨(h c Cert.ReferenceIdeal.main_arg0).trans (Cert.ReferenceIdeal.Fold.kept_arg0 (StableHlo.launchContents m c)),
     (h c Cert.ReferenceIdeal.main_arg1).trans (Cert.ReferenceIdeal.Fold.kept_arg1 (StableHlo.launchContents m c)),
     (h c Cert.ReferenceIdeal.main_arg2).trans (Cert.ReferenceIdeal.Fold.kept_arg2 (StableHlo.launchContents m c)),
     (h c Cert.ReferenceIdeal.main_arg3).trans (Cert.ReferenceIdeal.Fold.kept_arg3 (StableHlo.launchContents m c)),
     (h c Cert.ReferenceIdeal.main_arg4).trans (Cert.ReferenceIdeal.Fold.kept_arg4 (StableHlo.launchContents m c)),
     (h c Cert.ReferenceIdeal.main_arg5).trans (Cert.ReferenceIdeal.Fold.kept_arg5 (StableHlo.launchContents m c)),
     (h c Cert.ReferenceIdeal.main_arg6).trans (Cert.ReferenceIdeal.Fold.kept_arg6 (StableHlo.launchContents m c)),
     (h c Cert.ReferenceIdeal.main_arg7).trans (Cert.ReferenceIdeal.Fold.kept_arg7 (StableHlo.launchContents m c)),
     (h c Cert.ReferenceIdeal.main_arg8).trans (Cert.ReferenceIdeal.Fold.kept_arg8 (StableHlo.launchContents m c)),
     (h c Cert.ReferenceIdeal.main_arg9).trans (Cert.ReferenceIdeal.Fold.kept_arg9 (StableHlo.launchContents m c)),
     (h c Cert.ReferenceIdeal.main_arg10).trans (Cert.ReferenceIdeal.Fold.kept_arg10 (StableHlo.launchContents m c)),
     (h c Cert.ReferenceIdeal.main_arg11).trans (Cert.ReferenceIdeal.Fold.kept_arg11 (StableHlo.launchContents m c)),
     (h c Cert.ReferenceIdeal.main_arg12).trans (Cert.ReferenceIdeal.Fold.kept_arg12 (StableHlo.launchContents m c)),
     (h c Cert.ReferenceIdeal.main_arg13).trans (Cert.ReferenceIdeal.Fold.kept_arg13 (StableHlo.launchContents m c))⟩)
    (Cert.ReferenceIdeal.Fold.run_fold (F := Ideal) m ρ)

/-- The two idealized programs, from memories agreeing on the arguments, end with the same result array: the network of
    the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W13 m ρ c (Proc.devRef .tc Cert.KernelIdeal.main_v54), Cert.KernelIdeal.Result.run_result m ρ, ?_⟩
  refine (θ_run Cert.ReferenceIdeal.defs _ _).mono (fun r h c => ⟨?_,
     (h c Cert.ReferenceIdeal.main_arg0).trans (Cert.ReferenceIdeal.Fold.kept_arg0 (StableHlo.launchContents m' c)),
     (h c Cert.ReferenceIdeal.main_arg1).trans (Cert.ReferenceIdeal.Fold.kept_arg1 (StableHlo.launchContents m' c)),
     (h c Cert.ReferenceIdeal.main_arg2).trans (Cert.ReferenceIdeal.Fold.kept_arg2 (StableHlo.launchContents m' c)),
     (h c Cert.ReferenceIdeal.main_arg3).trans (Cert.ReferenceIdeal.Fold.kept_arg3 (StableHlo.launchContents m' c)),
     (h c Cert.ReferenceIdeal.main_arg4).trans (Cert.ReferenceIdeal.Fold.kept_arg4 (StableHlo.launchContents m' c)),
     (h c Cert.ReferenceIdeal.main_arg5).trans (Cert.ReferenceIdeal.Fold.kept_arg5 (StableHlo.launchContents m' c)),
     (h c Cert.ReferenceIdeal.main_arg6).trans (Cert.ReferenceIdeal.Fold.kept_arg6 (StableHlo.launchContents m' c)),
     (h c Cert.ReferenceIdeal.main_arg7).trans (Cert.ReferenceIdeal.Fold.kept_arg7 (StableHlo.launchContents m' c)),
     (h c Cert.ReferenceIdeal.main_arg8).trans (Cert.ReferenceIdeal.Fold.kept_arg8 (StableHlo.launchContents m' c)),
     (h c Cert.ReferenceIdeal.main_arg9).trans (Cert.ReferenceIdeal.Fold.kept_arg9 (StableHlo.launchContents m' c)),
     (h c Cert.ReferenceIdeal.main_arg10).trans (Cert.ReferenceIdeal.Fold.kept_arg10 (StableHlo.launchContents m' c)),
     (h c Cert.ReferenceIdeal.main_arg11).trans (Cert.ReferenceIdeal.Fold.kept_arg11 (StableHlo.launchContents m' c)),
     (h c Cert.ReferenceIdeal.main_arg12).trans (Cert.ReferenceIdeal.Fold.kept_arg12 (StableHlo.launchContents m' c)),
     (h c Cert.ReferenceIdeal.main_arg13).trans (Cert.ReferenceIdeal.Fold.kept_arg13 (StableHlo.launchContents m' c))⟩)
    (Cert.ReferenceIdeal.Fold.run_fold (F := Ideal) m' ρ')
  obtain ⟨h0, h1, h2, h3, h4, h5, h6, h7, h8, h9, h10, h11, h12, h13⟩ := hagree c
  refine ((h c Cert.ReferenceIdeal.main_v99).trans (Cert.ReferenceIdeal.Fold.result_eq (StableHlo.launchContents m' c))).trans ?_
  refine Eq.trans ?_ (Cert.KernelIdeal.Chain.result_eq m ρ c).symm
  show Cert.Stages.network (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))
    = Cert.Stages.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
  rw [h0, h1, h2, h3, h4, h5, h6, h7, h8, h9, h10, h11, h12, h13]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
